-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v159) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000 : Shape := ⟨1, ![800000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg16 : FVec F S32 .f32) (main_arg17 : FVec F S32x1 .f32) (main_arg18 : FVec F S1 .f32) (main_v63 : IVec S_ 1) (main_v67 : IVec S_ 1) : IVec S_ 1 :=
  let main_v68 : IVec S_ 1 := andi main_v63 main_v67
  let main_v69 : FVec F S32 .f32 := Host.absf main_arg16
  let main_cst_26 : FVec F S_ .f32 := constant S_ .f32 0x7F800000#32
  let main_v70 : FVec F S32 .f32 := broadcastInDim S32 ![] bcast_S_S32 main_cst_26
  let main_v71 : IVec S32 1 := cmpf .olt main_v69 main_v70
  let main_c_27 : IVec S_ 1 := constantI S_ 1 1#1
  let main_v72 : IVec S_ 1 := (fun x v => Host.reduce IntOp.andi x v reducesTo_S32_S_d0 h_S_) main_v71 main_c_27
  let main_v73 : IVec S_ 1 := andi main_v68 main_v72
  let main_v74 : FVec F S32x1 .f32 := Host.absf main_arg17
  let main_cst_28 : FVec F S_ .f32 := constant S_ .f32 0x7F800000#32
  let main_v75 : FVec F S32x1 .f32 := broadcastInDim S32x1 ![] bcast_S_S32x1 main_cst_28
  let main_v76 : IVec S32x1 1 := cmpf .olt main_v74 main_v75
  let main_c_29 : IVec S_ 1 := constantI S_ 1 1#1
  let main_v77 : IVec S_ 1 := (fun x v => Host.reduce IntOp.andi x v reducesTo_S32x1_S_d0_1 h_S_) main_v76 main_c_29
  let main_v78 : IVec S_ 1 := andi main_v73 main_v77
  let main_v79 : FVec F S1 .f32 := Host.absf main_arg18
  let main_cst_30 : FVec F S_ .f32 := constant S_ .f32 0x7F800000#32
  let main_v80 : FVec F S1 .f32 := broadcastInDim S1 ![] bcast_S_S1 main_cst_30
  let main_v81 : IVec S1 1 := cmpf .olt main_v79 main_v80
  let main_c_31 : IVec S_ 1 := constantI S_ 1 1#1
  let main_v82 : IVec S_ 1 := (fun x v => Host.reduce IntOp.andi x v reducesTo_S1_S_d0 h_S_) main_v81 main_c_31
  let main_v83 : IVec S_ 1 := andi main_v78 main_v82
  main_v83

def fn_part3 {F : FTy → Type} [FloatOps F] (main_arg13 : FVec F S32x1 .f32) (main_arg14 : FVec F S1 .f32) (main_arg15 : FVec F S64x32 .f32) (main_arg16 : FVec F S32 .f32) (main_arg17 : FVec F S32x1 .f32) (main_arg18 : FVec F S1 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S32x1 .f32 := Host.absf main_arg13
  let main_cst_20 : FVec F S_ .f32 := constant S_ .f32 0x7F800000#32
  let main_v55 : FVec F S32x1 .f32 := broadcastInDim S32x1 ![] bcast_S_S32x1 main_cst_20
  let main_v56 : IVec S32x1 1 := cmpf .olt main_v54 main_v55
  let main_c_21 : IVec S_ 1 := constantI S_ 1 1#1
  let main_v57 : IVec S_ 1 := (fun x v => Host.reduce IntOp.andi x v reducesTo_S32x1_S_d0_1 h_S_) main_v56 main_c_21
  let main_v58 : IVec S_ 1 := andi main_v53 main_v57
  let main_v59 : FVec F S1 .f32 := Host.absf main_arg14
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  let main_v64 : FVec F S64x32 .f32 := Host.absf main_arg15
  let main_cst_24 : FVec F S_ .f32 := constant S_ .f32 0x7F800000#32
  let main_v65 : FVec F S64x32 .f32 := broadcastInDim S64x32 ![] bcast_S_S64x32 main_cst_24
  let main_v66 : IVec S64x32 1 := cmpf .olt main_v64 main_v65
  let main_c_25 : IVec S_ 1 := constantI S_ 1 1#1
  let main_v67 : IVec S_ 1 := (fun x v => Host.reduce IntOp.andi x v reducesTo_S64x32_S_d0_1 h_S_) main_v66 main_c_25
  fn_part4 (F := F) main_arg16 main_arg17 main_arg18 main_v63 main_v67

def fn_part2 {F : FTy → Type} [FloatOps F] (main_arg9 : FVec F S64x32 .f32) (main_arg10 : FVec F S32 .f32) (main_arg11 : FVec F S64x32 .f32) (main_arg12 : FVec F S32 .f32) (main_arg13 : FVec F S32x1 .f32) (main_arg14 : FVec F S1 .f32) (main_arg15 : FVec F S64x32 .f32) (main_arg16 : FVec F S32 .f32) (main_arg17 : FVec F S32x1 .f32) (main_arg18 : FVec F S1 .f32) (main_v33 : IVec S_ 1) : IVec S_ 1 :=
  let main_v34 : FVec F S64x32 .f32 := Host.absf main_arg9
  let main_cst_12 : FVec F S_ .f32 := constant S_ .f32 0x7F800000#32
  let main_v35 : FVec F S64x32 .f32 := broadcastInDim S64x32 ![] bcast_S_S64x32 main_cst_12
  let main_v36 : IVec S64x32 1 := cmpf .olt main_v34 main_v35
  let main_c_13 : IVec S_ 1 := constantI S_ 1 1#1
  let main_v37 : IVec S_ 1 := (fun x v => Host.reduce IntOp.andi x v reducesTo_S64x32_S_d0_1 h_S_) main_v36 main_c_13
  let main_v38 : IVec S_ 1 := andi main_v33 main_v37
  let main_v39 : FVec F S32 .f32 := Host.absf main_arg10
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S64x32 .f32 := Host.absf main_arg11
  let main_cst_16 : FVec F S_ .f32 := constant S_ .f32 0x7F800000#32
  let main_v45 : FVec F S64x32 .f32 := broadcastInDim S64x32 ![] bcast_S_S64x32 main_cst_16
  let main_v46 : IVec S64x32 1 := cmpf .olt main_v44 main_v45
  let main_c_17 : IVec S_ 1 := constantI S_ 1 1#1
  let main_v47 : IVec S_ 1 := (fun x v => Host.reduce IntOp.andi x v reducesTo_S64x32_S_d0_1 h_S_) main_v46 main_c_17
  let main_v48 : IVec S_ 1 := andi main_v43 main_v47
  let main_v49 : FVec F S32 .f32 := Host.absf main_arg12
  let main_cst_18 : FVec F S_ .f32 := constant S_ .f32 0x7F800000#32
  let main_v50 : FVec F S32 .f32 := broadcastInDim S32 ![] bcast_S_S32 main_cst_18
  fn_part3 (F := F) main_arg13 main_arg14 main_arg15 main_arg16 main_arg17 main_arg18 main_v48 main_v49 main_v50

def fn_part1 {F : FTy → Type} [FloatOps F] (main_arg6 : FVec F S64 .f32) (main_arg7 : FVec F S128x64 .f32) (main_arg8 : FVec F S64 .f32) (main_arg9 : FVec F S64x32 .f32) (main_arg10 : FVec F S32 .f32) (main_arg11 : FVec F S64x32 .f32) (main_arg12 : FVec F S32 .f32) (main_arg13 : FVec F S32x1 .f32) (main_arg14 : FVec F S1 .f32) (main_arg15 : FVec F S64x32 .f32) (main_arg16 : FVec F S32 .f32) (main_arg17 : FVec F S32x1 .f32) (main_arg18 : FVec F S1 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S128x64 .f32 := Host.absf main_arg7
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_v33

def fn {F : FTy → Type} [FloatOps F] (main_arg0 : FVec F S50000x64 .f32) (main_arg1 : IVec S800000 32) (main_arg2 : IVec S800000 32) (main_arg3 : FVec F S64x128 .f32) (main_arg4 : FVec F S128 .f32) (main_arg5 : FVec F S128x64 .f32) (main_arg6 : FVec F S64 .f32) (main_arg7 : FVec F S128x64 .f32) (main_arg8 : FVec F S64 .f32) (main_arg9 : FVec F S64x32 .f32) (main_arg10 : FVec F S32 .f32) (main_arg11 : FVec F S64x32 .f32) (main_arg12 : FVec F S32 .f32) (main_arg13 : FVec F S32x1 .f32) (main_arg14 : FVec F S1 .f32) (main_arg15 : FVec F S64x32 .f32) (main_arg16 : FVec F S32 .f32) (main_arg17 : FVec F S32x1 .f32) (main_arg18 : FVec F S1 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x128 .f32 := Host.absf main_arg3
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg5
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg6 main_arg7 main_arg8 main_arg9 main_arg10 main_arg11 main_arg12 main_arg13 main_arg14 main_arg15 main_arg16 main_arg17 main_arg18 main_v13 main_v16
-- ==== Kernel.lean ====
abbrev S50000x64 : Shape := ⟨2, ![50000, 64]⟩
abbrev S800000 : Shape := ⟨1, ![800000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩
abbrev S800000x1 : Shape := ⟨2, ![800000, 1]⟩
abbrev S800000x64 : Shape := ⟨2, ![800000, 64]⟩
abbrev S1x128 : Shape := ⟨2, ![1, 128]⟩
abbrev S50000x128 : Shape := ⟨2, ![50000, 128]⟩
abbrev S5000x64 : Shape := ⟨2, ![5000, 64]⟩
abbrev S5000x128 : Shape := ⟨2, ![5000, 128]⟩
abbrev S800000x128 : Shape := ⟨2, ![800000, 128]⟩
abbrev S1x64 : Shape := ⟨2, ![1, 64]⟩
abbrev S8000x128 : Shape := ⟨2, ![8000, 128]⟩
abbrev S8000x64 : Shape := ⟨2, ![8000, 64]⟩
abbrev S1x32 : Shape := ⟨2, ![1, 32]⟩
abbrev S800000x32 : Shape := ⟨2, ![800000, 32]⟩
abbrev S8000x32 : Shape := ⟨2, ![8000, 32]⟩
abbrev S50000x32 : Shape := ⟨2, ![50000, 32]⟩
abbrev S5000x32 : Shape := ⟨2, ![5000, 32]⟩
abbrev S1x1 : Shape := ⟨2, ![1, 1]⟩
abbrev S8000x1 : Shape := ⟨2, ![8000, 1]⟩

abbrev nBuf : Space → Nat
  | .hbm => 128
  | .vmem => 64
  | .smem => 0
  | _ => 0

abbrev bufTy : (tb : Table) → Fin (tcTables nBuf tb) → BufTy
  | .hbm, ⟨0, _⟩ => ⟨S50000x64, .f32⟩
  | .hbm, ⟨1, _⟩ => ⟨S800000, .i32⟩
  | .hbm, ⟨2, _⟩ => ⟨S800000, .i32⟩
  | .hbm, ⟨3, _⟩ => ⟨S64x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S128x64, .f32⟩
  | .hbm, ⟨8, _⟩ => ⟨S64, .f32⟩
  | .hbm, ⟨9, _⟩ => ⟨S64x32, .f32⟩
  | .hbm, ⟨10, _⟩ => ⟨S32, .f32⟩
  | .hbm, ⟨11, _⟩ => ⟨S64x32, .f32⟩
  | .hbm, ⟨12, _⟩ => ⟨S32, .f32⟩
  | .hbm, ⟨13, _⟩ => ⟨S32x1, .f32⟩
  | .hbm, ⟨14, _⟩ => ⟨S1, .f32⟩
  | .hbm, ⟨15, _⟩ => ⟨S64x32, .f32⟩
  | .hbm, ⟨16, _⟩ => ⟨S32, .f32⟩
  | .hbm, ⟨17, _⟩ => ⟨S32x1, .f32⟩
  | .hbm, ⟨18, _⟩ => ⟨S1, .f32⟩
  | .hbm, ⟨19, _⟩ => ⟨S_, .i32⟩
  | .hbm, ⟨20, _⟩ => ⟨S800000, .i32⟩
  | .hbm, ⟨21, _⟩ => ⟨S800000, .i1⟩
  | .hbm, ⟨22, _⟩ => ⟨S_, .i32⟩
  | .hbm, ⟨23, _⟩ => ⟨S800000, .i32⟩
  | .hbm, ⟨24, _⟩ => ⟨S800000, .i32⟩
  | .hbm, ⟨25, _⟩ => ⟨S800000, .i32⟩
  | .hbm, ⟨26, _⟩ => ⟨S800000x1, .i32⟩
  | .hbm, ⟨27, _⟩ => ⟨S800000x64, .f32⟩
  | .hbm, ⟨28, _⟩ => ⟨S_, .f32⟩
  | .hbm, ⟨29, _⟩ => ⟨S50000x64, .f32⟩
  | .hbm, ⟨30, _⟩ => ⟨S800000x1, .i32⟩
  | .hbm, ⟨31, _⟩ => ⟨S50000x64, .f32⟩
  | .hbm, ⟨32, _⟩ => ⟨S1x128, .f32⟩
  | .hbm, ⟨33, _⟩ => ⟨S50000x128, .f32⟩
  | .hbm, ⟨34, _⟩ => ⟨S_, .i32⟩
  | .hbm, ⟨35, _⟩ => ⟨S800000, .i32⟩
  | .hbm, ⟨36, _⟩ => ⟨S800000, .i1⟩
  | .hbm, ⟨37, _⟩ => ⟨S_, .i32⟩
  | .hbm, ⟨38, _⟩ => ⟨S800000, .i32⟩
  | .hbm, ⟨39, _⟩ => ⟨S800000, .i32⟩
  | .hbm, ⟨40, _⟩ => ⟨S800000, .i32⟩
  | .hbm, ⟨41, _⟩ => ⟨S800000x1, .i32⟩
  | .hbm, ⟨42, _⟩ => ⟨S800000x128, .f32⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S800000x128, .f32⟩
  | .hbm, ⟨52, _⟩ => ⟨S1x64, .f32⟩
  | .hbm, ⟨53, _⟩ => ⟨S800000x64, .f32⟩
  | .hbm, ⟨54, _⟩ => ⟨S_, .i32⟩
  | .hbm, ⟨55, _⟩ => ⟨S800000, .i32⟩
  | .hbm, ⟨56, _⟩ => ⟨S800000, .i1⟩
  | .hbm, ⟨57, _⟩ => ⟨S_, .i32⟩
  | .hbm, ⟨58, _⟩ => ⟨S800000, .i32⟩
  | .hbm, ⟨59, _⟩ => ⟨S800000, .i32⟩
  | .hbm, ⟨60, _⟩ => ⟨S800000, .i32⟩
  | .hbm, ⟨61, _⟩ => ⟨S800000x1, .i32⟩
  | .hbm, ⟨62, _⟩ => ⟨S800000x128, .f32⟩
  | .hbm, ⟨63, _⟩ => ⟨S_, .f32⟩
  | .hbm, ⟨64, _⟩ => ⟨S50000x128, .f32⟩
  | .hbm, ⟨65, _⟩ => ⟨S800000x1, .i32⟩
  | .hbm, ⟨66, _⟩ => ⟨S50000x128, .f32⟩
  | .hbm, ⟨67, _⟩ => ⟨S1x64, .f32⟩
  | .hbm, ⟨68, _⟩ => ⟨S50000x64, .f32⟩
  | .hbm, ⟨69, _⟩ => ⟨S_, .i32⟩
  | .hbm, ⟨70, _⟩ => ⟨S800000, .i32⟩
  | .hbm, ⟨71, _⟩ => ⟨S800000, .i1⟩
  | .hbm, ⟨72, _⟩ => ⟨S_, .i32⟩
  | .hbm, ⟨73, _⟩ => ⟨S800000, .i32⟩
  | .hbm, ⟨74, _⟩ => ⟨S800000, .i32⟩
  | .hbm, ⟨75, _⟩ => ⟨S800000, .i32⟩
  | .hbm, ⟨76, _⟩ => ⟨S800000x1, .i32⟩
  | .hbm, ⟨77, _⟩ => ⟨S800000x64, .f32⟩
  | .hbm, ⟨78, _⟩ => ⟨S_, .i32⟩
  | .hbm, ⟨79, _⟩ => ⟨S800000, .i32⟩
  | .hbm, ⟨80, _⟩ => ⟨S800000, .i1⟩
  | .hbm, ⟨81, _⟩ => ⟨S_, .i32⟩
  | .hbm, ⟨82, _⟩ => ⟨S800000, .i32⟩
  | .hbm, ⟨83, _⟩ => ⟨S800000, .i32⟩
  | .hbm, ⟨84, _⟩ => ⟨S800000, .i32⟩
  | .hbm, ⟨85, _⟩ => ⟨S800000x1, .i32⟩
  | .hbm, ⟨86, _⟩ => ⟨S800000x64, .f32⟩
  | .hbm, ⟨87, _⟩ => ⟨S1x32, .f32⟩
  | .hbm, ⟨88, _⟩ => ⟨S800000x32, .f32⟩
  | .hbm, ⟨89, _⟩ => ⟨S1x32, .f32⟩
  | .hbm, ⟨90, _⟩ => ⟨S800000x32, .f32⟩
  | .hbm, ⟨91, _⟩ => ⟨S_, .i32⟩
  | .hbm, ⟨92, _⟩ => ⟨S800000, .i32⟩
  | .hbm, ⟨93, _⟩ => ⟨S800000, .i1⟩
  | .hbm, ⟨94, _⟩ => ⟨S_, .i32⟩
  | .hbm, ⟨95, _⟩ => ⟨S800000, .i32⟩
  | .hbm, ⟨96, _⟩ => ⟨S800000, .i32⟩
  | .hbm, ⟨97, _⟩ => ⟨S800000, .i32⟩
  | .hbm, ⟨98, _⟩ => ⟨S800000x1, .i32⟩
  | .hbm, ⟨99, _⟩ => ⟨S800000x64, .f32⟩
  | .hbm, ⟨100, _⟩ => ⟨S_, .f32⟩
  | .hbm, ⟨101, _⟩ => ⟨S50000x64, .f32⟩
  | .hbm, ⟨102, _⟩ => ⟨S800000x1, .i32⟩
  | .hbm, ⟨103, _⟩ => ⟨S50000x64, .f32⟩
  | .hbm, ⟨104, _⟩ => ⟨S1x32, .f32⟩
  | .hbm, ⟨105, _⟩ => ⟨S50000x32, .f32⟩
  | .hbm, ⟨106, _⟩ => ⟨S_, .i32⟩
  | .hbm, ⟨107, _⟩ => ⟨S800000, .i32⟩
  | .hbm, ⟨108, _⟩ => ⟨S800000, .i1⟩
  | .hbm, ⟨109, _⟩ => ⟨S_, .i32⟩
  | .hbm, ⟨110, _⟩ => ⟨S800000, .i32⟩
  | .hbm, ⟨111, _⟩ => ⟨S800000, .i32⟩
  | .hbm, ⟨112, _⟩ => ⟨S800000, .i32⟩
  | .hbm, ⟨113, _⟩ => ⟨S800000x1, .i32⟩
  | .hbm, ⟨114, _⟩ => ⟨S800000x32, .f32⟩
  | .hbm, ⟨115, _⟩ => ⟨S_, .i32⟩
  | .hbm, ⟨116, _⟩ => ⟨S800000, .i32⟩
  | .hbm, ⟨117, _⟩ => ⟨S800000, .i1⟩
  | .hbm, ⟨118, _⟩ => ⟨S_, .i32⟩
  | .hbm, ⟨119, _⟩ => ⟨S800000, .i32⟩
  | .hbm, ⟨120, _⟩ => ⟨S800000, .i32⟩
  | .hbm, ⟨121, _⟩ => ⟨S800000, .i32⟩
  | .hbm, ⟨122, _⟩ => ⟨S800000x1, .i32⟩
  | .hbm, ⟨123, _⟩ => ⟨S800000x32, .f32⟩
  | .hbm, ⟨124, _⟩ => ⟨S1x1, .f32⟩
  | .hbm, ⟨125, _⟩ => ⟨S800000x1, .f32⟩
  | .hbm, ⟨126, _⟩ => ⟨S1x1, .f32⟩
  | .hbm, ⟨127, _⟩ => ⟨S800000x1, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x128, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | .local _ .vmem, ⟨8, _⟩ => ⟨S8000x128, .f32⟩
  | .local _ .vmem, ⟨9, _⟩ => ⟨S8000x128, .f32⟩
  | .local _ .vmem, ⟨10, _⟩ => ⟨S8000x128, .f32⟩
  | .local _ .vmem, ⟨11, _⟩ => ⟨S8000x128, .f32⟩
  | .local _ .vmem, ⟨12, _⟩ => ⟨S128x64, .f32⟩
  | .local _ .vmem, ⟨13, _⟩ => ⟨S1x64, .f32⟩
  | .local _ .vmem, ⟨14, _⟩ => ⟨S8000x64, .f32⟩
  | .local _ .vmem, ⟨15, _⟩ => ⟨S8000x64, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S128x64, .f32⟩
  | .local _ .vmem, ⟨21, _⟩ => ⟨S1x64, .f32⟩
  | .local _ .vmem, ⟨22, _⟩ => ⟨S5000x64, .f32⟩
  | .local _ .vmem, ⟨23, _⟩ => ⟨S5000x64, .f32⟩
  | .local _ .vmem, ⟨24, _⟩ => ⟨S8000x64, .f32⟩
  | .local _ .vmem, ⟨25, _⟩ => ⟨S8000x64, .f32⟩
  | .local _ .vmem, ⟨26, _⟩ => ⟨S8000x64, .f32⟩
  | .local _ .vmem, ⟨27, _⟩ => ⟨S8000x64, .f32⟩
  | .local _ .vmem, ⟨28, _⟩ => ⟨S64x32, .f32⟩
  | .local _ .vmem, ⟨29, _⟩ => ⟨S1x32, .f32⟩
  | .local _ .vmem, ⟨30, _⟩ => ⟨S8000x32, .f32⟩
  | .local _ .vmem, ⟨31, _⟩ => ⟨S8000x32, .f32⟩
  | .local _ .vmem, ⟨32, _⟩ => ⟨S8000x64, .f32⟩
  | .local _ .vmem, ⟨33, _⟩ => ⟨S8000x64, .f32⟩
  | .local _ .vmem, ⟨34, _⟩ => ⟨S64x32, .f32⟩
  | .local _ .vmem, ⟨35, _⟩ => ⟨S1x32, .f32⟩
  | .local _ .vmem, ⟨36, _⟩ => ⟨S8000x32, .f32⟩
  | .local _ .vmem, ⟨37, _⟩ => ⟨S8000x32, .f32⟩
  | .local _ .vmem, ⟨38, _⟩ => ⟨S8000x32, .f32⟩
  | .local _ .vmem, ⟨39, _⟩ => ⟨S8000x32, .f32⟩
  | .local _ .vmem, ⟨40, _⟩ => ⟨S5000x64, .f32⟩
  | .local _ .vmem, ⟨41, _⟩ => ⟨S5000x64, .f32⟩
  | .local _ .vmem, ⟨42, _⟩ => ⟨S5000x64, .f32⟩
  | .local _ .vmem, ⟨43, _⟩ => ⟨S5000x64, .f32⟩
  | .local _ .vmem, ⟨44, _⟩ => ⟨S64x32, .f32⟩
  | .local _ .vmem, ⟨45, _⟩ => ⟨S1x32, .f32⟩
  | .local _ .vmem, ⟨46, _⟩ => ⟨S5000x32, .f32⟩
  | .local _ .vmem, ⟨47, _⟩ => ⟨S5000x32, .f32⟩
  | .local _ .vmem, ⟨48, _⟩ => ⟨S8000x32, .f32⟩
  | .local _ .vmem, ⟨49, _⟩ => ⟨S8000x32, .f32⟩
  | .local _ .vmem, ⟨50, _⟩ => ⟨S8000x32, .f32⟩
  | .local _ .vmem, ⟨51, _⟩ => ⟨S8000x32, .f32⟩
  | .local _ .vmem, ⟨52, _⟩ => ⟨S32x1, .f32⟩
  | .local _ .vmem, ⟨53, _⟩ => ⟨S1x1, .f32⟩
  | .local _ .vmem, ⟨54, _⟩ => ⟨S8000x1, .f32⟩
  | .local _ .vmem, ⟨55, _⟩ => ⟨S8000x1, .f32⟩
  | .local _ .vmem, ⟨56, _⟩ => ⟨S8000x32, .f32⟩
  | .local _ .vmem, ⟨57, _⟩ => ⟨S8000x32, .f32⟩
  | .local _ .vmem, ⟨58, _⟩ => ⟨S32x1, .f32⟩
  | .local _ .vmem, ⟨59, _⟩ => ⟨S1x1, .f32⟩
  | .local _ .vmem, ⟨60, _⟩ => ⟨S8000x1, .f32⟩
  | .local _ .vmem, ⟨61, _⟩ => ⟨S8000x1, .f32⟩
  | .local _ .vmem, ⟨62, _⟩ => ⟨S8000x1, .f32⟩
  | .local _ .vmem, ⟨63, _⟩ => ⟨S8000x1, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_c : Ref sig .tc := ⟨.hbm, 19, rfl⟩
abbrev main_v0 : Ref sig .tc := ⟨.hbm, 20, rfl⟩
abbrev main_v1 : Ref sig .tc := ⟨.hbm, 21, rfl⟩
abbrev main_c_0 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_cst : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_c_1 : Ref sig .tc := ⟨.hbm, 34, rfl⟩
abbrev main_v12 : Ref sig .tc := ⟨.hbm, 35, rfl⟩
abbrev main_v13 : Ref sig .tc := ⟨.hbm, 36, rfl⟩
abbrev main_c_2 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_c_3 : Ref sig .tc := ⟨.hbm, 43, rfl⟩
abbrev main_v19 : Ref sig .tc := ⟨.hbm, 44, rfl⟩
abbrev main_v20 : Ref sig .tc := ⟨.hbm, 45, rfl⟩
abbrev main_c_4 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_c_5 : Ref sig .tc := ⟨.hbm, 54, rfl⟩
abbrev main_v28 : Ref sig .tc := ⟨.hbm, 55, rfl⟩
abbrev main_v29 : Ref sig .tc := ⟨.hbm, 56, rfl⟩
abbrev main_c_6 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_cst_7 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_c_8 : Ref sig .tc := ⟨.hbm, 69, rfl⟩
abbrev main_v40 : Ref sig .tc := ⟨.hbm, 70, rfl⟩
abbrev main_v41 : Ref sig .tc := ⟨.hbm, 71, rfl⟩
abbrev main_c_9 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_c_10 : Ref sig .tc := ⟨.hbm, 78, rfl⟩
abbrev main_v47 : Ref sig .tc := ⟨.hbm, 79, rfl⟩
abbrev main_v48 : Ref sig .tc := ⟨.hbm, 80, rfl⟩
abbrev main_c_11 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_c_12 : Ref sig .tc := ⟨.hbm, 91, rfl⟩
abbrev main_v58 : Ref sig .tc := ⟨.hbm, 92, rfl⟩
abbrev main_v59 : Ref sig .tc := ⟨.hbm, 93, rfl⟩
abbrev main_c_13 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_cst_14 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_c_15 : Ref sig .tc := ⟨.hbm, 106, rfl⟩
abbrev main_v70 : Ref sig .tc := ⟨.hbm, 107, rfl⟩
abbrev main_v71 : Ref sig .tc := ⟨.hbm, 108, rfl⟩
abbrev main_c_16 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_c_17 : Ref sig .tc := ⟨.hbm, 115, rfl⟩
abbrev main_v77 : Ref sig .tc := ⟨.hbm, 116, rfl⟩
abbrev main_v78 : Ref sig .tc := ⟨.hbm, 117, rfl⟩
abbrev main_c_18 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg4_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg2_0 : Ref sig .tc := ⟨.vmem, 35, rfl⟩
abbrev cc4_stg3_0 : Ref sig .tc := ⟨.vmem, 36, rfl⟩
abbrev cc4_stg3_1 : Ref sig .tc := ⟨.vmem, 37, rfl⟩
abbrev cc4_stg4_0 : Ref sig .tc := ⟨.vmem, 38, rfl⟩
abbrev cc4_stg4_1 : Ref sig .tc := ⟨.vmem, 39, rfl⟩
abbrev cc5_stg0_0 : Ref sig .tc := ⟨.vmem, 40, rfl⟩
abbrev cc5_stg0_1 : Ref sig .tc := ⟨.vmem, 41, rfl⟩
abbrev cc5_stg1_0 : Ref sig .tc := ⟨.vmem, 42, rfl⟩
abbrev cc5_stg1_1 : Ref sig .tc := ⟨.vmem, 43, rfl⟩
abbrev cc5_stg2_0 : Ref sig .tc := ⟨.vmem, 44, rfl⟩
abbrev cc5_stg3_0 : Ref sig .tc := ⟨.vmem, 45, rfl⟩
abbrev cc5_stg4_0 : Ref sig .tc := ⟨.vmem, 46, rfl⟩
abbrev cc5_stg4_1 : Ref sig .tc := ⟨.vmem, 47, rfl⟩
abbrev cc6_stg0_0 : Ref sig .tc := ⟨.vmem, 48, rfl⟩
abbrev cc6_stg0_1 : Ref sig .tc := ⟨.vmem, 49, rfl⟩
abbrev cc6_stg1_0 : Ref sig .tc := ⟨.vmem, 50, rfl⟩
abbrev cc6_stg1_1 : Ref sig .tc := ⟨.vmem, 51, rfl⟩
abbrev cc6_stg2_0 : Ref sig .tc := ⟨.vmem, 52, rfl⟩
abbrev cc6_stg3_0 : Ref sig .tc := ⟨.vmem, 53, rfl⟩
abbrev cc6_stg4_0 : Ref sig .tc := ⟨.vmem, 54, rfl⟩
abbrev cc6_stg4_1 : Ref sig .tc := ⟨.vmem, 55, rfl⟩
abbrev cc7_stg0_0 : Ref sig .tc := ⟨.vmem, 56, rfl⟩
abbrev cc7_stg0_1 : Ref sig .tc := ⟨.vmem, 57, rfl⟩
abbrev cc7_stg1_0 : Ref sig .tc := ⟨.vmem, 58, rfl⟩
abbrev cc7_stg2_0 : Ref sig .tc := ⟨.vmem, 59, rfl⟩
abbrev cc7_stg3_0 : Ref sig .tc := ⟨.vmem, 60, rfl⟩
abbrev cc7_stg3_1 : Ref sig .tc := ⟨.vmem, 61, rfl⟩
abbrev cc7_stg4_0 : Ref sig .tc := ⟨.vmem, 62, rfl⟩
abbrev cc7_stg4_1 : Ref sig .tc := ⟨.vmem, 63, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem4_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem3_0 : DmaSem sig := 29
abbrev cc3_sem4_0 : DmaSem sig := 30
abbrev cc3_sem4_1 : DmaSem sig := 31
abbrev cc4_sem0_0 : DmaSem sig := 32
abbrev cc4_sem0_1 : DmaSem sig := 33
abbrev cc4_sem1_0 : DmaSem sig := 34
abbrev cc4_sem2_0 : DmaSem sig := 35
abbrev cc4_sem3_0 : DmaSem sig := 36
abbrev cc4_sem3_1 : DmaSem sig := 37
abbrev cc4_sem4_0 : DmaSem sig := 38
abbrev cc4_sem4_1 : DmaSem sig := 39
abbrev cc5_sem0_0 : DmaSem sig := 40
abbrev cc5_sem0_1 : DmaSem sig := 41
abbrev cc5_sem1_0 : DmaSem sig := 42
abbrev cc5_sem1_1 : DmaSem sig := 43
abbrev cc5_sem2_0 : DmaSem sig := 44
abbrev cc5_sem3_0 : DmaSem sig := 45
abbrev cc5_sem4_0 : DmaSem sig := 46
abbrev cc5_sem4_1 : DmaSem sig := 47
abbrev cc6_sem0_0 : DmaSem sig := 48
abbrev cc6_sem0_1 : DmaSem sig := 49
abbrev cc6_sem1_0 : DmaSem sig := 50
abbrev cc6_sem1_1 : DmaSem sig := 51
abbrev cc6_sem2_0 : DmaSem sig := 52
abbrev cc6_sem3_0 : DmaSem sig := 53
abbrev cc6_sem4_0 : DmaSem sig := 54
abbrev cc6_sem4_1 : DmaSem sig := 55
abbrev cc7_sem0_0 : DmaSem sig := 56
abbrev cc7_sem0_1 : DmaSem sig := 57
abbrev cc7_sem1_0 : DmaSem sig := 58
abbrev cc7_sem2_0 : DmaSem sig := 59
abbrev cc7_sem3_0 : DmaSem sig := 60
abbrev cc7_sem3_1 : DmaSem sig := 61
abbrev cc7_sem4_0 : DmaSem sig := 62
abbrev cc7_sem4_1 : DmaSem sig := 63

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S8000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![100], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S8000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x32 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x32 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S8000x32 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![100], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x32 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x32 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S8000x32 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S8000x32 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S64x32 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x32 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x32 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![100], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S8000x32 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S8000x32 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S32x1 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x1 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S8000x1 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev grid7 : Pipeline.Grid := ⟨1, ![100], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S8000x32 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S32x1 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x1 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S8000x1 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev stage7_4 : Fin 2 → Memref sig .tc .vmem S8000x1 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  shapeCasts_S128_S1x128 : S128.ShapeCasts S1x128
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  shapeCasts_S64_S1x64 : S64.ShapeCasts S1x64
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8000x64 : S1x64.Broadcasts S8000x64
  inb_S8000x64_S8000x64_0_0 : ∀ a, (![0, 0] : Fin 2 → Nat) a + S8000x64.size a ≤ S8000x64.size a
  h_S8000x64 : 0 < S8000x64.numel
  bcast_S_S50000x128 : S_.BroadcastsInDim S50000x128 (![] : Fin 0 → Fin S50000x128.rank)
  shapeCasts_S5000x128_S5000x128 : S5000x128.ShapeCasts S5000x128
  broadcasts_S1x64_S5000x64 : S1x64.Broadcasts S5000x64
  shapeCasts_S32_S1x32 : S32.ShapeCasts S1x32
  shapeCasts_S8000x64_S8000x64 : S8000x64.ShapeCasts S8000x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S8000x32 : S1x32.Broadcasts S8000x32
  inb_S8000x32_S8000x32_0_0 : ∀ a, (![0, 0] : Fin 2 → Nat) a + S8000x32.size a ≤ S8000x32.size a
  h_S8000x32 : 0 < S8000x32.numel
  shapeCasts_S8000x32_S8000x32 : S8000x32.ShapeCasts S8000x32
  broadcasts_S1x32_S5000x32 : S1x32.Broadcasts S5000x32
  inb_S5000x32_S5000x32_0_0 : ∀ a, (![0, 0] : Fin 2 → Nat) a + S5000x32.size a ≤ S5000x32.size a
  h_S5000x32 : 0 < S5000x32.numel
  shapeCasts_S1_S1x1 : S1.ShapeCasts S1x1
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S8000x1 : S1x1.Broadcasts S8000x1
  inb_S8000x1_S8000x1_0_0 : ∀ a, (![0, 0] : Fin 2 → Nat) a + S8000x1.size a ≤ S8000x1.size a
  h_S8000x1 : 0 < S8000x1.numel
  shapeCasts_S8000x1_S8000x1 : S8000x1.ShapeCasts S8000x1
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x128_S5000x128_1_0_0_1_n_n_wf : DotDims.WF S5000x64 S64x128 S5000x128 [1] [0] [0] [1] [] []
  gather_S50000x128_S800000x1_S800000x128_1_0_n_n_0_1_1128_wf : GatherDims.WF S50000x128 S800000x1 S800000x128 [1] [0] [] [0] [] 1 ![1, 128]
  dot_S8000x128_S128x64_S8000x64_1_0_0_1_n_n_wf : DotDims.WF S8000x128 S128x64 S8000x64 [1] [0] [0] [1] [] []
  scatter_S50000x128_S800000x1_S800000x128_1_0_0_1_wf : ScatterDims.WF S50000x128 S800000x1 S800000x128 [1] [0] [0] 1
  dot_S5000x128_S128x64_S5000x64_1_0_0_1_n_n_wf : DotDims.WF S5000x128 S128x64 S5000x64 [1] [0] [0] [1] [] []
  dot_S8000x64_S64x32_S8000x32_1_0_0_1_n_n_wf : DotDims.WF S8000x64 S64x32 S8000x32 [1] [0] [0] [1] [] []
  dot_S5000x64_S64x32_S5000x32_1_0_0_1_n_n_wf : DotDims.WF S5000x64 S64x32 S5000x32 [1] [0] [0] [1] [] []
  gather_S50000x32_S800000x1_S800000x32_1_0_n_n_0_1_132_wf : GatherDims.WF S50000x32 S800000x1 S800000x32 [1] [0] [] [0] [] 1 ![1, 32]
  dot_S8000x32_S32x1_S8000x1_1_0_0_1_n_n_wf : DotDims.WF S8000x32 S32x1 S8000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S50000x64.size a
  hwx0_1 : ∀ i : grid0.Coords, EltTy.bits .f32 = 32 ∨ (Rect.block (s := S50000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S50000x128.size a
  hwx0_4 : ∀ i : grid0.Coords, EltTy.bits .f32 = 32 ∨ (Rect.block (s := S50000x128) S5000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x128.size a ≤ S800000x128.size a
  hwx1_0 : ∀ i : grid1.Coords, EltTy.bits .f32 = 32 ∨ (Rect.block (s := S800000x128) S8000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x128.size a ≤ S800000x128.size a
  hwx1_1 : ∀ i : grid1.Coords, EltTy.bits .f32 = 32 ∨ (Rect.block (s := S800000x128) S8000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S8000x64.size a ≤ S800000x64.size a
  hwx1_4 : ∀ i : grid1.Coords, EltTy.bits .f32 = 32 ∨ (Rect.block (s := S800000x64) S8000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .f32 = 32 ∨ (Rect.block (s := S128x64) S128x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S50000x64.size a
  hwx2_4 : ∀ i : grid2.Coords, EltTy.bits .f32 = 32 ∨ (Rect.block (s := S50000x64) S5000x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8000x64.size a ≤ S800000x64.size a
  hwx3_0 : ∀ i : grid3.Coords, EltTy.bits .f32 = 32 ∨ (Rect.block (s := S800000x64) S8000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S8000x64.size a ≤ S800000x64.size a
  hwx3_1 : ∀ i : grid3.Coords, EltTy.bits .f32 = 32 ∨ (Rect.block (s := S800000x64) S8000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x32.size a ≤ S64x32.size a
  hwx3_2 : ∀ i : grid3.Coords, EltTy.bits .f32 = 32 ∨ (Rect.block (s := S64x32) S64x32.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x32.size a ≤ S1x32.size a
  hwx3_3 : ∀ i : grid3.Coords, EltTy.bits .f32 = 32 ∨ (Rect.block (s := S1x32) S1x32.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S8000x32.size a ≤ S800000x32.size a
  hwx3_4 : ∀ i : grid3.Coords, EltTy.bits .f32 = 32 ∨ (Rect.block (s := S800000x32) S8000x32.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8000x64.size a ≤ S800000x64.size a
  hwx4_0 : ∀ i : grid4.Coords, EltTy.bits .f32 = 32 ∨ (Rect.block (s := S800000x64) S8000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x32.size a ≤ S64x32.size a
  hwx4_1 : ∀ i : grid4.Coords, EltTy.bits .f32 = 32 ∨ (Rect.block (s := S64x32) S64x32.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x32.size a ≤ S1x32.size a
  hwx4_2 : ∀ i : grid4.Coords, EltTy.bits .f32 = 32 ∨ (Rect.block (s := S1x32) S1x32.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S8000x32.size a ≤ S800000x32.size a
  hwx4_3 : ∀ i : grid4.Coords, EltTy.bits .f32 = 32 ∨ (Rect.block (s := S800000x32) S8000x32.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S8000x32.size a ≤ S800000x32.size a
  hwx4_4 : ∀ i : grid4.Coords, EltTy.bits .f32 = 32 ∨ (Rect.block (s := S800000x32) S8000x32.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S50000x64.size a
  hwx5_0 : ∀ i : grid5.Coords, EltTy.bits .f32 = 32 ∨ (Rect.block (s := S50000x64) S5000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x64.size a ≤ S50000x64.size a
  hwx5_1 : ∀ i : grid5.Coords, EltTy.bits .f32 = 32 ∨ (Rect.block (s := S50000x64) S5000x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S64x32.size a ≤ S64x32.size a
  hwx5_2 : ∀ i : grid5.Coords, EltTy.bits .f32 = 32 ∨ (Rect.block (s := S64x32) S64x32.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x32.size a ≤ S1x32.size a
  hwx5_3 : ∀ i : grid5.Coords, EltTy.bits .f32 = 32 ∨ (Rect.block (s := S1x32) S1x32.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x32.size a ≤ S50000x32.size a
  hwx5_4 : ∀ i : grid5.Coords, EltTy.bits .f32 = 32 ∨ (Rect.block (s := S50000x32) S5000x32.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S8000x32.size a ≤ S800000x32.size a
  hwx6_0 : ∀ i : grid6.Coords, EltTy.bits .f32 = 32 ∨ (Rect.block (s := S800000x32) S8000x32.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S8000x32.size a ≤ S800000x32.size a
  hwx6_1 : ∀ i : grid6.Coords, EltTy.bits .f32 = 32 ∨ (Rect.block (s := S800000x32) S8000x32.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S32x1.size a ≤ S32x1.size a
  hwx6_2 : ∀ i : grid6.Coords, EltTy.bits .f32 = 32 ∨ (Rect.block (s := S32x1) S32x1.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x1.size a ≤ S1x1.size a
  hwx6_3 : ∀ i : grid6.Coords, EltTy.bits .f32 = 32 ∨ (Rect.block (s := S1x1) S1x1.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S8000x1.size a ≤ S800000x1.size a
  hwx6_4 : ∀ i : grid6.Coords, EltTy.bits .f32 = 32 ∨ (Rect.block (s := S800000x1) S8000x1.size (cc6_transform_4 i) (hinb6_4 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S8000x32.size a ≤ S800000x32.size a
  hwx7_0 : ∀ i : grid7.Coords, EltTy.bits .f32 = 32 ∨ (Rect.block (s := S800000x32) S8000x32.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S32x1.size a ≤ S32x1.size a
  hwx7_1 : ∀ i : grid7.Coords, EltTy.bits .f32 = 32 ∨ (Rect.block (s := S32x1) S32x1.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x1.size a ≤ S1x1.size a
  hwx7_2 : ∀ i : grid7.Coords, EltTy.bits .f32 = 32 ∨ (Rect.block (s := S1x1) S1x1.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S8000x1.size a ≤ S800000x1.size a
  hwx7_3 : ∀ i : grid7.Coords, EltTy.bits .f32 = 32 ∨ (Rect.block (s := S800000x1) S8000x1.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S8000x1.size a ≤ S800000x1.size a
  hwx7_4 : ∀ i : grid7.Coords, EltTy.bits .f32 = 32 ∨ (Rect.block (s := S800000x1) S8000x1.size (cc7_transform_4 i) (hinb7_4 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S8000x128_S128x64_S8000x64_1_0_0_1_n_n : DotDims S8000x128 S128x64 S8000x64 where
  lhsContracting := [1]
  rhsContracting := [0]
  lhsNonContracting := [0]
  rhsNonContracting := [1]
  lhsBatch := []
  rhsBatch := []
  wf := dot_S8000x128_S128x64_S8000x64_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S8000x64_S64x32_S8000x32_1_0_0_1_n_n : DotDims S8000x64 S64x32 S8000x32 where
  lhsContracting := [1]
  rhsContracting := [0]
  lhsNonContracting := [0]
  rhsNonContracting := [1]
  lhsBatch := []
  rhsBatch := []
  wf := dot_S8000x64_S64x32_S8000x32_1_0_0_1_n_n_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def gather_S50000x32_S800000x1_S800000x32_1_0_n_n_0_1_132 : GatherDims S50000x32 S800000x1 S800000x32 where
  offsetDims := [1]
  collapsedSliceDims := [0]
  operandBatchingDims := []
  startIndicesBatchingDims := []
  startIndexMap := [0]
  indexVectorDim := 1
  sliceSizes := ![1, 32]
  wf := gather_S50000x32_S800000x1_S800000x32_1_0_n_n_0_1_132_wf
def dot_S8000x32_S32x1_S8000x1_1_0_0_1_n_n : DotDims S8000x32 S32x1 S8000x1 where
  lhsContracting := [1]
  rhsContracting := [0]
  lhsNonContracting := [0]
  rhsNonContracting := [1]
  lhsBatch := []
  rhsBatch := []
  wf := dot_S8000x32_S32x1_S8000x1_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v18) S8000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S8000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v26) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v27) S8000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v11) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v37) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v38) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v39) S5000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v46) S8000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v53) S8000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg9) S64x32.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v54) S1x32.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v55) S8000x32.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v27) S8000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg15) S64x32.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v56) S1x32.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v55) S8000x32.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v57) S8000x32.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v39) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v67) S5000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg11) S64x32.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v68) S1x32.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v69) S5000x32.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v76) S8000x32.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v83) S8000x32.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_arg13) S32x1.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v84) S1x1.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v85) S8000x1.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev win7_0 : Pipeline.Window sig grid7 :=
  Pipeline.Window.ofSpec (Memref.whole main_v57) S8000x32.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg17) S32x1.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v86) S1x1.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v85) S8000x1.size cc7_transform_3 reads7_3 false false 2 stage7_3 sem7_3
    hrank7 hreads7_3 hinb7_3 nbuf7_3 (Memref.isWhole_whole _) hwx7_3 hstage7_3

abbrev win7_4 : Pipeline.Window sig grid7 :=
  Pipeline.Window.ofSpec (Memref.whole main_v87) S8000x1.size cc7_transform_4 reads7_4 true false 2 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

class Facts : Prop extends Facts₀ where

variable [Facts]
-- ==== ReferenceIdeal.lean ====
abbrev S50000x64 : Shape := ⟨2, ![50000, 64]⟩
abbrev S800000 : Shape := ⟨1, ![800000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩
abbrev S800000x1 : Shape := ⟨2, ![800000, 1]⟩
abbrev S800000x64 : Shape := ⟨2, ![800000, 64]⟩
abbrev S50000x128 : Shape := ⟨2, ![50000, 128]⟩
abbrev S1x128 : Shape := ⟨2, ![1, 128]⟩
abbrev S800000x128 : Shape := ⟨2, ![800000, 128]⟩
abbrev S1x64 : Shape := ⟨2, ![1, 64]⟩
abbrev S800000x32 : Shape := ⟨2, ![800000, 32]⟩
abbrev S1x32 : Shape := ⟨2, ![1, 32]⟩
abbrev S50000x32 : Shape := ⟨2, ![50000, 32]⟩
abbrev S1x1 : Shape := ⟨2, ![1, 1]⟩

abbrev nBuf : Space → Nat
  | .hbm => 216
  | .vmem => 0
  | .smem => 0
  | _ => 0

abbrev hbmTy0_0 (i : Nat) : BufTy := match i % 128 with
  | 0 => ⟨S50000x64, .f32⟩
  | 1 => ⟨S800000, .i32⟩
  | 2 => ⟨S800000, .i32⟩
  | 3 => ⟨S64x128, .f32⟩
  | 4 => ⟨S128, .f32⟩
  | 5 => ⟨S128x64, .f32⟩
  | 6 => ⟨S64, .f32⟩
  | 7 => ⟨S128x64, .f32⟩
  | 8 => ⟨S64, .f32⟩
  | 9 => ⟨S64x32, .f32⟩
  | 10 => ⟨S32, .f32⟩
  | 11 => ⟨S64x32, .f32⟩
  | 12 => ⟨S32, .f32⟩
  | 13 => ⟨S32x1, .f32⟩
  | 14 => ⟨S1, .f32⟩
  | 15 => ⟨S64x32, .f32⟩
  | 16 => ⟨S32, .f32⟩
  | 17 => ⟨S32x1, .f32⟩
  | 18 => ⟨S1, .f32⟩
  | 19 => ⟨S_, .i32⟩
  | 20 => ⟨S800000, .i32⟩
  | 21 => ⟨S800000, .i1⟩
  | 22 => ⟨S_, .i32⟩
  | 23 => ⟨S800000, .i32⟩
  | 24 => ⟨S800000, .i32⟩
  | 25 => ⟨S800000, .i32⟩
  | 26 => ⟨S800000x1, .i32⟩
  | 27 => ⟨S800000x64, .f32⟩
  | 28 => ⟨S_, .f32⟩
  | 29 => ⟨S50000x64, .f32⟩
  | 30 => ⟨S800000x1, .i32⟩
  | 31 => ⟨S50000x64, .f32⟩
  | 32 => ⟨S50000x64, .f32⟩
  | 33 => ⟨S50000x128, .f32⟩
  | 34 => ⟨S1x128, .f32⟩
  | 35 => ⟨S50000x128, .f32⟩
  | 36 => ⟨S50000x128, .f32⟩
  | 37 => ⟨S50000x128, .f32⟩
  | 38 => ⟨S50000x128, .f32⟩
  | 39 => ⟨S_, .f32⟩
  | 40 => ⟨S50000x128, .f32⟩
  | 41 => ⟨S50000x128, .f32⟩
  | 42 => ⟨S_, .f32⟩
  | 43 => ⟨S50000x128, .f32⟩
  | 44 => ⟨S50000x128, .f32⟩
  | 45 => ⟨S_, .i32⟩
  | 46 => ⟨S800000, .i32⟩
  | 47 => ⟨S800000, .i1⟩
  | 48 => ⟨S_, .i32⟩
  | 49 => ⟨S800000, .i32⟩
  | 50 => ⟨S800000, .i32⟩
  | 51 => ⟨S800000, .i32⟩
  | 52 => ⟨S800000x1, .i32⟩
  | 53 => ⟨S800000x128, .f32⟩
  | 54 => ⟨S_, .i32⟩
  | 55 => ⟨S800000, .i32⟩
  | 56 => ⟨S800000, .i1⟩
  | 57 => ⟨S_, .i32⟩
  | 58 => ⟨S800000, .i32⟩
  | 59 => ⟨S800000, .i32⟩
  | 60 => ⟨S800000, .i32⟩
  | 61 => ⟨S800000x1, .i32⟩
  | 62 => ⟨S800000x128, .f32⟩
  | 63 => ⟨S800000x128, .f32⟩
  | 64 => ⟨S800000x64, .f32⟩
  | 65 => ⟨S1x64, .f32⟩
  | 66 => ⟨S800000x64, .f32⟩
  | 67 => ⟨S800000x64, .f32⟩
  | 68 => ⟨S800000x64, .f32⟩
  | 69 => ⟨S800000x64, .f32⟩
  | 70 => ⟨S_, .f32⟩
  | 71 => ⟨S800000x64, .f32⟩
  | 72 => ⟨S800000x64, .f32⟩
  | 73 => ⟨S_, .f32⟩
  | 74 => ⟨S800000x64, .f32⟩
  | 75 => ⟨S800000x64, .f32⟩
  | 76 => ⟨S_, .i32⟩
  | 77 => ⟨S800000, .i32⟩
  | 78 => ⟨S800000, .i1⟩
  | 79 => ⟨S_, .i32⟩
  | 80 => ⟨S800000, .i32⟩
  | 81 => ⟨S800000, .i32⟩
  | 82 => ⟨S800000, .i32⟩
  | 83 => ⟨S800000x1, .i32⟩
  | 84 => ⟨S800000x128, .f32⟩
  | 85 => ⟨S_, .f32⟩
  | 86 => ⟨S50000x128, .f32⟩
  | 87 => ⟨S800000x1, .i32⟩
  | 88 => ⟨S50000x128, .f32⟩
  | 89 => ⟨S50000x128, .f32⟩
  | 90 => ⟨S50000x64, .f32⟩
  | 91 => ⟨S1x64, .f32⟩
  | 92 => ⟨S50000x64, .f32⟩
  | 93 => ⟨S50000x64, .f32⟩
  | 94 => ⟨S50000x64, .f32⟩
  | 95 => ⟨S50000x64, .f32⟩
  | 96 => ⟨S_, .f32⟩
  | 97 => ⟨S50000x64, .f32⟩
  | 98 => ⟨S50000x64, .f32⟩
  | 99 => ⟨S_, .f32⟩
  | 100 => ⟨S50000x64, .f32⟩
  | 101 => ⟨S50000x64, .f32⟩
  | 102 => ⟨S_, .i32⟩
  | 103 => ⟨S800000, .i32⟩
  | 104 => ⟨S800000, .i1⟩
  | 105 => ⟨S_, .i32⟩
  | 106 => ⟨S800000, .i32⟩
  | 107 => ⟨S800000, .i32⟩
  | 108 => ⟨S800000, .i32⟩
  | 109 => ⟨S800000x1, .i32⟩
  | 110 => ⟨S800000x64, .f32⟩
  | 111 => ⟨S_, .i32⟩
  | 112 => ⟨S800000, .i32⟩
  | 113 => ⟨S800000, .i1⟩
  | 114 => ⟨S_, .i32⟩
  | 115 => ⟨S800000, .i32⟩
  | 116 => ⟨S800000, .i32⟩
  | 117 => ⟨S800000, .i32⟩
  | 118 => ⟨S800000x1, .i32⟩
  | 119 => ⟨S800000x64, .f32⟩
  | 120 => ⟨S800000x64, .f32⟩
  | 121 => ⟨S800000x32, .f32⟩
  | 122 => ⟨S1x32, .f32⟩
  | 123 => ⟨S800000x32, .f32⟩
  | 124 => ⟨S800000x32, .f32⟩
  | 125 => ⟨S800000x32, .f32⟩
  | 126 => ⟨S800000x32, .f32⟩
  | 127 => ⟨S_, .f32⟩
  | _ => ⟨S50000x64, .f32⟩

abbrev hbmTy0_1 (i : Nat) : BufTy := match i % 128 with
  | 0 => ⟨S800000x32, .f32⟩
  | 1 => ⟨S800000x32, .f32⟩
  | 2 => ⟨S_, .f32⟩
  | 3 => ⟨S800000x32, .f32⟩
  | 4 => ⟨S800000x32, .f32⟩
  | 5 => ⟨S800000x32, .f32⟩
  | 6 => ⟨S1x32, .f32⟩
  | 7 => ⟨S800000x32, .f32⟩
  | 8 => ⟨S800000x32, .f32⟩
  | 9 => ⟨S800000x32, .f32⟩
  | 10 => ⟨S800000x32, .f32⟩
  | 11 => ⟨S800000x32, .f32⟩
  | 12 => ⟨S_, .f32⟩
  | 13 => ⟨S800000x32, .f32⟩
  | 14 => ⟨S800000x32, .f32⟩
  | 15 => ⟨S_, .f32⟩
  | 16 => ⟨S800000x32, .f32⟩
  | 17 => ⟨S800000x32, .f32⟩
  | 18 => ⟨S_, .i32⟩
  | 19 => ⟨S800000, .i32⟩
  | 20 => ⟨S800000, .i1⟩
  | 21 => ⟨S_, .i32⟩
  | 22 => ⟨S800000, .i32⟩
  | 23 => ⟨S800000, .i32⟩
  | 24 => ⟨S800000, .i32⟩
  | 25 => ⟨S800000x1, .i32⟩
  | 26 => ⟨S800000x64, .f32⟩
  | 27 => ⟨S_, .f32⟩
  | 28 => ⟨S50000x64, .f32⟩
  | 29 => ⟨S800000x1, .i32⟩
  | 30 => ⟨S50000x64, .f32⟩
  | 31 => ⟨S50000x64, .f32⟩
  | 32 => ⟨S50000x32, .f32⟩
  | 33 => ⟨S1x32, .f32⟩
  | 34 => ⟨S50000x32, .f32⟩
  | 35 => ⟨S50000x32, .f32⟩
  | 36 => ⟨S50000x32, .f32⟩
  | 37 => ⟨S50000x32, .f32⟩
  | 38 => ⟨S_, .f32⟩
  | 39 => ⟨S50000x32, .f32⟩
  | 40 => ⟨S50000x32, .f32⟩
  | 41 => ⟨S_, .f32⟩
  | 42 => ⟨S50000x32, .f32⟩
  | 43 => ⟨S50000x32, .f32⟩
  | 44 => ⟨S_, .i32⟩
  | 45 => ⟨S800000, .i32⟩
  | 46 => ⟨S800000, .i1⟩
  | 47 => ⟨S_, .i32⟩
  | 48 => ⟨S800000, .i32⟩
  | 49 => ⟨S800000, .i32⟩
  | 50 => ⟨S800000, .i32⟩
  | 51 => ⟨S800000x1, .i32⟩
  | 52 => ⟨S800000x32, .f32⟩
  | 53 => ⟨S_, .i32⟩
  | 54 => ⟨S800000, .i32⟩
  | 55 => ⟨S800000, .i1⟩
  | 56 => ⟨S_, .i32⟩
  | 57 => ⟨S800000, .i32⟩
  | 58 => ⟨S800000, .i32⟩
  | 59 => ⟨S800000, .i32⟩
  | 60 => ⟨S800000x1, .i32⟩
  | 61 => ⟨S800000x32, .f32⟩
  | 62 => ⟨S800000x32, .f32⟩
  | 63 => ⟨S800000x1, .f32⟩
  | 64 => ⟨S1x1, .f32⟩
  | 65 => ⟨S800000x1, .f32⟩
  | 66 => ⟨S800000x1, .f32⟩
  | 67 => ⟨S800000x1, .f32⟩
  | 68 => ⟨S800000x1, .f32⟩
  | 69 => ⟨S_, .f32⟩
  | 70 => ⟨S800000x1, .f32⟩
  | 71 => ⟨S800000x1, .f32⟩
  | 72 => ⟨S_, .f32⟩
  | 73 => ⟨S800000x1, .f32⟩
  | 74 => ⟨S800000x1, .f32⟩
  | 75 => ⟨S800000x1, .f32⟩
  | 76 => ⟨S1x1, .f32⟩
  | 77 => ⟨S800000x1, .f32⟩
  | 78 => ⟨S800000x1, .f32⟩
  | 79 => ⟨S800000x1, .f32⟩
  | 80 => ⟨S800000x1, .f32⟩
  | 81 => ⟨S800000x1, .f32⟩
  | 82 => ⟨S_, .f32⟩
  | 83 => ⟨S800000x1, .f32⟩
  | 84 => ⟨S800000x1, .f32⟩
  | 85 => ⟨S_, .f32⟩
  | 86 => ⟨S800000x1, .f32⟩
  | 87 => ⟨S800000x1, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_c : Ref sig .tc := ⟨.hbm, 19, rfl⟩
abbrev main_v0 : Ref sig .tc := ⟨.hbm, 20, rfl⟩
abbrev main_v1 : Ref sig .tc := ⟨.hbm, 21, rfl⟩
abbrev main_c_0 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_cst : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_cst_1 : Ref sig .tc := ⟨.hbm, 39, rfl⟩
abbrev main_v17 : Ref sig .tc := ⟨.hbm, 40, rfl⟩
abbrev main_v18 : Ref sig .tc := ⟨.hbm, 41, rfl⟩
abbrev main_cst_2 : Ref sig .tc := ⟨.hbm, 42, rfl⟩
abbrev main_v19 : Ref sig .tc := ⟨.hbm, 43, rfl⟩
abbrev main_v20 : Ref sig .tc := ⟨.hbm, 44, rfl⟩
abbrev main_c_3 : Ref sig .tc := ⟨.hbm, 45, rfl⟩
abbrev main_v21 : Ref sig .tc := ⟨.hbm, 46, rfl⟩
abbrev main_v22 : Ref sig .tc := ⟨.hbm, 47, rfl⟩
abbrev main_c_4 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_c_5 : Ref sig .tc := ⟨.hbm, 54, rfl⟩
abbrev main_v28 : Ref sig .tc := ⟨.hbm, 55, rfl⟩
abbrev main_v29 : Ref sig .tc := ⟨.hbm, 56, rfl⟩
abbrev main_c_6 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_cst_7 : Ref sig .tc := ⟨.hbm, 70, rfl⟩
abbrev main_v42 : Ref sig .tc := ⟨.hbm, 71, rfl⟩
abbrev main_v43 : Ref sig .tc := ⟨.hbm, 72, rfl⟩
abbrev main_cst_8 : Ref sig .tc := ⟨.hbm, 73, rfl⟩
abbrev main_v44 : Ref sig .tc := ⟨.hbm, 74, rfl⟩
abbrev main_v45 : Ref sig .tc := ⟨.hbm, 75, rfl⟩
abbrev main_c_9 : Ref sig .tc := ⟨.hbm, 76, rfl⟩
abbrev main_v46 : Ref sig .tc := ⟨.hbm, 77, rfl⟩
abbrev main_v47 : Ref sig .tc := ⟨.hbm, 78, rfl⟩
abbrev main_c_10 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_11 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_cst_12 : Ref sig .tc := ⟨.hbm, 96, rfl⟩
abbrev main_v63 : Ref sig .tc := ⟨.hbm, 97, rfl⟩
abbrev main_v64 : Ref sig .tc := ⟨.hbm, 98, rfl⟩
abbrev main_cst_13 : Ref sig .tc := ⟨.hbm, 99, rfl⟩
abbrev main_v65 : Ref sig .tc := ⟨.hbm, 100, rfl⟩
abbrev main_v66 : Ref sig .tc := ⟨.hbm, 101, rfl⟩
abbrev main_c_14 : Ref sig .tc := ⟨.hbm, 102, rfl⟩
abbrev main_v67 : Ref sig .tc := ⟨.hbm, 103, rfl⟩
abbrev main_v68 : Ref sig .tc := ⟨.hbm, 104, rfl⟩
abbrev main_c_15 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_c_16 : Ref sig .tc := ⟨.hbm, 111, rfl⟩
abbrev main_v74 : Ref sig .tc := ⟨.hbm, 112, rfl⟩
abbrev main_v75 : Ref sig .tc := ⟨.hbm, 113, rfl⟩
abbrev main_c_17 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_cst_18 : Ref sig .tc := ⟨.hbm, 127, rfl⟩
abbrev main_v88 : Ref sig .tc := ⟨.hbm, 128, rfl⟩
abbrev main_v89 : Ref sig .tc := ⟨.hbm, 129, rfl⟩
abbrev main_cst_19 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_cst_20 : Ref sig .tc := ⟨.hbm, 140, rfl⟩
abbrev main_v99 : Ref sig .tc := ⟨.hbm, 141, rfl⟩
abbrev main_v100 : Ref sig .tc := ⟨.hbm, 142, rfl⟩
abbrev main_cst_21 : Ref sig .tc := ⟨.hbm, 143, rfl⟩
abbrev main_v101 : Ref sig .tc := ⟨.hbm, 144, rfl⟩
abbrev main_v102 : Ref sig .tc := ⟨.hbm, 145, rfl⟩
abbrev main_c_22 : Ref sig .tc := ⟨.hbm, 146, rfl⟩
abbrev main_v103 : Ref sig .tc := ⟨.hbm, 147, rfl⟩
abbrev main_v104 : Ref sig .tc := ⟨.hbm, 148, rfl⟩
abbrev main_c_23 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_cst_24 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_cst_25 : Ref sig .tc := ⟨.hbm, 166, rfl⟩
abbrev main_v120 : Ref sig .tc := ⟨.hbm, 167, rfl⟩
abbrev main_v121 : Ref sig .tc := ⟨.hbm, 168, rfl⟩
abbrev main_cst_26 : Ref sig .tc := ⟨.hbm, 169, rfl⟩
abbrev main_v122 : Ref sig .tc := ⟨.hbm, 170, rfl⟩
abbrev main_v123 : Ref sig .tc := ⟨.hbm, 171, rfl⟩
abbrev main_c_27 : Ref sig .tc := ⟨.hbm, 172, rfl⟩
abbrev main_v124 : Ref sig .tc := ⟨.hbm, 173, rfl⟩
abbrev main_v125 : Ref sig .tc := ⟨.hbm, 174, rfl⟩
abbrev main_c_28 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_c_29 : Ref sig .tc := ⟨.hbm, 181, rfl⟩
abbrev main_v131 : Ref sig .tc := ⟨.hbm, 182, rfl⟩
abbrev main_v132 : Ref sig .tc := ⟨.hbm, 183, rfl⟩
abbrev main_c_30 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩
abbrev main_v141 : Ref sig .tc := ⟨.hbm, 193, rfl⟩
abbrev main_v142 : Ref sig .tc := ⟨.hbm, 194, rfl⟩
abbrev main_v143 : Ref sig .tc := ⟨.hbm, 195, rfl⟩
abbrev main_v144 : Ref sig .tc := ⟨.hbm, 196, rfl⟩
abbrev main_cst_31 : Ref sig .tc := ⟨.hbm, 197, rfl⟩
abbrev main_v145 : Ref sig .tc := ⟨.hbm, 198, rfl⟩
abbrev main_v146 : Ref sig .tc := ⟨.hbm, 199, rfl⟩
abbrev main_cst_32 : Ref sig .tc := ⟨.hbm, 200, rfl⟩
abbrev main_v147 : Ref sig .tc := ⟨.hbm, 201, rfl⟩
abbrev main_v148 : Ref sig .tc := ⟨.hbm, 202, rfl⟩
abbrev main_v149 : Ref sig .tc := ⟨.hbm, 203, rfl⟩
abbrev main_v150 : Ref sig .tc := ⟨.hbm, 204, rfl⟩
abbrev main_v151 : Ref sig .tc := ⟨.hbm, 205, rfl⟩
abbrev main_v152 : Ref sig .tc := ⟨.hbm, 206, rfl⟩
abbrev main_v153 : Ref sig .tc := ⟨.hbm, 207, rfl⟩
abbrev main_v154 : Ref sig .tc := ⟨.hbm, 208, rfl⟩
abbrev main_v155 : Ref sig .tc := ⟨.hbm, 209, rfl⟩
abbrev main_cst_33 : Ref sig .tc := ⟨.hbm, 210, rfl⟩
abbrev main_v156 : Ref sig .tc := ⟨.hbm, 211, rfl⟩
abbrev main_v157 : Ref sig .tc := ⟨.hbm, 212, rfl⟩
abbrev main_cst_34 : Ref sig .tc := ⟨.hbm, 213, rfl⟩
abbrev main_v158 : Ref sig .tc := ⟨.hbm, 214, rfl⟩
abbrev main_v159 : Ref sig .tc := ⟨.hbm, 215, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  bcast_S1x64_S50000x64_0_1 : S1x64.BroadcastsInDim S50000x64 (![0, 1] : Fin 2 → Fin S50000x64.rank)
  bcast_S32_S1x32_1 : S32.BroadcastsInDim S1x32 (![1] : Fin 1 → Fin S1x32.rank)
  bcast_S1x32_S800000x32_0_1 : S1x32.BroadcastsInDim S800000x32 (![0, 1] : Fin 2 → Fin S800000x32.rank)
  bcast_S_S800000x32 : S_.BroadcastsInDim S800000x32 (![] : Fin 0 → Fin S800000x32.rank)
  bcast_S1x32_S50000x32_0_1 : S1x32.BroadcastsInDim S50000x32 (![0, 1] : Fin 2 → Fin S50000x32.rank)
  bcast_S_S50000x32 : S_.BroadcastsInDim S50000x32 (![] : Fin 0 → Fin S50000x32.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  bcast_S_S800000x1 : S_.BroadcastsInDim S800000x1 (![] : Fin 0 → Fin S800000x1.rank)
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x128_S50000x128_1_0_0_1_n_n_wf : DotDims.WF S50000x64 S64x128 S50000x128 [1] [0] [0] [1] [] []
  gather_S50000x128_S800000x1_S800000x128_1_0_n_n_0_1_1128_wf : GatherDims.WF S50000x128 S800000x1 S800000x128 [1] [0] [] [0] [] 1 ![1, 128]
  dot_S800000x128_S128x64_S800000x64_1_0_0_1_n_n_wf : DotDims.WF S800000x128 S128x64 S800000x64 [1] [0] [0] [1] [] []
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []
  dot_S800000x64_S64x32_S800000x32_1_0_0_1_n_n_wf : DotDims.WF S800000x64 S64x32 S800000x32 [1] [0] [0] [1] [] []
  dot_S50000x64_S64x32_S50000x32_1_0_0_1_n_n_wf : DotDims.WF S50000x64 S64x32 S50000x32 [1] [0] [0] [1] [] []
  gather_S50000x32_S800000x1_S800000x32_1_0_n_n_0_1_132_wf : GatherDims.WF S50000x32 S800000x1 S800000x32 [1] [0] [] [0] [] 1 ![1, 32]
  dot_S800000x32_S32x1_S800000x1_1_0_0_1_n_n_wf : DotDims.WF S800000x32 S32x1 S800000x1 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x128_S128x64_S800000x64_1_0_0_1_n_n : DotDims S800000x128 S128x64 S800000x64 where
  lhsContracting := [1]
  rhsContracting := [0]
  lhsNonContracting := [0]
  rhsNonContracting := [1]
  lhsBatch := []
  rhsBatch := []
  wf := dot_S800000x128_S128x64_S800000x64_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S800000x64_S64x32_S800000x32_1_0_0_1_n_n : DotDims S800000x64 S64x32 S800000x32 where
  lhsContracting := [1]
  rhsContracting := [0]
  lhsNonContracting := [0]
  rhsNonContracting := [1]
  lhsBatch := []
  rhsBatch := []
  wf := dot_S800000x64_S64x32_S800000x32_1_0_0_1_n_n_wf
def dot_S50000x64_S64x32_S50000x32_1_0_0_1_n_n : DotDims S50000x64 S64x32 S50000x32 where
  lhsContracting := [1]
  rhsContracting := [0]
  lhsNonContracting := [0]
  rhsNonContracting := [1]
  lhsBatch := []
  rhsBatch := []
  wf := dot_S50000x64_S64x32_S50000x32_1_0_0_1_n_n_wf
def gather_S50000x32_S800000x1_S800000x32_1_0_n_n_0_1_132 : GatherDims S50000x32 S800000x1 S800000x32 where
  offsetDims := [1]
  collapsedSliceDims := [0]
  operandBatchingDims := []
  startIndicesBatchingDims := []
  startIndexMap := [0]
  indexVectorDim := 1
  sliceSizes := ![1, 32]
  wf := gather_S50000x32_S800000x1_S800000x32_1_0_n_n_0_1_132_wf
def dot_S800000x32_S32x1_S800000x1_1_0_0_1_n_n : DotDims S800000x32 S32x1 S800000x1 where
  lhsContracting := [1]
  rhsContracting := [0]
  lhsNonContracting := [0]
  rhsNonContracting := [1]
  lhsBatch := []
  rhsBatch := []
  wf := dot_S800000x32_S32x1_S800000x1_1_0_0_1_n_n_wf

class Facts : Prop extends Facts₀ where

variable [Facts]
-- ==== Proof.Net.lean ====
/-
  The network both programs compute, named once, for any float instance: the index wrap-around and the gather /
  scatter-add that build a node's neighbour sum and an edge's two endpoint rows, the eight dense layers as the
  host program spells them (a matrix product, the bias broadcast over the rows, and the logistic written
  1 / (1 + exp (-z))), and their composition `net`:

      h1 = lay1 x (agg x) ;  c1 = lay2 h1[src] h1[dst] ;  h2 = lay3 h1 (agg h1) ;  c2 = lay4 h2[src] h2[dst]
      g1 = lay5 c1 c2     ;  h3 = lay6 h2 (agg h2)     ;  c3 = lay7 h3[src] h3[dst] ;  out = lay8 g1 c3

  Every definition is a chain of the host operations over the reference program's dimension records, so the
  reference's stretches are these functions literally, and the kernel program's host stretches (the same
  operations over records of the same values) meet them by unfolding.
-/
import proofs.«157600_j9852654977700_1_alg».proof.Proof.Gen.ReferenceIdeal
import Idealize.ShloMosaic.PureOps.Ideal

noncomputable section

namespace Cert.Net

open Idealize.ShloMosaic Idealize.SL.Sem Cert.ReferenceIdeal Cert.ReferenceIdeal.Gen

variable {F : FTy → Type} [FloatOps F]

/-- Neighbour sums of a 64-column node array: row `n` is the sum of the rows `X[src e]` over the edges `e` with `dst e = n` (indices below zero wrapped by the node count, as jnp indexing does). -/
def agg64 (arg0 : (⟨S50000x64, .f32⟩ : BufTy).Contents (Elt F)) (arg1 : (⟨S800000, .i32⟩ : BufTy).Contents (Elt F)) (arg2 : (⟨S800000, .i32⟩ : BufTy).Contents (Elt F)) :
    (⟨S50000x64, .f32⟩ : BufTy).Contents (Elt F) :=
  let c : (⟨S_, .i32⟩ : BufTy).Contents (Elt F) := constantI S_ 32 0#32
  let v0 : (⟨S800000, .i32⟩ : BufTy).Contents (Elt F) := (broadcastInDim S800000 ![] bcast_S_S800000 : (⟨S_, .i32⟩ : BufTy).Contents (Elt F) → (⟨S800000, .i32⟩ : BufTy).Contents (Elt F)) c
  let v1 : (⟨S800000, .i1⟩ : BufTy).Contents (Elt F) := (cmpi .slt : (⟨S800000, .i32⟩ : BufTy).Contents (Elt F) → (⟨S800000, .i32⟩ : BufTy).Contents (Elt F) → (⟨S800000, .i1⟩ : BufTy).Contents (Elt F)) arg1 v0
  let c_0 : (⟨S_, .i32⟩ : BufTy).Contents (Elt F) := constantI S_ 32 50000#32
  let v2 : (⟨S800000, .i32⟩ : BufTy).Contents (Elt F) := (broadcastInDim S800000 ![] bcast_S_S800000 : (⟨S_, .i32⟩ : BufTy).Contents (Elt F) → (⟨S800000, .i32⟩ : BufTy).Contents (Elt F)) c_0
  let v3 : (⟨S800000, .i32⟩ : BufTy).Contents (Elt F) := (addi : (⟨S800000, .i32⟩ : BufTy).Contents (Elt F) → (⟨S800000, .i32⟩ : BufTy).Contents (Elt F) → (⟨S800000, .i32⟩ : BufTy).Contents (Elt F)) arg1 v2
  let v4 : (⟨S800000, .i32⟩ : BufTy).Contents (Elt F) := (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) v1 v3 arg1
  let v5 : (⟨S800000x1, .i32⟩ : BufTy).Contents (Elt F) := (broadcastInDim S800000x1 ![0] bcast_S800000_S800000x1_0 : (⟨S800000, .i32⟩ : BufTy).Contents (Elt F) → (⟨S800000x1, .i32⟩ : BufTy).Contents (Elt F)) v4
  let v6 : (⟨S800000x64, .f32⟩ : BufTy).Contents (Elt F) := ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)) arg0 v5
  let cst : (⟨S_, .f32⟩ : BufTy).Contents (Elt F) := constant S_ .f32 0x00000000#32
  let v7 : (⟨S50000x64, .f32⟩ : BufTy).Contents (Elt F) := (broadcastInDim S50000x64 ![] bcast_S_S50000x64 : (⟨S_, .f32⟩ : BufTy).Contents (Elt F) → (⟨S50000x64, .f32⟩ : BufTy).Contents (Elt F)) cst
  let v8 : (⟨S800000x1, .i32⟩ : BufTy).Contents (Elt F) := (broadcastInDim S800000x1 ![0] bcast_S800000_S800000x1_0 : (⟨S800000, .i32⟩ : BufTy).Contents (Elt F) → (⟨S800000x1, .i32⟩ : BufTy).Contents (Elt F)) arg2
  let v9 : (⟨S50000x64, .f32⟩ : BufTy).Contents (Elt F) := ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)) v7 v8 v6
  v9

/-- Node layer 64 → 128: the logistic of `(X + Y) · W + b`, the logistic spelt `1 / (1 + exp (-z))`. -/
def lay1 (arg0 : (⟨S50000x64, .f32⟩ : BufTy).Contents (Elt F)) (v9 : (⟨S50000x64, .f32⟩ : BufTy).Contents (Elt F)) (arg3 : (⟨S64x128, .f32⟩ : BufTy).Contents (Elt F)) (arg4 : (⟨S128, .f32⟩ : BufTy).Contents (Elt F)) :
    (⟨S50000x128, .f32⟩ : BufTy).Contents (Elt F) :=
  let v10 : (⟨S50000x64, .f32⟩ : BufTy).Contents (Elt F) := (addf : (⟨S50000x64, .f32⟩ : BufTy).Contents (Elt F) → (⟨S50000x64, .f32⟩ : BufTy).Contents (Elt F) → (⟨S50000x64, .f32⟩ : BufTy).Contents (Elt F)) arg0 v9
  let v11 : (⟨S50000x128, .f32⟩ : BufTy).Contents (Elt F) := ((fun l r => Host.dotGeneral dot_S50000x64_S64x128_S50000x128_1_0_0_1_n_n none l r) : (⟨S50000x64, .f32⟩ : BufTy).Contents (Elt F) → (⟨S64x128, .f32⟩ : BufTy).Contents (Elt F) → (⟨S50000x128, .f32⟩ : BufTy).Contents (Elt F)) v10 arg3
  let v12 : (⟨S1x128, .f32⟩ : BufTy).Contents (Elt F) := (broadcastInDim S1x128 ![1] bcast_S128_S1x128_1 : (⟨S128, .f32⟩ : BufTy).Contents (Elt F) → (⟨S1x128, .f32⟩ : BufTy).Contents (Elt F)) arg4
  let v13 : (⟨S50000x128, .f32⟩ : BufTy).Contents (Elt F) := (broadcastInDim S50000x128 ![0, 1] bcast_S1x128_S50000x128_0_1 : (⟨S1x128, .f32⟩ : BufTy).Contents (Elt F) → (⟨S50000x128, .f32⟩ : BufTy).Contents (Elt F)) v12
  let v14 : (⟨S50000x128, .f32⟩ : BufTy).Contents (Elt F) := (addf : (⟨S50000x128, .f32⟩ : BufTy).Contents (Elt F) → (⟨S50000x128, .f32⟩ : BufTy).Contents (Elt F) → (⟨S50000x128, .f32⟩ : BufTy).Contents (Elt F)) v11 v13
  let v15 : (⟨S50000x128, .f32⟩ : BufTy).Contents (Elt F) := (Host.negf : (⟨S50000x128, .f32⟩ : BufTy).Contents (Elt F) → (⟨S50000x128, .f32⟩ : BufTy).Contents (Elt F)) v14
  let v16 : (⟨S50000x128, .f32⟩ : BufTy).Contents (Elt F) := (Host.exp : (⟨S50000x128, .f32⟩ : BufTy).Contents (Elt F) → (⟨S50000x128, .f32⟩ : BufTy).Contents (Elt F)) v15
  let cst_1 : (⟨S_, .f32⟩ : BufTy).Contents (Elt F) := constant S_ .f32 0x3F800000#32
  let v17 : (⟨S50000x128, .f32⟩ : BufTy).Contents (Elt F) := (broadcastInDim S50000x128 ![] bcast_S_S50000x128 : (⟨S_, .f32⟩ : BufTy).Contents (Elt F) → (⟨S50000x128, .f32⟩ : BufTy).Contents (Elt F)) cst_1
  let v18 : (⟨S50000x128, .f32⟩ : BufTy).Contents (Elt F) := (addf : (⟨S50000x128, .f32⟩ : BufTy).Contents (Elt F) → (⟨S50000x128, .f32⟩ : BufTy).Contents (Elt F) → (⟨S50000x128, .f32⟩ : BufTy).Contents (Elt F)) v17 v16
  let cst_2 : (⟨S_, .f32⟩ : BufTy).Contents (Elt F) := constant S_ .f32 0x3F800000#32
  let v19 : (⟨S50000x128, .f32⟩ : BufTy).Contents (Elt F) := (broadcastInDim S50000x128 ![] bcast_S_S50000x128 : (⟨S_, .f32⟩ : BufTy).Contents (Elt F) → (⟨S50000x128, .f32⟩ : BufTy).Contents (Elt F)) cst_2
  let v20 : (⟨S50000x128, .f32⟩ : BufTy).Contents (Elt F) := (Host.divf : (⟨S50000x128, .f32⟩ : BufTy).Contents (Elt F) → (⟨S50000x128, .f32⟩ : BufTy).Contents (Elt F) → (⟨S50000x128, .f32⟩ : BufTy).Contents (Elt F)) v19 v18
  v20

/-- The rows of a 128-column node array at an edge list's (wrapped) node indices. -/
def gat128 (v20 : (⟨S50000x128, .f32⟩ : BufTy).Contents (Elt F)) (arg1 : (⟨S800000, .i32⟩ : BufTy).Contents (Elt F)) :
    (⟨S800000x128, .f32⟩ : BufTy).Contents (Elt F) :=
  let c_3 : (⟨S_, .i32⟩ : BufTy).Contents (Elt F) := constantI S_ 32 0#32
  let v21 : (⟨S800000, .i32⟩ : BufTy).Contents (Elt F) := (broadcastInDim S800000 ![] bcast_S_S800000 : (⟨S_, .i32⟩ : BufTy).Contents (Elt F) → (⟨S800000, .i32⟩ : BufTy).Contents (Elt F)) c_3
  let v22 : (⟨S800000, .i1⟩ : BufTy).Contents (Elt F) := (cmpi .slt : (⟨S800000, .i32⟩ : BufTy).Contents (Elt F) → (⟨S800000, .i32⟩ : BufTy).Contents (Elt F) → (⟨S800000, .i1⟩ : BufTy).Contents (Elt F)) arg1 v21
  let c_4 : (⟨S_, .i32⟩ : BufTy).Contents (Elt F) := constantI S_ 32 50000#32
  let v23 : (⟨S800000, .i32⟩ : BufTy).Contents (Elt F) := (broadcastInDim S800000 ![] bcast_S_S800000 : (⟨S_, .i32⟩ : BufTy).Contents (Elt F) → (⟨S800000, .i32⟩ : BufTy).Contents (Elt F)) c_4
  let v24 : (⟨S800000, .i32⟩ : BufTy).Contents (Elt F) := (addi : (⟨S800000, .i32⟩ : BufTy).Contents (Elt F) → (⟨S800000, .i32⟩ : BufTy).Contents (Elt F) → (⟨S800000, .i32⟩ : BufTy).Contents (Elt F)) arg1 v23
  let v25 : (⟨S800000, .i32⟩ : BufTy).Contents (Elt F) := (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) v22 v24 arg1
  let v26 : (⟨S800000x1, .i32⟩ : BufTy).Contents (Elt F) := (broadcastInDim S800000x1 ![0] bcast_S800000_S800000x1_0 : (⟨S800000, .i32⟩ : BufTy).Contents (Elt F) → (⟨S800000x1, .i32⟩ : BufTy).Contents (Elt F)) v25
  let v27 : (⟨S800000x128, .f32⟩ : BufTy).Contents (Elt F) := ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)) v20 v26
  v27

/-- Edge layer 128 → 64 on the sum of the two endpoint rows. -/
def lay2 (v27 : (⟨S800000x128, .f32⟩ : BufTy).Contents (Elt F)) (v34 : (⟨S800000x128, .f32⟩ : BufTy).Contents (Elt F)) (arg5 : (⟨S128x64, .f32⟩ : BufTy).Contents (Elt F)) (arg6 : (⟨S64, .f32⟩ : BufTy).Contents (Elt F)) :
    (⟨S800000x64, .f32⟩ : BufTy).Contents (Elt F) :=
  let v35 : (⟨S800000x128, .f32⟩ : BufTy).Contents (Elt F) := (addf : (⟨S800000x128, .f32⟩ : BufTy).Contents (Elt F) → (⟨S800000x128, .f32⟩ : BufTy).Contents (Elt F) → (⟨S800000x128, .f32⟩ : BufTy).Contents (Elt F)) v27 v34
  let v36 : (⟨S800000x64, .f32⟩ : BufTy).Contents (Elt F) := ((fun l r => Host.dotGeneral dot_S800000x128_S128x64_S800000x64_1_0_0_1_n_n none l r) : (⟨S800000x128, .f32⟩ : BufTy).Contents (Elt F) → (⟨S128x64, .f32⟩ : BufTy).Contents (Elt F) → (⟨S800000x64, .f32⟩ : BufTy).Contents (Elt F)) v35 arg5
  let v37 : (⟨S1x64, .f32⟩ : BufTy).Contents (Elt F) := (broadcastInDim S1x64 ![1] bcast_S64_S1x64_1 : (⟨S64, .f32⟩ : BufTy).Contents (Elt F) → (⟨S1x64, .f32⟩ : BufTy).Contents (Elt F)) arg6
  let v38 : (⟨S800000x64, .f32⟩ : BufTy).Contents (Elt F) := (broadcastInDim S800000x64 ![0, 1] bcast_S1x64_S800000x64_0_1 : (⟨S1x64, .f32⟩ : BufTy).Contents (Elt F) → (⟨S800000x64, .f32⟩ : BufTy).Contents (Elt F)) v37
  let v39 : (⟨S800000x64, .f32⟩ : BufTy).Contents (Elt F) := (addf : (⟨S800000x64, .f32⟩ : BufTy).Contents (Elt F) → (⟨S800000x64, .f32⟩ : BufTy).Contents (Elt F) → (⟨S800000x64, .f32⟩ : BufTy).Contents (Elt F)) v36 v38
  let v40 : (⟨S800000x64, .f32⟩ : BufTy).Contents (Elt F) := (Host.negf : (⟨S800000x64, .f32⟩ : BufTy).Contents (Elt F) → (⟨S800000x64, .f32⟩ : BufTy).Contents (Elt F)) v39
  let v41 : (⟨S800000x64, .f32⟩ : BufTy).Contents (Elt F) := (Host.exp : (⟨S800000x64, .f32⟩ : BufTy).Contents (Elt F) → (⟨S800000x64, .f32⟩ : BufTy).Contents (Elt F)) v40
  let cst_7 : (⟨S_, .f32⟩ : BufTy).Contents (Elt F) := constant S_ .f32 0x3F800000#32
  let v42 : (⟨S800000x64, .f32⟩ : BufTy).Contents (Elt F) := (broadcastInDim S800000x64 ![] bcast_S_S800000x64 : (⟨S_, .f32⟩ : BufTy).Contents (Elt F) → (⟨S800000x64, .f32⟩ : BufTy).Contents (Elt F)) cst_7
  let v43 : (⟨S800000x64, .f32⟩ : BufTy).Contents (Elt F) := (addf : (⟨S800000x64, .f32⟩ : BufTy).Contents (Elt F) → (⟨S800000x64, .f32⟩ : BufTy).Contents (Elt F) → (⟨S800000x64, .f32⟩ : BufTy).Contents (Elt F)) v42 v41
  let cst_8 : (⟨S_, .f32⟩ : BufTy).Contents (Elt F) := constant S_ .f32 0x3F800000#32
  let v44 : (⟨S800000x64, .f32⟩ : BufTy).Contents (Elt F) := (broadcastInDim S800000x64 ![] bcast_S_S800000x64 : (⟨S_, .f32⟩ : BufTy).Contents (Elt F) → (⟨S800000x64, .f32⟩ : BufTy).Contents (Elt F)) cst_8
  let v45 : (⟨S800000x64, .f32⟩ : BufTy).Contents (Elt F) := (Host.divf : (⟨S800000x64, .f32⟩ : BufTy).Contents (Elt F) → (⟨S800000x64, .f32⟩ : BufTy).Contents (Elt F) → (⟨S800000x64, .f32⟩ : BufTy).Contents (Elt F)) v44 v43
  v45

/-- Neighbour sums of a 128-column node array. -/
def agg128 (v20 : (⟨S50000x128, .f32⟩ : BufTy).Contents (Elt F)) (arg1 : (⟨S800000, .i32⟩ : BufTy).Contents (Elt F)) (arg2 : (⟨S800000, .i32⟩ : BufTy).Contents (Elt F)) :
    (⟨S50000x128, .f32⟩ : BufTy).Contents (Elt F) :=
  let c_9 : (⟨S_, .i32⟩ : BufTy).Contents (Elt F) := constantI S_ 32 0#32
  let v46 : (⟨S800000, .i32⟩ : BufTy).Contents (Elt F) := (broadcastInDim S800000 ![] bcast_S_S800000 : (⟨S_, .i32⟩ : BufTy).Contents (Elt F) → (⟨S800000, .i32⟩ : BufTy).Contents (Elt F)) c_9
  let v47 : (⟨S800000, .i1⟩ : BufTy).Contents (Elt F) := (cmpi .slt : (⟨S800000, .i32⟩ : BufTy).Contents (Elt F) → (⟨S800000, .i32⟩ : BufTy).Contents (Elt F) → (⟨S800000, .i1⟩ : BufTy).Contents (Elt F)) arg1 v46
  let c_10 : (⟨S_, .i32⟩ : BufTy).Contents (Elt F) := constantI S_ 32 50000#32
  let v48 : (⟨S800000, .i32⟩ : BufTy).Contents (Elt F) := (broadcastInDim S800000 ![] bcast_S_S800000 : (⟨S_, .i32⟩ : BufTy).Contents (Elt F) → (⟨S800000, .i32⟩ : BufTy).Contents (Elt F)) c_10
  let v49 : (⟨S800000, .i32⟩ : BufTy).Contents (Elt F) := (addi : (⟨S800000, .i32⟩ : BufTy).Contents (Elt F) → (⟨S800000, .i32⟩ : BufTy).Contents (Elt F) → (⟨S800000, .i32⟩ : BufTy).Contents (Elt F)) arg1 v48
  let v50 : (⟨S800000, .i32⟩ : BufTy).Contents (Elt F) := (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) v47 v49 arg1
  let v51 : (⟨S800000x1, .i32⟩ : BufTy).Contents (Elt F) := (broadcastInDim S800000x1 ![0] bcast_S800000_S800000x1_0 : (⟨S800000, .i32⟩ : BufTy).Contents (Elt F) → (⟨S800000x1, .i32⟩ : BufTy).Contents (Elt F)) v50
  let v52 : (⟨S800000x128, .f32⟩ : BufTy).Contents (Elt F) := ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)) v20 v51
  let cst_11 : (⟨S_, .f32⟩ : BufTy).Contents (Elt F) := constant S_ .f32 0x00000000#32
  let v53 : (⟨S50000x128, .f32⟩ : BufTy).Contents (Elt F) := (broadcastInDim S50000x128 ![] bcast_S_S50000x128 : (⟨S_, .f32⟩ : BufTy).Contents (Elt F) → (⟨S50000x128, .f32⟩ : BufTy).Contents (Elt F)) cst_11
  let v54 : (⟨S800000x1, .i32⟩ : BufTy).Contents (Elt F) := (broadcastInDim S800000x1 ![0] bcast_S800000_S800000x1_0 : (⟨S800000, .i32⟩ : BufTy).Contents (Elt F) → (⟨S800000x1, .i32⟩ : BufTy).Contents (Elt F)) arg2
  let v55 : (⟨S50000x128, .f32⟩ : BufTy).Contents (Elt F) := ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)) v53 v54 v52
  v55

/-- Node layer 128 → 64. -/
def lay3 (v20 : (⟨S50000x128, .f32⟩ : BufTy).Contents (Elt F)) (v55 : (⟨S50000x128, .f32⟩ : BufTy).Contents (Elt F)) (arg7 : (⟨S128x64, .f32⟩ : BufTy).Contents (Elt F)) (arg8 : (⟨S64, .f32⟩ : BufTy).Contents (Elt F)) :
    (⟨S50000x64, .f32⟩ : BufTy).Contents (Elt F) :=
  let v56 : (⟨S50000x128, .f32⟩ : BufTy).Contents (Elt F) := (addf : (⟨S50000x128, .f32⟩ : BufTy).Contents (Elt F) → (⟨S50000x128, .f32⟩ : BufTy).Contents (Elt F) → (⟨S50000x128, .f32⟩ : BufTy).Contents (Elt F)) v20 v55
  let v57 : (⟨S50000x64, .f32⟩ : BufTy).Contents (Elt F) := ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)) v56 arg7
  let v58 : (⟨S1x64, .f32⟩ : BufTy).Contents (Elt F) := (broadcastInDim S1x64 ![1] bcast_S64_S1x64_1 : (⟨S64, .f32⟩ : BufTy).Contents (Elt F) → (⟨S1x64, .f32⟩ : BufTy).Contents (Elt F)) arg8
  let v59 : (⟨S50000x64, .f32⟩ : BufTy).Contents (Elt F) := (broadcastInDim S50000x64 ![0, 1] bcast_S1x64_S50000x64_0_1 : (⟨S1x64, .f32⟩ : BufTy).Contents (Elt F) → (⟨S50000x64, .f32⟩ : BufTy).Contents (Elt F)) v58
  let v60 : (⟨S50000x64, .f32⟩ : BufTy).Contents (Elt F) := (addf : (⟨S50000x64, .f32⟩ : BufTy).Contents (Elt F) → (⟨S50000x64, .f32⟩ : BufTy).Contents (Elt F) → (⟨S50000x64, .f32⟩ : BufTy).Contents (Elt F)) v57 v59
  let v61 : (⟨S50000x64, .f32⟩ : BufTy).Contents (Elt F) := (Host.negf : (⟨S50000x64, .f32⟩ : BufTy).Contents (Elt F) → (⟨S50000x64, .f32⟩ : BufTy).Contents (Elt F)) v60
  let v62 : (⟨S50000x64, .f32⟩ : BufTy).Contents (Elt F) := (Host.exp : (⟨S50000x64, .f32⟩ : BufTy).Contents (Elt F) → (⟨S50000x64, .f32⟩ : BufTy).Contents (Elt F)) v61
  let cst_12 : (⟨S_, .f32⟩ : BufTy).Contents (Elt F) := constant S_ .f32 0x3F800000#32
  let v63 : (⟨S50000x64, .f32⟩ : BufTy).Contents (Elt F) := (broadcastInDim S50000x64 ![] bcast_S_S50000x64 : (⟨S_, .f32⟩ : BufTy).Contents (Elt F) → (⟨S50000x64, .f32⟩ : BufTy).Contents (Elt F)) cst_12
  let v64 : (⟨S50000x64, .f32⟩ : BufTy).Contents (Elt F) := (addf : (⟨S50000x64, .f32⟩ : BufTy).Contents (Elt F) → (⟨S50000x64, .f32⟩ : BufTy).Contents (Elt F) → (⟨S50000x64, .f32⟩ : BufTy).Contents (Elt F)) v63 v62
  let cst_13 : (⟨S_, .f32⟩ : BufTy).Contents (Elt F) := constant S_ .f32 0x3F800000#32
  let v65 : (⟨S50000x64, .f32⟩ : BufTy).Contents (Elt F) := (broadcastInDim S50000x64 ![] bcast_S_S50000x64 : (⟨S_, .f32⟩ : BufTy).Contents (Elt F) → (⟨S50000x64, .f32⟩ : BufTy).Contents (Elt F)) cst_13
  let v66 : (⟨S50000x64, .f32⟩ : BufTy).Contents (Elt F) := (Host.divf : (⟨S50000x64, .f32⟩ : BufTy).Contents (Elt F) → (⟨S50000x64, .f32⟩ : BufTy).Contents (Elt F) → (⟨S50000x64, .f32⟩ : BufTy).Contents (Elt F)) v65 v64
  v66

/-- The rows of a 64-column node array at an edge list's (wrapped) node indices. -/
def gat64 (v66 : (⟨S50000x64, .f32⟩ : BufTy).Contents (Elt F)) (arg1 : (⟨S800000, .i32⟩ : BufTy).Contents (Elt F)) :
    (⟨S800000x64, .f32⟩ : BufTy).Contents (Elt F) :=
  let c_14 : (⟨S_, .i32⟩ : BufTy).Contents (Elt F) := constantI S_ 32 0#32
  let v67 : (⟨S800000, .i32⟩ : BufTy).Contents (Elt F) := (broadcastInDim S800000 ![] bcast_S_S800000 : (⟨S_, .i32⟩ : BufTy).Contents (Elt F) → (⟨S800000, .i32⟩ : BufTy).Contents (Elt F)) c_14
  let v68 : (⟨S800000, .i1⟩ : BufTy).Contents (Elt F) := (cmpi .slt : (⟨S800000, .i32⟩ : BufTy).Contents (Elt F) → (⟨S800000, .i32⟩ : BufTy).Contents (Elt F) → (⟨S800000, .i1⟩ : BufTy).Contents (Elt F)) arg1 v67
  let c_15 : (⟨S_, .i32⟩ : BufTy).Contents (Elt F) := constantI S_ 32 50000#32
  let v69 : (⟨S800000, .i32⟩ : BufTy).Contents (Elt F) := (broadcastInDim S800000 ![] bcast_S_S800000 : (⟨S_, .i32⟩ : BufTy).Contents (Elt F) → (⟨S800000, .i32⟩ : BufTy).Contents (Elt F)) c_15
  let v70 : (⟨S800000, .i32⟩ : BufTy).Contents (Elt F) := (addi : (⟨S800000, .i32⟩ : BufTy).Contents (Elt F) → (⟨S800000, .i32⟩ : BufTy).Contents (Elt F) → (⟨S800000, .i32⟩ : BufTy).Contents (Elt F)) arg1 v69
  let v71 : (⟨S800000, .i32⟩ : BufTy).Contents (Elt F) := (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) v68 v70 arg1
  let v72 : (⟨S800000x1, .i32⟩ : BufTy).Contents (Elt F) := (broadcastInDim S800000x1 ![0] bcast_S800000_S800000x1_0 : (⟨S800000, .i32⟩ : BufTy).Contents (Elt F) → (⟨S800000x1, .i32⟩ : BufTy).Contents (Elt F)) v71
  let v73 : (⟨S800000x64, .f32⟩ : BufTy).Contents (Elt F) := ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)) v66 v72
  v73

/-- Edge layer 64 → 32 on the sum of the two endpoint rows. -/
def lay4 (v73 : (⟨S800000x64, .f32⟩ : BufTy).Contents (Elt F)) (v80 : (⟨S800000x64, .f32⟩ : BufTy).Contents (Elt F)) (arg9 : (⟨S64x32, .f32⟩ : BufTy).Contents (Elt F)) (arg10 : (⟨S32, .f32⟩ : BufTy).Contents (Elt F)) :
    (⟨S800000x32, .f32⟩ : BufTy).Contents (Elt F) :=
  let v81 : (⟨S800000x64, .f32⟩ : BufTy).Contents (Elt F) := (addf : (⟨S800000x64, .f32⟩ : BufTy).Contents (Elt F) → (⟨S800000x64, .f32⟩ : BufTy).Contents (Elt F) → (⟨S800000x64, .f32⟩ : BufTy).Contents (Elt F)) v73 v80
  let v82 : (⟨S800000x32, .f32⟩ : BufTy).Contents (Elt F) := ((fun l r => Host.dotGeneral dot_S800000x64_S64x32_S800000x32_1_0_0_1_n_n none l r) : (⟨S800000x64, .f32⟩ : BufTy).Contents (Elt F) → (⟨S64x32, .f32⟩ : BufTy).Contents (Elt F) → (⟨S800000x32, .f32⟩ : BufTy).Contents (Elt F)) v81 arg9
  let v83 : (⟨S1x32, .f32⟩ : BufTy).Contents (Elt F) := (broadcastInDim S1x32 ![1] bcast_S32_S1x32_1 : (⟨S32, .f32⟩ : BufTy).Contents (Elt F) → (⟨S1x32, .f32⟩ : BufTy).Contents (Elt F)) arg10
  let v84 : (⟨S800000x32, .f32⟩ : BufTy).Contents (Elt F) := (broadcastInDim S800000x32 ![0, 1] bcast_S1x32_S800000x32_0_1 : (⟨S1x32, .f32⟩ : BufTy).Contents (Elt F) → (⟨S800000x32, .f32⟩ : BufTy).Contents (Elt F)) v83
  let v85 : (⟨S800000x32, .f32⟩ : BufTy).Contents (Elt F) := (addf : (⟨S800000x32, .f32⟩ : BufTy).Contents (Elt F) → (⟨S800000x32, .f32⟩ : BufTy).Contents (Elt F) → (⟨S800000x32, .f32⟩ : BufTy).Contents (Elt F)) v82 v84
  let v86 : (⟨S800000x32, .f32⟩ : BufTy).Contents (Elt F) := (Host.negf : (⟨S800000x32, .f32⟩ : BufTy).Contents (Elt F) → (⟨S800000x32, .f32⟩ : BufTy).Contents (Elt F)) v85
  let v87 : (⟨S800000x32, .f32⟩ : BufTy).Contents (Elt F) := (Host.exp : (⟨S800000x32, .f32⟩ : BufTy).Contents (Elt F) → (⟨S800000x32, .f32⟩ : BufTy).Contents (Elt F)) v86
  let cst_18 : (⟨S_, .f32⟩ : BufTy).Contents (Elt F) := constant S_ .f32 0x3F800000#32
  let v88 : (⟨S800000x32, .f32⟩ : BufTy).Contents (Elt F) := (broadcastInDim S800000x32 ![] bcast_S_S800000x32 : (⟨S_, .f32⟩ : BufTy).Contents (Elt F) → (⟨S800000x32, .f32⟩ : BufTy).Contents (Elt F)) cst_18
  let v89 : (⟨S800000x32, .f32⟩ : BufTy).Contents (Elt F) := (addf : (⟨S800000x32, .f32⟩ : BufTy).Contents (Elt F) → (⟨S800000x32, .f32⟩ : BufTy).Contents (Elt F) → (⟨S800000x32, .f32⟩ : BufTy).Contents (Elt F)) v88 v87
  let cst_19 : (⟨S_, .f32⟩ : BufTy).Contents (Elt F) := constant S_ .f32 0x3F800000#32
  let v90 : (⟨S800000x32, .f32⟩ : BufTy).Contents (Elt F) := (broadcastInDim S800000x32 ![] bcast_S_S800000x32 : (⟨S_, .f32⟩ : BufTy).Contents (Elt F) → (⟨S800000x32, .f32⟩ : BufTy).Contents (Elt F)) cst_19
  let v91 : (⟨S800000x32, .f32⟩ : BufTy).Contents (Elt F) := (Host.divf : (⟨S800000x32, .f32⟩ : BufTy).Contents (Elt F) → (⟨S800000x32, .f32⟩ : BufTy).Contents (Elt F) → (⟨S800000x32, .f32⟩ : BufTy).Contents (Elt F)) v90 v89
  v91

/-- Edge layer 64 → 32 with a residual: the logistic of `(X · W + b) + E`. -/
def lay5 (v45 : (⟨S800000x64, .f32⟩ : BufTy).Contents (Elt F)) (arg15 : (⟨S64x32, .f32⟩ : BufTy).Contents (Elt F)) (arg16 : (⟨S32, .f32⟩ : BufTy).Contents (Elt F)) (v91 : (⟨S800000x32, .f32⟩ : BufTy).Contents (Elt F)) :
    (⟨S800000x32, .f32⟩ : BufTy).Contents (Elt F) :=
  let v92 : (⟨S800000x32, .f32⟩ : BufTy).Contents (Elt F) := ((fun l r => Host.dotGeneral dot_S800000x64_S64x32_S800000x32_1_0_0_1_n_n none l r) : (⟨S800000x64, .f32⟩ : BufTy).Contents (Elt F) → (⟨S64x32, .f32⟩ : BufTy).Contents (Elt F) → (⟨S800000x32, .f32⟩ : BufTy).Contents (Elt F)) v45 arg15
  let v93 : (⟨S1x32, .f32⟩ : BufTy).Contents (Elt F) := (broadcastInDim S1x32 ![1] bcast_S32_S1x32_1 : (⟨S32, .f32⟩ : BufTy).Contents (Elt F) → (⟨S1x32, .f32⟩ : BufTy).Contents (Elt F)) arg16
  let v94 : (⟨S800000x32, .f32⟩ : BufTy).Contents (Elt F) := (broadcastInDim S800000x32 ![0, 1] bcast_S1x32_S800000x32_0_1 : (⟨S1x32, .f32⟩ : BufTy).Contents (Elt F) → (⟨S800000x32, .f32⟩ : BufTy).Contents (Elt F)) v93
  let v95 : (⟨S800000x32, .f32⟩ : BufTy).Contents (Elt F) := (addf : (⟨S800000x32, .f32⟩ : BufTy).Contents (Elt F) → (⟨S800000x32, .f32⟩ : BufTy).Contents (Elt F) → (⟨S800000x32, .f32⟩ : BufTy).Contents (Elt F)) v92 v94
  let v96 : (⟨S800000x32, .f32⟩ : BufTy).Contents (Elt F) := (addf : (⟨S800000x32, .f32⟩ : BufTy).Contents (Elt F) → (⟨S800000x32, .f32⟩ : BufTy).Contents (Elt F) → (⟨S800000x32, .f32⟩ : BufTy).Contents (Elt F)) v95 v91
  let v97 : (⟨S800000x32, .f32⟩ : BufTy).Contents (Elt F) := (Host.negf : (⟨S800000x32, .f32⟩ : BufTy).Contents (Elt F) → (⟨S800000x32, .f32⟩ : BufTy).Contents (Elt F)) v96
  let v98 : (⟨S800000x32, .f32⟩ : BufTy).Contents (Elt F) := (Host.exp : (⟨S800000x32, .f32⟩ : BufTy).Contents (Elt F) → (⟨S800000x32, .f32⟩ : BufTy).Contents (Elt F)) v97
  let cst_20 : (⟨S_, .f32⟩ : BufTy).Contents (Elt F) := constant S_ .f32 0x3F800000#32
  let v99 : (⟨S800000x32, .f32⟩ : BufTy).Contents (Elt F) := (broadcastInDim S800000x32 ![] bcast_S_S800000x32 : (⟨S_, .f32⟩ : BufTy).Contents (Elt F) → (⟨S800000x32, .f32⟩ : BufTy).Contents (Elt F)) cst_20
  let v100 : (⟨S800000x32, .f32⟩ : BufTy).Contents (Elt F) := (addf : (⟨S800000x32, .f32⟩ : BufTy).Contents (Elt F) → (⟨S800000x32, .f32⟩ : BufTy).Contents (Elt F) → (⟨S800000x32, .f32⟩ : BufTy).Contents (Elt F)) v99 v98
  let cst_21 : (⟨S_, .f32⟩ : BufTy).Contents (Elt F) := constant S_ .f32 0x3F800000#32
  let v101 : (⟨S800000x32, .f32⟩ : BufTy).Contents (Elt F) := (broadcastInDim S800000x32 ![] bcast_S_S800000x32 : (⟨S_, .f32⟩ : BufTy).Contents (Elt F) → (⟨S800000x32, .f32⟩ : BufTy).Contents (Elt F)) cst_21
  let v102 : (⟨S800000x32, .f32⟩ : BufTy).Contents (Elt F) := (Host.divf : (⟨S800000x32, .f32⟩ : BufTy).Contents (Elt F) → (⟨S800000x32, .f32⟩ : BufTy).Contents (Elt F) → (⟨S800000x32, .f32⟩ : BufTy).Contents (Elt F)) v101 v100
  v102

/-- Node layer 64 → 32. -/
def lay6 (v66 : (⟨S50000x64, .f32⟩ : BufTy).Contents (Elt F)) (v112 : (⟨S50000x64, .f32⟩ : BufTy).Contents (Elt F)) (arg11 : (⟨S64x32, .f32⟩ : BufTy).Contents (Elt F)) (arg12 : (⟨S32, .f32⟩ : BufTy).Contents (Elt F)) :
    (⟨S50000x32, .f32⟩ : BufTy).Contents (Elt F) :=
  let v113 : (⟨S50000x64, .f32⟩ : BufTy).Contents (Elt F) := (addf : (⟨S50000x64, .f32⟩ : BufTy).Contents (Elt F) → (⟨S50000x64, .f32⟩ : BufTy).Contents (Elt F) → (⟨S50000x64, .f32⟩ : BufTy).Contents (Elt F)) v66 v112
  let v114 : (⟨S50000x32, .f32⟩ : BufTy).Contents (Elt F) := ((fun l r => Host.dotGeneral dot_S50000x64_S64x32_S50000x32_1_0_0_1_n_n none l r) : (⟨S50000x64, .f32⟩ : BufTy).Contents (Elt F) → (⟨S64x32, .f32⟩ : BufTy).Contents (Elt F) → (⟨S50000x32, .f32⟩ : BufTy).Contents (Elt F)) v113 arg11
  let v115 : (⟨S1x32, .f32⟩ : BufTy).Contents (Elt F) := (broadcastInDim S1x32 ![1] bcast_S32_S1x32_1 : (⟨S32, .f32⟩ : BufTy).Contents (Elt F) → (⟨S1x32, .f32⟩ : BufTy).Contents (Elt F)) arg12
  let v116 : (⟨S50000x32, .f32⟩ : BufTy).Contents (Elt F) := (broadcastInDim S50000x32 ![0, 1] bcast_S1x32_S50000x32_0_1 : (⟨S1x32, .f32⟩ : BufTy).Contents (Elt F) → (⟨S50000x32, .f32⟩ : BufTy).Contents (Elt F)) v115
  let v117 : (⟨S50000x32, .f32⟩ : BufTy).Contents (Elt F) := (addf : (⟨S50000x32, .f32⟩ : BufTy).Contents (Elt F) → (⟨S50000x32, .f32⟩ : BufTy).Contents (Elt F) → (⟨S50000x32, .f32⟩ : BufTy).Contents (Elt F)) v114 v116
  let v118 : (⟨S50000x32, .f32⟩ : BufTy).Contents (Elt F) := (Host.negf : (⟨S50000x32, .f32⟩ : BufTy).Contents (Elt F) → (⟨S50000x32, .f32⟩ : BufTy).Contents (Elt F)) v117
  let v119 : (⟨S50000x32, .f32⟩ : BufTy).Contents (Elt F) := (Host.exp : (⟨S50000x32, .f32⟩ : BufTy).Contents (Elt F) → (⟨S50000x32, .f32⟩ : BufTy).Contents (Elt F)) v118
  let cst_25 : (⟨S_, .f32⟩ : BufTy).Contents (Elt F) := constant S_ .f32 0x3F800000#32
  let v120 : (⟨S50000x32, .f32⟩ : BufTy).Contents (Elt F) := (broadcastInDim S50000x32 ![] bcast_S_S50000x32 : (⟨S_, .f32⟩ : BufTy).Contents (Elt F) → (⟨S50000x32, .f32⟩ : BufTy).Contents (Elt F)) cst_25
  let v121 : (⟨S50000x32, .f32⟩ : BufTy).Contents (Elt F) := (addf : (⟨S50000x32, .f32⟩ : BufTy).Contents (Elt F) → (⟨S50000x32, .f32⟩ : BufTy).Contents (Elt F) → (⟨S50000x32, .f32⟩ : BufTy).Contents (Elt F)) v120 v119
  let cst_26 : (⟨S_, .f32⟩ : BufTy).Contents (Elt F) := constant S_ .f32 0x3F800000#32
  let v122 : (⟨S50000x32, .f32⟩ : BufTy).Contents (Elt F) := (broadcastInDim S50000x32 ![] bcast_S_S50000x32 : (⟨S_, .f32⟩ : BufTy).Contents (Elt F) → (⟨S50000x32, .f32⟩ : BufTy).Contents (Elt F)) cst_26
  let v123 : (⟨S50000x32, .f32⟩ : BufTy).Contents (Elt F) := (Host.divf : (⟨S50000x32, .f32⟩ : BufTy).Contents (Elt F) → (⟨S50000x32, .f32⟩ : BufTy).Contents (Elt F) → (⟨S50000x32, .f32⟩ : BufTy).Contents (Elt F)) v122 v121
  v123

/-- The rows of a 32-column node array at an edge list's (wrapped) node indices. -/
def gat32 (v123 : (⟨S50000x32, .f32⟩ : BufTy).Contents (Elt F)) (arg1 : (⟨S800000, .i32⟩ : BufTy).Contents (Elt F)) :
    (⟨S800000x32, .f32⟩ : BufTy).Contents (Elt F) :=
  let c_27 : (⟨S_, .i32⟩ : BufTy).Contents (Elt F) := constantI S_ 32 0#32
  let v124 : (⟨S800000, .i32⟩ : BufTy).Contents (Elt F) := (broadcastInDim S800000 ![] bcast_S_S800000 : (⟨S_, .i32⟩ : BufTy).Contents (Elt F) → (⟨S800000, .i32⟩ : BufTy).Contents (Elt F)) c_27
  let v125 : (⟨S800000, .i1⟩ : BufTy).Contents (Elt F) := (cmpi .slt : (⟨S800000, .i32⟩ : BufTy).Contents (Elt F) → (⟨S800000, .i32⟩ : BufTy).Contents (Elt F) → (⟨S800000, .i1⟩ : BufTy).Contents (Elt F)) arg1 v124
  let c_28 : (⟨S_, .i32⟩ : BufTy).Contents (Elt F) := constantI S_ 32 50000#32
  let v126 : (⟨S800000, .i32⟩ : BufTy).Contents (Elt F) := (broadcastInDim S800000 ![] bcast_S_S800000 : (⟨S_, .i32⟩ : BufTy).Contents (Elt F) → (⟨S800000, .i32⟩ : BufTy).Contents (Elt F)) c_28
  let v127 : (⟨S800000, .i32⟩ : BufTy).Contents (Elt F) := (addi : (⟨S800000, .i32⟩ : BufTy).Contents (Elt F) → (⟨S800000, .i32⟩ : BufTy).Contents (Elt F) → (⟨S800000, .i32⟩ : BufTy).Contents (Elt F)) arg1 v126
  let v128 : (⟨S800000, .i32⟩ : BufTy).Contents (Elt F) := (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) v125 v127 arg1
  let v129 : (⟨S800000x1, .i32⟩ : BufTy).Contents (Elt F) := (broadcastInDim S800000x1 ![0] bcast_S800000_S800000x1_0 : (⟨S800000, .i32⟩ : BufTy).Contents (Elt F) → (⟨S800000x1, .i32⟩ : BufTy).Contents (Elt F)) v128
  let v130 : (⟨S800000x32, .f32⟩ : BufTy).Contents (Elt F) := ((fun x i => Host.gather gather_S50000x32_S800000x1_S800000x32_1_0_n_n_0_1_132 x i) : (⟨S50000x32, .f32⟩ : BufTy).Contents (Elt F) → (⟨S800000x1, .i32⟩ : BufTy).Contents (Elt F) → (⟨S800000x32, .f32⟩ : BufTy).Contents (Elt F)) v123 v129
  v130

/-- Edge layer 32 → 1 on the sum of the two endpoint rows. -/
def lay7 (v130 : (⟨S800000x32, .f32⟩ : BufTy).Contents (Elt F)) (v137 : (⟨S800000x32, .f32⟩ : BufTy).Contents (Elt F)) (arg13 : (⟨S32x1, .f32⟩ : BufTy).Contents (Elt F)) (arg14 : (⟨S1, .f32⟩ : BufTy).Contents (Elt F)) :
    (⟨S800000x1, .f32⟩ : BufTy).Contents (Elt F) :=
  let v138 : (⟨S800000x32, .f32⟩ : BufTy).Contents (Elt F) := (addf : (⟨S800000x32, .f32⟩ : BufTy).Contents (Elt F) → (⟨S800000x32, .f32⟩ : BufTy).Contents (Elt F) → (⟨S800000x32, .f32⟩ : BufTy).Contents (Elt F)) v130 v137
  let v139 : (⟨S800000x1, .f32⟩ : BufTy).Contents (Elt F) := ((fun l r => Host.dotGeneral dot_S800000x32_S32x1_S800000x1_1_0_0_1_n_n none l r) : (⟨S800000x32, .f32⟩ : BufTy).Contents (Elt F) → (⟨S32x1, .f32⟩ : BufTy).Contents (Elt F) → (⟨S800000x1, .f32⟩ : BufTy).Contents (Elt F)) v138 arg13
  let v140 : (⟨S1x1, .f32⟩ : BufTy).Contents (Elt F) := (broadcastInDim S1x1 ![1] bcast_S1_S1x1_1 : (⟨S1, .f32⟩ : BufTy).Contents (Elt F) → (⟨S1x1, .f32⟩ : BufTy).Contents (Elt F)) arg14
  let v141 : (⟨S800000x1, .f32⟩ : BufTy).Contents (Elt F) := (broadcastInDim S800000x1 ![0, 1] bcast_S1x1_S800000x1_0_1 : (⟨S1x1, .f32⟩ : BufTy).Contents (Elt F) → (⟨S800000x1, .f32⟩ : BufTy).Contents (Elt F)) v140
  let v142 : (⟨S800000x1, .f32⟩ : BufTy).Contents (Elt F) := (addf : (⟨S800000x1, .f32⟩ : BufTy).Contents (Elt F) → (⟨S800000x1, .f32⟩ : BufTy).Contents (Elt F) → (⟨S800000x1, .f32⟩ : BufTy).Contents (Elt F)) v139 v141
  let v143 : (⟨S800000x1, .f32⟩ : BufTy).Contents (Elt F) := (Host.negf : (⟨S800000x1, .f32⟩ : BufTy).Contents (Elt F) → (⟨S800000x1, .f32⟩ : BufTy).Contents (Elt F)) v142
  let v144 : (⟨S800000x1, .f32⟩ : BufTy).Contents (Elt F) := (Host.exp : (⟨S800000x1, .f32⟩ : BufTy).Contents (Elt F) → (⟨S800000x1, .f32⟩ : BufTy).Contents (Elt F)) v143
  let cst_31 : (⟨S_, .f32⟩ : BufTy).Contents (Elt F) := constant S_ .f32 0x3F800000#32
  let v145 : (⟨S800000x1, .f32⟩ : BufTy).Contents (Elt F) := (broadcastInDim S800000x1 ![] bcast_S_S800000x1 : (⟨S_, .f32⟩ : BufTy).Contents (Elt F) → (⟨S800000x1, .f32⟩ : BufTy).Contents (Elt F)) cst_31
  let v146 : (⟨S800000x1, .f32⟩ : BufTy).Contents (Elt F) := (addf : (⟨S800000x1, .f32⟩ : BufTy).Contents (Elt F) → (⟨S800000x1, .f32⟩ : BufTy).Contents (Elt F) → (⟨S800000x1, .f32⟩ : BufTy).Contents (Elt F)) v145 v144
  let cst_32 : (⟨S_, .f32⟩ : BufTy).Contents (Elt F) := constant S_ .f32 0x3F800000#32
  let v147 : (⟨S800000x1, .f32⟩ : BufTy).Contents (Elt F) := (broadcastInDim S800000x1 ![] bcast_S_S800000x1 : (⟨S_, .f32⟩ : BufTy).Contents (Elt F) → (⟨S800000x1, .f32⟩ : BufTy).Contents (Elt F)) cst_32
  let v148 : (⟨S800000x1, .f32⟩ : BufTy).Contents (Elt F) := (Host.divf : (⟨S800000x1, .f32⟩ : BufTy).Contents (Elt F) → (⟨S800000x1, .f32⟩ : BufTy).Contents (Elt F) → (⟨S800000x1, .f32⟩ : BufTy).Contents (Elt F)) v147 v146
  v148

/-- Edge layer 32 → 1 with a residual. -/
def lay8 (v102 : (⟨S800000x32, .f32⟩ : BufTy).Contents (Elt F)) (arg17 : (⟨S32x1, .f32⟩ : BufTy).Contents (Elt F)) (arg18 : (⟨S1, .f32⟩ : BufTy).Contents (Elt F)) (v148 : (⟨S800000x1, .f32⟩ : BufTy).Contents (Elt F)) :
    (⟨S800000x1, .f32⟩ : BufTy).Contents (Elt F) :=
  let v149 : (⟨S800000x1, .f32⟩ : BufTy).Contents (Elt F) := ((fun l r => Host.dotGeneral dot_S800000x32_S32x1_S800000x1_1_0_0_1_n_n none l r) : (⟨S800000x32, .f32⟩ : BufTy).Contents (Elt F) → (⟨S32x1, .f32⟩ : BufTy).Contents (Elt F) → (⟨S800000x1, .f32⟩ : BufTy).Contents (Elt F)) v102 arg17
  let v150 : (⟨S1x1, .f32⟩ : BufTy).Contents (Elt F) := (broadcastInDim S1x1 ![1] bcast_S1_S1x1_1 : (⟨S1, .f32⟩ : BufTy).Contents (Elt F) → (⟨S1x1, .f32⟩ : BufTy).Contents (Elt F)) arg18
  let v151 : (⟨S800000x1, .f32⟩ : BufTy).Contents (Elt F) := (broadcastInDim S800000x1 ![0, 1] bcast_S1x1_S800000x1_0_1 : (⟨S1x1, .f32⟩ : BufTy).Contents (Elt F) → (⟨S800000x1, .f32⟩ : BufTy).Contents (Elt F)) v150
  let v152 : (⟨S800000x1, .f32⟩ : BufTy).Contents (Elt F) := (addf : (⟨S800000x1, .f32⟩ : BufTy).Contents (Elt F) → (⟨S800000x1, .f32⟩ : BufTy).Contents (Elt F) → (⟨S800000x1, .f32⟩ : BufTy).Contents (Elt F)) v149 v151
  let v153 : (⟨S800000x1, .f32⟩ : BufTy).Contents (Elt F) := (addf : (⟨S800000x1, .f32⟩ : BufTy).Contents (Elt F) → (⟨S800000x1, .f32⟩ : BufTy).Contents (Elt F) → (⟨S800000x1, .f32⟩ : BufTy).Contents (Elt F)) v152 v148
  let v154 : (⟨S800000x1, .f32⟩ : BufTy).Contents (Elt F) := (Host.negf : (⟨S800000x1, .f32⟩ : BufTy).Contents (Elt F) → (⟨S800000x1, .f32⟩ : BufTy).Contents (Elt F)) v153
  let v155 : (⟨S800000x1, .f32⟩ : BufTy).Contents (Elt F) := (Host.exp : (⟨S800000x1, .f32⟩ : BufTy).Contents (Elt F) → (⟨S800000x1, .f32⟩ : BufTy).Contents (Elt F)) v154
  let cst_33 : (⟨S_, .f32⟩ : BufTy).Contents (Elt F) := constant S_ .f32 0x3F800000#32
  let v156 : (⟨S800000x1, .f32⟩ : BufTy).Contents (Elt F) := (broadcastInDim S800000x1 ![] bcast_S_S800000x1 : (⟨S_, .f32⟩ : BufTy).Contents (Elt F) → (⟨S800000x1, .f32⟩ : BufTy).Contents (Elt F)) cst_33
  let v157 : (⟨S800000x1, .f32⟩ : BufTy).Contents (Elt F) := (addf : (⟨S800000x1, .f32⟩ : BufTy).Contents (Elt F) → (⟨S800000x1, .f32⟩ : BufTy).Contents (Elt F) → (⟨S800000x1, .f32⟩ : BufTy).Contents (Elt F)) v156 v155
  let cst_34 : (⟨S_, .f32⟩ : BufTy).Contents (Elt F) := constant S_ .f32 0x3F800000#32
  let v158 : (⟨S800000x1, .f32⟩ : BufTy).Contents (Elt F) := (broadcastInDim S800000x1 ![] bcast_S_S800000x1 : (⟨S_, .f32⟩ : BufTy).Contents (Elt F) → (⟨S800000x1, .f32⟩ : BufTy).Contents (Elt F)) cst_34
  let v159 : (⟨S800000x1, .f32⟩ : BufTy).Contents (Elt F) := (Host.divf : (⟨S800000x1, .f32⟩ : BufTy).Contents (Elt F) → (⟨S800000x1, .f32⟩ : BufTy).Contents (Elt F) → (⟨S800000x1, .f32⟩ : BufTy).Contents (Elt F)) v158 v157
  v159

/-- The whole network, from the nineteen arguments to the edge scores. -/
def net (a0 : (⟨S50000x64, .f32⟩ : BufTy).Contents (Elt F)) (a1 : (⟨S800000, .i32⟩ : BufTy).Contents (Elt F)) (a2 : (⟨S800000, .i32⟩ : BufTy).Contents (Elt F)) (a3 : (⟨S64x128, .f32⟩ : BufTy).Contents (Elt F)) (a4 : (⟨S128, .f32⟩ : BufTy).Contents (Elt F)) (a5 : (⟨S128x64, .f32⟩ : BufTy).Contents (Elt F)) (a6 : (⟨S64, .f32⟩ : BufTy).Contents (Elt F)) (a7 : (⟨S128x64, .f32⟩ : BufTy).Contents (Elt F)) (a8 : (⟨S64, .f32⟩ : BufTy).Contents (Elt F)) (a9 : (⟨S64x32, .f32⟩ : BufTy).Contents (Elt F)) (a10 : (⟨S32, .f32⟩ : BufTy).Contents (Elt F)) (a11 : (⟨S64x32, .f32⟩ : BufTy).Contents (Elt F)) (a12 : (⟨S32, .f32⟩ : BufTy).Contents (Elt F)) (a13 : (⟨S32x1, .f32⟩ : BufTy).Contents (Elt F)) (a14 : (⟨S1, .f32⟩ : BufTy).Contents (Elt F)) (a15 : (⟨S64x32, .f32⟩ : BufTy).Contents (Elt F)) (a16 : (⟨S32, .f32⟩ : BufTy).Contents (Elt F)) (a17 : (⟨S32x1, .f32⟩ : BufTy).Contents (Elt F)) (a18 : (⟨S1, .f32⟩ : BufTy).Contents (Elt F)) :
    (⟨S800000x1, .f32⟩ : BufTy).Contents (Elt F) :=
  let h1 := lay1 a0 (agg64 a0 a1 a2) a3 a4
  let c1 := lay2 (gat128 h1 a1) (gat128 h1 a2) a5 a6
  let h2 := lay3 h1 (agg128 h1 a1 a2) a7 a8
  let c2 := lay4 (gat64 h2 a1) (gat64 h2 a2) a9 a10
  let g1 := lay5 c1 a15 a16 c2
  let h3 := lay6 h2 (agg64 h2 a1 a2) a11 a12
  let c3 := lay7 (gat32 h3 a1) (gat32 h3 a2) a13 a14
  lay8 g1 a17 a18 c3

end Cert.Net

end
-- ==== Proof.KernelRun.lean ====
/-
  The idealized kernel program's run with its result NAMED: every weakly fair execution of @main terminates,
  nothing faulting, the nineteen argument arrays end as launched, and the result buffer ends at the contents
  the last segment boundary gives it (`W16`, the fold of the eight host stretches and the eight regions'
  write-backs from the launch memory). Stated for any float instance; the launch over the segments is the
  one of the frame, with the result's read-back as one more conjunct.
-/
import proofs.«157600_j9852654977700_1_alg».proof.Proof.Gen.KernelIdeal.Frame

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the kernel program: termination without a fault, the result at the last boundary's contents,
    the arguments unchanged. -/
theorem run_named : θ_run defs (onTc (τ := τ) (main (F := F))) ⟨m, fun _ => 0, ρ⟩ (fun r => ∀ c : Dev nD,
      r.2.mem ((c.tc : Thread nD τ).loc main_v87) = W16 m ρ c (Proc.devRef .tc main_v87)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c =>
      ⟨h c _ (mem_uc main_v87 (by decide)),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c),
       (h c _ (mem_uc main_arg3 (by decide))).trans (W16_main_arg3 m ρ c),
       (h c _ (mem_uc main_arg4 (by decide))).trans (W16_main_arg4 m ρ c),
       (h c _ (mem_uc main_arg5 (by decide))).trans (W16_main_arg5 m ρ c),
       (h c _ (mem_uc main_arg6 (by decide))).trans (W16_main_arg6 m ρ c),
       (h c _ (mem_uc main_arg7 (by decide))).trans (W16_main_arg7 m ρ c),
       (h c _ (mem_uc main_arg8 (by decide))).trans (W16_main_arg8 m ρ c),
       (h c _ (mem_uc main_arg9 (by decide))).trans (W16_main_arg9 m ρ c),
       (h c _ (mem_uc main_arg10 (by decide))).trans (W16_main_arg10 m ρ c),
       (h c _ (mem_uc main_arg11 (by decide))).trans (W16_main_arg11 m ρ c),
       (h c _ (mem_uc main_arg12 (by decide))).trans (W16_main_arg12 m ρ c),
       (h c _ (mem_uc main_arg13 (by decide))).trans (W16_main_arg13 m ρ c),
       (h c _ (mem_uc main_arg14 (by decide))).trans (W16_main_arg14 m ρ c),
       (h c _ (mem_uc main_arg15 (by decide))).trans (W16_main_arg15 m ρ c),
       (h c _ (mem_uc main_arg16 (by decide))).trans (W16_main_arg16 m ρ c),
       (h c _ (mem_uc main_arg17 (by decide))).trans (W16_main_arg17 m ρ c),
       (h c _ (mem_uc main_arg18 (by decide))).trans (W16_main_arg18 m ρ c)⟩)

end Cert.KernelIdeal.Run

end
-- ==== Proof.HostKReshape.lean ====
/-
  The bias reshapes and the unchanged buffers of the kernel program's eight host stretches, for any float
  instance.

  A reshape of a length-N vector to a 1 × N array lists the same N elements in row-major order, so its entry
  (0, q) is the vector's entry q; `rs128`, `rs64`, `rs32`, `rs1` name that array for the four bias lengths,
  and each stretch's reshape leaves exactly it in the buffer it writes. A stretch rewrites only the buffers its
  operations name as results: every other buffer holds afterwards what it held before.
-/
import proofs.«157600_j9852654977700_1_alg».proof.Proof.Gen.KernelIdeal.Launch
import Idealize.ShloMosaic.Lib.ValueLayout
import Idealize.ShloMosaic.Lib.StableHlo.Run
import Idealize.ShloMosaic.PureOps.Ideal

noncomputable section

namespace Cert.HostK

open Idealize.ShloMosaic Idealize.ShloMosaic.TcCoe Idealize.ShloMosaic.ValueIdx
open Idealize.SL.Sem
open Cert.KernelIdeal Cert.KernelIdeal.Gen

variable {F : FTy → Type} [FloatOps F]

/-! ## The bias reshapes -/

/-- A length-128 vector laid out as a 1 × 128 array, elements in row-major order. -/
def rs128 (b : (⟨S128, .f32⟩ : BufTy).Contents (Elt F)) : (⟨S1x128, .f32⟩ : BufTy).Contents (Elt F) :=
  fun i => shapeCast S1x128 b shapeCasts_S128_S1x128 i

/-- Entry (0, q) of the 1 × 128 array is entry q of the vector. -/
theorem hk_rs128_apply (b : (⟨S128, .f32⟩ : BufTy).Contents (Elt Ideal)) (q : Fin 128) :
    rs128 (F := Ideal) b (ix2 0 q) = b (ix1 q) :=
  shapeCast_a_1a_apply b shapeCasts_S128_S1x128 0 q

/-- A length-64 vector laid out as a 1 × 64 array, elements in row-major order. -/
def rs64 (b : (⟨S64, .f32⟩ : BufTy).Contents (Elt F)) : (⟨S1x64, .f32⟩ : BufTy).Contents (Elt F) :=
  fun i => shapeCast S1x64 b shapeCasts_S64_S1x64 i

/-- Entry (0, q) of the 1 × 64 array is entry q of the vector. -/
theorem hk_rs64_apply (b : (⟨S64, .f32⟩ : BufTy).Contents (Elt Ideal)) (q : Fin 64) :
    rs64 (F := Ideal) b (ix2 0 q) = b (ix1 q) :=
  shapeCast_a_1a_apply b shapeCasts_S64_S1x64 0 q

/-- A length-32 vector laid out as a 1 × 32 array, elements in row-major order. -/
def rs32 (b : (⟨S32, .f32⟩ : BufTy).Contents (Elt F)) : (⟨S1x32, .f32⟩ : BufTy).Contents (Elt F) :=
  fun i => shapeCast S1x32 b shapeCasts_S32_S1x32 i

/-- Entry (0, q) of the 1 × 32 array is entry q of the vector. -/
theorem hk_rs32_apply (b : (⟨S32, .f32⟩ : BufTy).Contents (Elt Ideal)) (q : Fin 32) :
    rs32 (F := Ideal) b (ix2 0 q) = b (ix1 q) :=
  shapeCast_a_1a_apply b shapeCasts_S32_S1x32 0 q

/-- A length-1 vector laid out as a 1 × 1 array, elements in row-major order. -/
def rs1 (b : (⟨S1, .f32⟩ : BufTy).Contents (Elt F)) : (⟨S1x1, .f32⟩ : BufTy).Contents (Elt F) :=
  fun i => shapeCast S1x1 b shapeCasts_S1_S1x1 i

/-- Entry (0, q) of the 1 × 1 array is entry q of the vector. -/
theorem hk_rs1_apply (b : (⟨S1, .f32⟩ : BufTy).Contents (Elt Ideal)) (q : Fin 1) :
    rs1 (F := Ideal) b (ix2 0 q) = b (ix1 q) :=
  shapeCast_a_1a_apply b shapeCasts_S1_S1x1 0 q

/-! ## What each stretch's reshape leaves in its result buffer -/

/-- The reshape of stretch 0: the bias vector as a one-row array. -/
theorem hk_v10 (Wk : Valuation τ sig (Elt F)) :
    StableHlo.after (hostOps0 (F := F)) Wk (Proc.devRef .tc main_v10) = rs128 (Wk (Proc.devRef .tc main_arg4)) := by
  after_results_simp
  rfl

/-- The reshape of stretch 1: the bias vector as a one-row array. -/
theorem hk_v26 (Wk : Valuation τ sig (Elt F)) :
    StableHlo.after (hostOps1 (F := F)) Wk (Proc.devRef .tc main_v26) = rs64 (Wk (Proc.devRef .tc main_arg6)) := by
  after_results_simp
  rfl

/-- The reshape of stretch 2: the bias vector as a one-row array. -/
theorem hk_v38 (Wk : Valuation τ sig (Elt F)) :
    StableHlo.after (hostOps2 (F := F)) Wk (Proc.devRef .tc main_v38) = rs64 (Wk (Proc.devRef .tc main_arg8)) := by
  after_results_simp
  rfl

/-- The reshape of stretch 3: the bias vector as a one-row array. -/
theorem hk_v54 (Wk : Valuation τ sig (Elt F)) :
    StableHlo.after (hostOps3 (F := F)) Wk (Proc.devRef .tc main_v54) = rs32 (Wk (Proc.devRef .tc main_arg10)) := by
  after_results_simp
  rfl

/-- The reshape of stretch 4: the bias vector as a one-row array. -/
theorem hk_v56 (Wk : Valuation τ sig (Elt F)) :
    StableHlo.after (hostOps4 (F := F)) Wk (Proc.devRef .tc main_v56) = rs32 (Wk (Proc.devRef .tc main_arg16)) := by
  after_results_simp
  rfl

/-- The reshape of stretch 5: the bias vector as a one-row array. -/
theorem hk_v68 (Wk : Valuation τ sig (Elt F)) :
    StableHlo.after (hostOps5 (F := F)) Wk (Proc.devRef .tc main_v68) = rs32 (Wk (Proc.devRef .tc main_arg12)) := by
  after_results_simp
  rfl

/-- The reshape of stretch 6: the bias vector as a one-row array. -/
theorem hk_v84 (Wk : Valuation τ sig (Elt F)) :
    StableHlo.after (hostOps6 (F := F)) Wk (Proc.devRef .tc main_v84) = rs1 (Wk (Proc.devRef .tc main_arg14)) := by
  after_results_simp
  rfl

/-- The reshape of stretch 7: the bias vector as a one-row array. -/
theorem hk_v86 (Wk : Valuation τ sig (Elt F)) :
    StableHlo.after (hostOps7 (F := F)) Wk (Proc.devRef .tc main_v86) = rs1 (Wk (Proc.devRef .tc main_arg18)) := by
  after_results_simp
  rfl

/-! ## The buffers a stretch leaves alone -/

/-- Every operation of stretch 0 writes one of the listed buffers. -/
theorem hk_writes0 : (hostOps0 : List (HloOp τ sig (Elt F))).Forall fun op =>
    op.writes ⊆ (([main_c, main_v0, main_v1, main_c_0, main_v2, main_v3, main_v4, main_v5, main_v6, main_cst, main_v7, main_v8, main_v9, main_v10] : List (Ref sig .tc)).map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-- A buffer stretch 0 does not write holds afterwards what it held before. -/
theorem hk_keep0 (Wk : Valuation τ sig (Elt F)) (b : Ref sig .tc)
    (hb : b ∉ ([main_c, main_v0, main_v1, main_c_0, main_v2, main_v3, main_v4, main_v5, main_v6, main_cst, main_v7, main_v8, main_v9, main_v10] : List (Ref sig .tc))) :
    StableHlo.after (hostOps0 (F := F)) Wk (Proc.devRef .tc b) = Wk (Proc.devRef .tc b) :=
  StableHlo.after_of_writes_sub hostOps0 Wk hk_writes0 hb

/-- Every operation of stretch 1 writes one of the listed buffers. -/
theorem hk_writes1 : (hostOps1 : List (HloOp τ sig (Elt F))).Forall fun op =>
    op.writes ⊆ (([main_c_1, main_v12, main_v13, main_c_2, main_v14, main_v15, main_v16, main_v17, main_v18, main_c_3, main_v19, main_v20, main_c_4, main_v21, main_v22, main_v23, main_v24, main_v25, main_v26] : List (Ref sig .tc)).map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-- A buffer stretch 1 does not write holds afterwards what it held before. -/
theorem hk_keep1 (Wk : Valuation τ sig (Elt F)) (b : Ref sig .tc)
    (hb : b ∉ ([main_c_1, main_v12, main_v13, main_c_2, main_v14, main_v15, main_v16, main_v17, main_v18, main_c_3, main_v19, main_v20, main_c_4, main_v21, main_v22, main_v23, main_v24, main_v25, main_v26] : List (Ref sig .tc))) :
    StableHlo.after (hostOps1 (F := F)) Wk (Proc.devRef .tc b) = Wk (Proc.devRef .tc b) :=
  StableHlo.after_of_writes_sub hostOps1 Wk hk_writes1 hb

/-- Every operation of stretch 2 writes one of the listed buffers. -/
theorem hk_writes2 : (hostOps2 : List (HloOp τ sig (Elt F))).Forall fun op =>
    op.writes ⊆ (([main_c_5, main_v28, main_v29, main_c_6, main_v30, main_v31, main_v32, main_v33, main_v34, main_cst_7, main_v35, main_v36, main_v37, main_v38] : List (Ref sig .tc)).map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-- A buffer stretch 2 does not write holds afterwards what it held before. -/
theorem hk_keep2 (Wk : Valuation τ sig (Elt F)) (b : Ref sig .tc)
    (hb : b ∉ ([main_c_5, main_v28, main_v29, main_c_6, main_v30, main_v31, main_v32, main_v33, main_v34, main_cst_7, main_v35, main_v36, main_v37, main_v38] : List (Ref sig .tc))) :
    StableHlo.after (hostOps2 (F := F)) Wk (Proc.devRef .tc b) = Wk (Proc.devRef .tc b) :=
  StableHlo.after_of_writes_sub hostOps2 Wk hk_writes2 hb

/-- Every operation of stretch 3 writes one of the listed buffers. -/
theorem hk_writes3 : (hostOps3 : List (HloOp τ sig (Elt F))).Forall fun op =>
    op.writes ⊆ (([main_c_8, main_v40, main_v41, main_c_9, main_v42, main_v43, main_v44, main_v45, main_v46, main_c_10, main_v47, main_v48, main_c_11, main_v49, main_v50, main_v51, main_v52, main_v53, main_v54] : List (Ref sig .tc)).map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-- A buffer stretch 3 does not write holds afterwards what it held before. -/
theorem hk_keep3 (Wk : Valuation τ sig (Elt F)) (b : Ref sig .tc)
    (hb : b ∉ ([main_c_8, main_v40, main_v41, main_c_9, main_v42, main_v43, main_v44, main_v45, main_v46, main_c_10, main_v47, main_v48, main_c_11, main_v49, main_v50, main_v51, main_v52, main_v53, main_v54] : List (Ref sig .tc))) :
    StableHlo.after (hostOps3 (F := F)) Wk (Proc.devRef .tc b) = Wk (Proc.devRef .tc b) :=
  StableHlo.after_of_writes_sub hostOps3 Wk hk_writes3 hb

/-- Every operation of stretch 4 writes one of the listed buffers. -/
theorem hk_writes4 : (hostOps4 : List (HloOp τ sig (Elt F))).Forall fun op =>
    op.writes ⊆ (([main_v56] : List (Ref sig .tc)).map (Proc.devRef (τ := τ) .tc)).toFinset := by
  simp only [List.Forall]; exact (by simp only [StableHlo.nullary_writes, StableHlo.unary_writes, StableHlo.binary_writes, StableHlo.ternary_writes, StableHlo.reshape_writes, Finset.singleton_subset_iff, List.mem_toFinset]; exact List.mem_map_of_mem (by decide))

/-- A buffer stretch 4 does not write holds afterwards what it held before. -/
theorem hk_keep4 (Wk : Valuation τ sig (Elt F)) (b : Ref sig .tc)
    (hb : b ∉ ([main_v56] : List (Ref sig .tc))) :
    StableHlo.after (hostOps4 (F := F)) Wk (Proc.devRef .tc b) = Wk (Proc.devRef .tc b) :=
  StableHlo.after_of_writes_sub hostOps4 Wk hk_writes4 hb

/-- Every operation of stretch 5 writes one of the listed buffers. -/
theorem hk_writes5 : (hostOps5 : List (HloOp τ sig (Elt F))).Forall fun op =>
    op.writes ⊆ (([main_c_12, main_v58, main_v59, main_c_13, main_v60, main_v61, main_v62, main_v63, main_v64, main_cst_14, main_v65, main_v66, main_v67, main_v68] : List (Ref sig .tc)).map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-- A buffer stretch 5 does not write holds afterwards what it held before. -/
theorem hk_keep5 (Wk : Valuation τ sig (Elt F)) (b : Ref sig .tc)
    (hb : b ∉ ([main_c_12, main_v58, main_v59, main_c_13, main_v60, main_v61, main_v62, main_v63, main_v64, main_cst_14, main_v65, main_v66, main_v67, main_v68] : List (Ref sig .tc))) :
    StableHlo.after (hostOps5 (F := F)) Wk (Proc.devRef .tc b) = Wk (Proc.devRef .tc b) :=
  StableHlo.after_of_writes_sub hostOps5 Wk hk_writes5 hb

/-- Every operation of stretch 6 writes one of the listed buffers. -/
theorem hk_writes6 : (hostOps6 : List (HloOp τ sig (Elt F))).Forall fun op =>
    op.writes ⊆ (([main_c_15, main_v70, main_v71, main_c_16, main_v72, main_v73, main_v74, main_v75, main_v76, main_c_17, main_v77, main_v78, main_c_18, main_v79, main_v80, main_v81, main_v82, main_v83, main_v84] : List (Ref sig .tc)).map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-- A buffer stretch 6 does not write holds afterwards what it held before. -/
theorem hk_keep6 (Wk : Valuation τ sig (Elt F)) (b : Ref sig .tc)
    (hb : b ∉ ([main_c_15, main_v70, main_v71, main_c_16, main_v72, main_v73, main_v74, main_v75, main_v76, main_c_17, main_v77, main_v78, main_c_18, main_v79, main_v80, main_v81, main_v82, main_v83, main_v84] : List (Ref sig .tc))) :
    StableHlo.after (hostOps6 (F := F)) Wk (Proc.devRef .tc b) = Wk (Proc.devRef .tc b) :=
  StableHlo.after_of_writes_sub hostOps6 Wk hk_writes6 hb

/-- Every operation of stretch 7 writes one of the listed buffers. -/
theorem hk_writes7 : (hostOps7 : List (HloOp τ sig (Elt F))).Forall fun op =>
    op.writes ⊆ (([main_v86] : List (Ref sig .tc)).map (Proc.devRef (τ := τ) .tc)).toFinset := by
  simp only [List.Forall]; exact (by simp only [StableHlo.nullary_writes, StableHlo.unary_writes, StableHlo.binary_writes, StableHlo.ternary_writes, StableHlo.reshape_writes, Finset.singleton_subset_iff, List.mem_toFinset]; exact List.mem_map_of_mem (by decide))

/-- A buffer stretch 7 does not write holds afterwards what it held before. -/
theorem hk_keep7 (Wk : Valuation τ sig (Elt F)) (b : Ref sig .tc)
    (hb : b ∉ ([main_v86] : List (Ref sig .tc))) :
    StableHlo.after (hostOps7 (F := F)) Wk (Proc.devRef .tc b) = Wk (Proc.devRef .tc b) :=
  StableHlo.after_of_writes_sub hostOps7 Wk hk_writes7 hb

end Cert.HostK

end
-- ==== Proof.HostKGlue.lean ====
/-
  The index glue of the kernel program's host stretches, for any float instance: what the neighbour-sum and
  endpoint-row buffers hold after a stretch, as the network's own functions of what the stretch read.

  A stretch wraps an edge list's negative node indices by the node count, reads the node array's rows at those
  indices, and (for a neighbour sum) adds the rows into a zero array at the other edge list's indices. The network's
  functions `Net.agg64`, `Net.agg128`, `Net.gat128`, `Net.gat64`, `Net.gat32` are compositions of exactly these
  operations, over dimension records of the same values, so each result buffer holds that function of the
  stretch's inputs by unfolding.
-/
import proofs.«157600_j9852654977700_1_alg».proof.Proof.Gen.KernelIdeal.Launch
import Idealize.ShloMosaic.Lib.StableHlo.Run
import proofs.«157600_j9852654977700_1_alg».proof.Proof.Net

noncomputable section

namespace Cert.HostK

open Idealize.ShloMosaic Idealize.ShloMosaic.TcCoe
open Idealize.SL.Sem
open Cert.KernelIdeal Cert.KernelIdeal.Gen

variable {F : FTy → Type} [FloatOps F]

/-- Stretch 0: the neighbour sums of the 64-column input. -/
theorem hk_v9 (Wk : Valuation τ sig (Elt F)) :
    StableHlo.after (hostOps0 (F := F)) Wk (Proc.devRef .tc main_v9) = Cert.Net.agg64 (Wk (Proc.devRef .tc main_arg0)) (Wk (Proc.devRef .tc main_arg1)) (Wk (Proc.devRef .tc main_arg2)) := by
  after_results_simp
  rfl

/-- Stretch 1: the first endpoint's rows of the 128-column array. -/
theorem hk_v18 (Wk : Valuation τ sig (Elt F)) :
    StableHlo.after (hostOps1 (F := F)) Wk (Proc.devRef .tc main_v18) = Cert.Net.gat128 (Wk (Proc.devRef .tc main_v11)) (Wk (Proc.devRef .tc main_arg1)) := by
  after_results_simp
  rfl

/-- Stretch 1: the second endpoint's rows of the 128-column array. -/
theorem hk_v25 (Wk : Valuation τ sig (Elt F)) :
    StableHlo.after (hostOps1 (F := F)) Wk (Proc.devRef .tc main_v25) = Cert.Net.gat128 (Wk (Proc.devRef .tc main_v11)) (Wk (Proc.devRef .tc main_arg2)) := by
  after_results_simp
  rfl

/-- Stretch 2: the neighbour sums of the 128-column array. -/
theorem hk_v37 (Wk : Valuation τ sig (Elt F)) :
    StableHlo.after (hostOps2 (F := F)) Wk (Proc.devRef .tc main_v37) = Cert.Net.agg128 (Wk (Proc.devRef .tc main_v11)) (Wk (Proc.devRef .tc main_arg1)) (Wk (Proc.devRef .tc main_arg2)) := by
  after_results_simp
  rfl

/-- Stretch 3: the first endpoint's rows of the 64-column array. -/
theorem hk_v46 (Wk : Valuation τ sig (Elt F)) :
    StableHlo.after (hostOps3 (F := F)) Wk (Proc.devRef .tc main_v46) = Cert.Net.gat64 (Wk (Proc.devRef .tc main_v39)) (Wk (Proc.devRef .tc main_arg1)) := by
  after_results_simp
  rfl

/-- Stretch 3: the second endpoint's rows of the 64-column array. -/
theorem hk_v53 (Wk : Valuation τ sig (Elt F)) :
    StableHlo.after (hostOps3 (F := F)) Wk (Proc.devRef .tc main_v53) = Cert.Net.gat64 (Wk (Proc.devRef .tc main_v39)) (Wk (Proc.devRef .tc main_arg2)) := by
  after_results_simp
  rfl

/-- Stretch 5: the neighbour sums of the 64-column array. -/
theorem hk_v67 (Wk : Valuation τ sig (Elt F)) :
    StableHlo.after (hostOps5 (F := F)) Wk (Proc.devRef .tc main_v67) = Cert.Net.agg64 (Wk (Proc.devRef .tc main_v39)) (Wk (Proc.devRef .tc main_arg1)) (Wk (Proc.devRef .tc main_arg2)) := by
  after_results_simp
  rfl

/-- Stretch 6: the first endpoint's rows of the 32-column array. -/
theorem hk_v76 (Wk : Valuation τ sig (Elt F)) :
    StableHlo.after (hostOps6 (F := F)) Wk (Proc.devRef .tc main_v76) = Cert.Net.gat32 (Wk (Proc.devRef .tc main_v69)) (Wk (Proc.devRef .tc main_arg1)) := by
  after_results_simp
  rfl

/-- Stretch 6: the second endpoint's rows of the 32-column array. -/
theorem hk_v83 (Wk : Valuation τ sig (Elt F)) :
    StableHlo.after (hostOps6 (F := F)) Wk (Proc.devRef .tc main_v83) = Cert.Net.gat32 (Wk (Proc.devRef .tc main_v69)) (Wk (Proc.devRef .tc main_arg2)) := by
  after_results_simp
  rfl

end Cert.HostK

end
-- ==== Proof.LibDense.lean ====
/-
  A general lemma about plain matrix products, free of any program.

  A matrix product's dimension record (`DotDims`) sums over an abstract contraction index. For the plain
  product of an M×K by a K×N array — one contracted axis, the left operand's columns against the right operand's
  rows, no batch axis — that sum is the familiar ∑ₖ L (i, k) · R (k, j) over k : Fin K. `PlainDot d` collects the
  coordinate facts that say a record is such a product (each holds by computation for a record of literal extents),
  and `sum_plain` reindexes the sum. The kernel's `tpu.matmul` into a zero accumulator and the host's
  `dot_general` both read, at the exact instance, as the abstract sum (PureOps/Ideal/Laws.lean
  `matmul_constant_zero_apply`, `dotGeneral_apply`), so this one lemma serves both.
-/
import Idealize.ShloMosaic.PureOps.Ideal
import Idealize.ShloMosaic.PureOps.Ideal.Laws
import Idealize.ShloMosaic.Lib.ValueIdx

noncomputable section

open scoped BigOperators

namespace Cert.LibDense

open Idealize.ShloMosaic Idealize.ShloMosaic.ValueIdx

/-- The record `d` is the plain product of an M×K by a K×N array: its contraction has one axis of extent K, the
    left operand is read at (row of the output, k) and the right operand at (k, column of the output). -/
structure PlainDot {M K N : Nat} (d : DotDims (⟨2, ![M, K]⟩ : Shape) (⟨2, ![K, N]⟩ : Shape) (⟨2, ![M, N]⟩ : Shape)) : Prop where
  rank : d.contr.rank = 1
  size : d.contr.size ⟨0, by omega⟩ = K
  l0 : ∀ (j : (⟨2, ![M, N]⟩ : Shape).Idx) (k : d.contr.Idx), (d.lhsIdx j k 0).val = (j 0).val
  l1 : ∀ (j : (⟨2, ![M, N]⟩ : Shape).Idx) (k : d.contr.Idx), (d.lhsIdx j k 1).val = (k ⟨0, by omega⟩).val
  r0 : ∀ (j : (⟨2, ![M, N]⟩ : Shape).Idx) (k : d.contr.Idx), (d.rhsIdx j k 0).val = (k ⟨0, by omega⟩).val
  r1 : ∀ (j : (⟨2, ![M, N]⟩ : Shape).Idx) (k : d.contr.Idx), (d.rhsIdx j k 1).val = (j 1).val

variable {M K N : Nat} {d : DotDims (⟨2, ![M, K]⟩ : Shape) (⟨2, ![K, N]⟩ : Shape) (⟨2, ![M, N]⟩ : Shape)}

/-- The left operand's index at contraction position `k : Fin K` is (row, k). -/
theorem PlainDot.lhs_eq (h : PlainDot d) (j : (⟨2, ![M, N]⟩ : Shape).Idx) (k : Fin K) :
    d.lhsIdx j ((contrEquiv1 d K h.rank h.size).symm k) = ix2 (j 0) k := by
  funext a
  apply Fin.ext
  match a with
  | ⟨0, _⟩ => exact h.l0 j _
  | ⟨1, _⟩ => exact (h.l1 j _).trans (contrEquiv1_symm_val d K h.rank h.size k)

/-- The right operand's index at contraction position `k : Fin K` is (k, column). -/
theorem PlainDot.rhs_eq (h : PlainDot d) (j : (⟨2, ![M, N]⟩ : Shape).Idx) (k : Fin K) :
    d.rhsIdx j ((contrEquiv1 d K h.rank h.size).symm k) = ix2 k (j 1) := by
  funext a
  apply Fin.ext
  match a with
  | ⟨0, _⟩ => exact (h.r0 j _).trans (contrEquiv1_symm_val d K h.rank h.size k)
  | ⟨1, _⟩ => exact h.r1 j _

/-- A plain product's contraction sum is ∑ₖ L (row, k) · R (k, column) over k : Fin K. -/
theorem sum_plain (h : PlainDot d) (L : (⟨2, ![M, K]⟩ : Shape).Idx → EReal) (R : (⟨2, ![K, N]⟩ : Shape).Idx → EReal)
    (j : (⟨2, ![M, N]⟩ : Shape).Idx) :
    ∑ k : d.contr.Idx, L (d.lhsIdx j k) * R (d.rhsIdx j k) = ∑ k : Fin K, L (ix2 (j 0) k) * R (ix2 k (j 1)) := by
  rw [← Equiv.sum_comp (contrEquiv1 d K h.rank h.size).symm]
  exact Finset.sum_congr rfl fun k _ => congrArg₂ (· * ·) (congrArg L (h.lhs_eq j k)) (congrArg R (h.rhs_eq j k))

/-- The kernel's matrix product into a zero accumulator, at the exact instance, read at an output index. -/
theorem matmul_zero_plain (h : PlainDot d) {φ₁ φ₂ : FTy} (prec : Option ContractPrecision)
    (L : FVec Ideal (⟨2, ![M, K]⟩ : Shape) φ₁) (R : FVec Ideal (⟨2, ![K, N]⟩ : Shape) φ₂) (j : (⟨2, ![M, N]⟩ : Shape).Idx) :
    FloatOps.matmul d prec L R (constant (⟨2, ![M, N]⟩ : Shape) .f32 0x00000000#32) j
      = ∑ k : Fin K, (L (ix2 (j 0) k) : EReal) * (R (ix2 k (j 1)) : EReal) :=
  (Ideal.matmul_constant_zero_apply d prec L R j).trans (sum_plain h L R j)

/-- The host's `dot_general`, at the exact instance, read at an output index. -/
theorem dotGeneral_plain (h : PlainDot d) {φ₁ φ₂ : FTy} (prec : Option ContractPrecision) (sched : HostSchedule)
    (L : FVec Ideal (⟨2, ![M, K]⟩ : Shape) φ₁) (R : FVec Ideal (⟨2, ![K, N]⟩ : Shape) φ₂) (j : (⟨2, ![M, N]⟩ : Shape).Idx) :
    FloatOps.dotGeneral d prec sched L R j
      = ∑ k : Fin K, (L (ix2 (j 0) k) : EReal) * (R (ix2 k (j 1)) : EReal) :=
  (Ideal.dotGeneral_apply d prec sched L R j).trans (sum_plain h L R j)

end Cert.LibDense

end
-- ==== Proof.Spec.lean ====
/-
  The mathematics both programs compute, free of shapes and of any program: a dense layer with the logistic
  activation, on arrays read by row and column.

  * `denseA X Y W b` is the layer applied to the SUM of two inputs: entry (i, j) is
    logistic (∑ₖ (X i k + Y i k) · W k j + b j).
  * `denseB X W b E` is the layer with a residual added before the activation: entry (i, j) is
    logistic ((∑ₖ X i k · W k j + b j) + E i j).

  Sums are finite sums of extended reals; no law beyond reindexing a sum is needed to meet these from either
  program, so nothing here asks for finiteness.
-/
import Idealize.ShloMosaic.PureOps.Ideal
import Idealize.ShloMosaic.Lib.ValueIdx

noncomputable section

open scoped BigOperators

namespace Cert.Spec

open Idealize.ShloMosaic Idealize.ShloMosaic.ValueIdx

/-- A rank-2 array read by its row and its column. -/
def cur2 {m n : Nat} (A : (⟨2, ![m, n]⟩ : Shape).Idx → EReal) : Fin m → Fin n → EReal := fun i j => A (ix2 i j)

/-- A rank-1 array read by its one coordinate. -/
def cur1 {n : Nat} (b : (⟨1, ![n]⟩ : Shape).Idx → EReal) : Fin n → EReal := fun j => b (ix1 j)

/-- Two rank-2 arrays with the same entries at every row and column are equal. -/
theorem cur2_inj {m n : Nat} {A B : (⟨2, ![m, n]⟩ : Shape).Idx → EReal} (h : cur2 A = cur2 B) : A = B := by
  funext j
  rw [eq_ix2 j]
  exact congrFun (congrFun h (j 0)) (j 1)

/-- The dense layer on the sum of two inputs: logistic (∑ₖ (X i k + Y i k) · W k j + b j). -/
def denseA {M K N : Nat} (X Y : Fin M → Fin K → EReal) (W : Fin K → Fin N → EReal) (b : Fin N → EReal) :
    Fin M → Fin N → EReal :=
  fun i j => Ideal.logistic ((∑ k : Fin K, (X i k + Y i k) * W k j) + b j)

/-- The dense layer with a residual: logistic ((∑ₖ X i k · W k j + b j) + E i j). -/
def denseB {M K N : Nat} (X : Fin M → Fin K → EReal) (W : Fin K → Fin N → EReal) (b : Fin N → EReal)
    (E : Fin M → Fin N → EReal) : Fin M → Fin N → EReal :=
  fun i j => Ideal.logistic (((∑ k : Fin K, X i k * W k j) + b j) + E i j)

end Cert.Spec

end
-- ==== Proof.RegionValD_Lib.lean ====
/-
  The dense layers' arithmetic, read at one entry, and the arithmetic of row blocks.

  A layer's body works on a block of rows: it adds two row blocks (or takes one), multiplies by the whole weight
  matrix into a zero accumulator, adds the one-row bias broadcast over the rows (and, in the residual form, a
  further row block), and applies the logistic function. Format changes are the identity on extended reals and a
  product into a zero accumulator is the plain sum over the contracted axis, so at row p and column q the block
  holds logistic (∑ₖ (x p k + y p k) · w k q + b 0 q), respectively logistic ((∑ₖ x p k · w k q + b 0 q) + e p q).
  These are stated once over arbitrary extents and an arbitrary product record that is a plain product.

  A row block of an array: block t of height R holds rows t·R … t·R + R − 1, so row r lies in block r / R.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«157600_j9852654977700_1_alg».proof.Proof.LibDense
import proofs.«157600_j9852654977700_1_alg».proof.Proof.Spec

noncomputable section

open scoped BigOperators

namespace Cert.RegionVal

open Idealize.ShloMosaic Idealize.ShloMosaic.ValueIdx Cert.LibDense Cert.Spec

/-- The zero offsets of a whole-block access, however spelt. -/
theorem rvd_hz : (![0, 0] : Fin 2 → Nat) = fun _ => 0 := funext fun a => by fin_cases a <;> rfl

variable {M K N : Nat} {d : DotDims (⟨2, ![M, K]⟩ : Shape) (⟨2, ![K, N]⟩ : Shape) (⟨2, ![M, N]⟩ : Shape)}

/-- The layer on the sum of two row blocks, at row p and column q. -/
theorem rvd_sumLayer_apply (hd : PlainDot d)
    (hxx : (⟨2, ![M, K]⟩ : Shape).ShapeCasts ⟨2, ![M, K]⟩) (hlt : FTy.bits .bf16 < FTy.bits .f32)
    (hbb : (⟨2, ![1, N]⟩ : Shape).ShapeCasts ⟨2, ![1, N]⟩) (hbc : (⟨2, ![1, N]⟩ : Shape).Broadcasts ⟨2, ![M, N]⟩)
    (x y : FVec Ideal (⟨2, ![M, K]⟩ : Shape) .f32) (w : FVec Ideal (⟨2, ![K, N]⟩ : Shape) .f32)
    (b : FVec Ideal (⟨2, ![1, N]⟩ : Shape) .f32) (p : Fin M) (q : Fin N) :
    logistic (addf (matmul d none (truncf .bf16 (addf x (shapeCast ⟨2, ![M, K]⟩ y hxx)) hlt) (truncf .bf16 w hlt)
        (constant (⟨2, ![M, N]⟩ : Shape) .f32 0x00000000#32))
      (broadcastTo ⟨2, ![M, N]⟩ (shapeCast ⟨2, ![1, N]⟩ b hbb) hbc)) (ix2 p q)
      = Ideal.logistic ((∑ k : Fin K, (x (ix2 p k) + y (ix2 p k)) * w (ix2 k q)) + b (ix2 0 q)) := by
  rw [shapeCast_self, shapeCast_self]
  show Ideal.logistic (matmul (F := Ideal) d none _ _ _ (ix2 p q) + broadcastTo ⟨2, ![M, N]⟩ b hbc (ix2 p q)) = _
  rw [broadcastTo_1b_ab_apply]
  refine congrArg (fun z => Ideal.logistic (z + b (ix2 0 q))) ?_
  exact matmul_zero_plain hd none _ _ (ix2 p q)

/-- The same when both row blocks are first re-cast to their own shape (which changes nothing). -/
theorem rvd_sumLayer2_apply (hd : PlainDot d)
    (hxx : (⟨2, ![M, K]⟩ : Shape).ShapeCasts ⟨2, ![M, K]⟩) (hlt : FTy.bits .bf16 < FTy.bits .f32)
    (hbb : (⟨2, ![1, N]⟩ : Shape).ShapeCasts ⟨2, ![1, N]⟩) (hbc : (⟨2, ![1, N]⟩ : Shape).Broadcasts ⟨2, ![M, N]⟩)
    (x y : FVec Ideal (⟨2, ![M, K]⟩ : Shape) .f32) (w : FVec Ideal (⟨2, ![K, N]⟩ : Shape) .f32)
    (b : FVec Ideal (⟨2, ![1, N]⟩ : Shape) .f32) (p : Fin M) (q : Fin N) :
    logistic (addf (matmul d none (truncf .bf16 (addf (shapeCast ⟨2, ![M, K]⟩ x hxx) (shapeCast ⟨2, ![M, K]⟩ y hxx)) hlt)
        (truncf .bf16 w hlt) (constant (⟨2, ![M, N]⟩ : Shape) .f32 0x00000000#32))
      (broadcastTo ⟨2, ![M, N]⟩ (shapeCast ⟨2, ![1, N]⟩ b hbb) hbc)) (ix2 p q)
      = Ideal.logistic ((∑ k : Fin K, (x (ix2 p k) + y (ix2 p k)) * w (ix2 k q)) + b (ix2 0 q)) := by
  rw [shapeCast_self x hxx]
  exact rvd_sumLayer_apply hd hxx hlt hbb hbc x y w b p q

/-- The layer with a residual row block, at row p and column q. -/
theorem rvd_resLayer_apply (hd : PlainDot d)
    (hxx : (⟨2, ![M, K]⟩ : Shape).ShapeCasts ⟨2, ![M, K]⟩) (hlt : FTy.bits .bf16 < FTy.bits .f32)
    (hbb : (⟨2, ![1, N]⟩ : Shape).ShapeCasts ⟨2, ![1, N]⟩) (hbc : (⟨2, ![1, N]⟩ : Shape).Broadcasts ⟨2, ![M, N]⟩)
    (hee : (⟨2, ![M, N]⟩ : Shape).ShapeCasts ⟨2, ![M, N]⟩)
    (x : FVec Ideal (⟨2, ![M, K]⟩ : Shape) .f32) (w : FVec Ideal (⟨2, ![K, N]⟩ : Shape) .f32)
    (b : FVec Ideal (⟨2, ![1, N]⟩ : Shape) .f32) (e : FVec Ideal (⟨2, ![M, N]⟩ : Shape) .f32) (p : Fin M) (q : Fin N) :
    logistic (addf (addf (matmul d none (truncf .bf16 (shapeCast ⟨2, ![M, K]⟩ x hxx) hlt) (truncf .bf16 w hlt)
        (constant (⟨2, ![M, N]⟩ : Shape) .f32 0x00000000#32))
      (broadcastTo ⟨2, ![M, N]⟩ (shapeCast ⟨2, ![1, N]⟩ b hbb) hbc)) (shapeCast ⟨2, ![M, N]⟩ e hee)) (ix2 p q)
      = Ideal.logistic (((∑ k : Fin K, x (ix2 p k) * w (ix2 k q)) + b (ix2 0 q)) + e (ix2 p q)) := by
  rw [shapeCast_self, shapeCast_self, shapeCast_self]
  show Ideal.logistic ((matmul (F := Ideal) d none _ _ _ (ix2 p q) + broadcastTo ⟨2, ![M, N]⟩ b hbc (ix2 p q)) + e (ix2 p q)) = _
  rw [broadcastTo_1b_ab_apply]
  refine congrArg (fun z => Ideal.logistic ((z + b (ix2 0 q)) + e (ix2 p q))) ?_
  exact matmul_zero_plain hd none _ _ (ix2 p q)

end Cert.RegionVal

end
-- ==== Proof.RegionValD0.lean ====
/-
  The first dense layer of the kernel (its region 0), as one function of the arrays the region finds.

  The region walks ten row blocks of 5000 rows. At block t its body reads rows 5000·t … 5000·t + 4999 of the two
  input arrays (50000 × 64), the whole weight matrix (64 × 128) and the whole one-row bias (1 × 128), and writes
  the same rows of the output (50000 × 128). An output entry depends only on its own row of the two inputs, so
  what block t writes is block t of ONE function of the whole arrays — the layer of the specification — and the
  ten blocks tile the output: row r lies in block r / 5000.
-/
import proofs.«157600_j9852654977700_1_alg».proof.Proof.Gen.KernelIdeal.Frame
import proofs.«157600_j9852654977700_1_alg».proof.Proof.RegionValD_Lib
import Idealize.ShloMosaic.Lib.Pipeline.Value

set_option maxRecDepth 16384

noncomputable section

open scoped BigOperators

namespace Cert.RegionVal

open Idealize.ShloMosaic Idealize.ShloMosaic.TcCoe Idealize.ShloMosaic.ValueIdx
open Idealize.SL.Sem
open Idealize.ShloMosaic.Pipeline (Dat)
open Cert.KernelIdeal Cert.KernelIdeal.Gen Cert.Spec Cert.LibDense

variable (V : (c : Dev nD) → (b : Ref sig .tc) → Buf (Elt Ideal) ((c : Thread nD τ).loc b))

/-- The body's product is a plain 5000×64 by 64×128 product. -/
theorem rvd_plain0 : PlainDot dot_S5000x64_S64x128_S5000x128_1_0_0_1_n_n :=
  ⟨rfl, rfl, fun _ _ => rfl, fun _ _ => rfl, fun _ _ => rfl, fun _ _ => rfl⟩

/-- The array the region leaves: the layer of the arrays it finds, entry by entry. -/
def rvd_G0 (c : Dev nD) : S50000x128.Idx → EReal := fun i =>
  denseA (cur2 (V c (Pipeline.arrRef spec0 0))) (cur2 (V c (Pipeline.arrRef spec0 1)))
    (cur2 (V c (Pipeline.arrRef spec0 2))) (fun q => V c (Pipeline.arrRef spec0 3) (ix2 0 q)) (i 0) (i 1)

/-- Where each window's block sits at point t: the inputs' and the output's row blocks move with t, the weights
    and the bias stay whole. -/
theorem rvd_idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Entry (p, k) of the first input's block t is entry (5000·t + p, k) of the array. -/
theorem rvd_blk0_0 (c : Dev nD) (t : Fin cfg0.N) (x : S5000x64.Idx) (i : S50000x64.Idx)
    (h0 : (i 0).val = t.val * 5000 + (x 0).val) (h1 : (i 1).val = (x 1).val) :
    (iblk0 V c 0 t : Vec Ideal S5000x64 .f32) x = (V c (Pipeline.arrRef spec0 0) : S50000x64.Idx → EReal) i := by
  obtain ⟨e0, e1, -⟩ := rvd_idx0 t
  unfold iblk0
  rw [View.read_apply]
  refine congrArg (V c (Pipeline.arrRef spec0 0) : S50000x64.Idx → EReal) ?_
  funext a
  apply Fin.ext
  match a with
  | ⟨0, _⟩ => show win0_0.index t (0 : Fin 2) * 5000 + 1 * (x 0).val = (i 0).val; omega
  | ⟨1, _⟩ => show win0_0.index t (1 : Fin 2) * 64 + 1 * (x 1).val = (i 1).val; omega

/-- Entry (p, k) of the second input's block t is entry (5000·t + p, k) of the array. -/
theorem rvd_blk0_1 (c : Dev nD) (t : Fin cfg0.N) (x : S5000x64.Idx) (i : S50000x64.Idx)
    (h0 : (i 0).val = t.val * 5000 + (x 0).val) (h1 : (i 1).val = (x 1).val) :
    (iblk0 V c 1 t : Vec Ideal S5000x64 .f32) x = (V c (Pipeline.arrRef spec0 1) : S50000x64.Idx → EReal) i := by
  obtain ⟨-, -, e0, e1, -⟩ := rvd_idx0 t
  unfold iblk0
  rw [View.read_apply]
  refine congrArg (V c (Pipeline.arrRef spec0 1) : S50000x64.Idx → EReal) ?_
  funext a
  apply Fin.ext
  match a with
  | ⟨0, _⟩ => show win0_1.index t (0 : Fin 2) * 5000 + 1 * (x 0).val = (i 0).val; omega
  | ⟨1, _⟩ => show win0_1.index t (1 : Fin 2) * 64 + 1 * (x 1).val = (i 1).val; omega

/-- The weights' block is the whole matrix at every point. -/
theorem rvd_blk0_2 (c : Dev nD) (t : Fin cfg0.N) (x : S64x128.Idx) :
    (iblk0 V c 2 t : Vec Ideal S64x128 .f32) x = (V c (Pipeline.arrRef spec0 2) : S64x128.Idx → EReal) x := by
  obtain ⟨-, -, -, -, e0, e1, -⟩ := rvd_idx0 t
  unfold iblk0
  rw [View.read_apply]
  refine congrArg (V c (Pipeline.arrRef spec0 2) : S64x128.Idx → EReal) ?_
  funext a
  apply Fin.ext
  match a with
  | ⟨0, _⟩ => show win0_2.index t (0 : Fin 2) * 64 + 1 * (x 0).val = (x 0).val; omega
  | ⟨1, _⟩ => show win0_2.index t (1 : Fin 2) * 128 + 1 * (x 1).val = (x 1).val; omega

/-- The bias's block is the whole row at every point. -/
theorem rvd_blk0_3 (c : Dev nD) (t : Fin cfg0.N) (x : S1x128.Idx) :
    (iblk0 V c 3 t : Vec Ideal S1x128 .f32) x = (V c (Pipeline.arrRef spec0 3) : S1x128.Idx → EReal) x := by
  obtain ⟨-, -, -, -, -, -, e0, e1, -⟩ := rvd_idx0 t
  unfold iblk0
  rw [View.read_apply]
  refine congrArg (V c (Pipeline.arrRef spec0 3) : S1x128.Idx → EReal) ?_
  funext a
  apply Fin.ext
  match a with
  | ⟨0, _⟩ => show win0_3.index t (0 : Fin 2) * 1 + 1 * (x 0).val = (x 0).val; omega
  | ⟨1, _⟩ => show win0_3.index t (1 : Fin 2) * 128 + 1 * (x 1).val = (x 1).val; omega

/-- What the body leaves at entry (p, q) of its output block at point t is the layer's entry (5000·t + p, q). -/
theorem rvd_body0 (c : Dev nD) (t : Fin cfg0.N) (p : Fin 5000) (q : Fin 128) (r : Fin 50000)
    (hr : r.val = t.val * 5000 + p.val) :
    out0_4 (iblk0 V c 0 t) (iblk0 V c 1 t) (iblk0 V c 2 t) (iblk0 V c 3 t) (ix2 p q) = rvd_G0 V c (ix2 r q) := by
  unfold out0_4
  rw [View.canon_unit_zero rvd_hz]
  simp only [View.ld_unit_zero (S := S5000x64) rvd_hz, View.ld_unit_zero (S := S64x128) rvd_hz,
    View.ld_unit_zero (S := S1x128) rvd_hz]
  unfold k0_pay1
  refine (rvd_sumLayer_apply rvd_plain0 shapeCasts_S5000x64_S5000x64 bitsLt_bf16_f32 shapeCasts_S1x128_S1x128
    broadcasts_S1x128_S5000x128 (iblk0 V c 0 t) (iblk0 V c 1 t) (iblk0 V c 2 t) (iblk0 V c 3 t) p q).trans ?_
  show Ideal.logistic _ = Ideal.logistic _
  refine congrArg Ideal.logistic (congrArg₂ (· + ·) (Finset.sum_congr rfl fun k _ => ?_) ?_)
  · exact congrArg₂ (· * ·)
      (congrArg₂ (· + ·) (rvd_blk0_0 V c t (ix2 p k) (ix2 r k) hr rfl) (rvd_blk0_1 V c t (ix2 p k) (ix2 r k) hr rfl))
      (rvd_blk0_2 V c t (ix2 k q))
  · exact rvd_blk0_3 V c t (ix2 0 q)

/-- The same at any entry of the block and any entry of the array whose coordinates are so related. -/
theorem rvd_body0_at (c : Dev nD) (t : Fin cfg0.N) (y : S5000x128.Idx) (i : S50000x128.Idx)
    (h0 : (i 0).val = t.val * 5000 + (y 0).val) (h1 : (i 1).val = (y 1).val) :
    out0_4 (iblk0 V c 0 t) (iblk0 V c 1 t) (iblk0 V c 2 t) (iblk0 V c 3 t) y = rvd_G0 V c i := by
  obtain ⟨p, q, rfl⟩ : ∃ (p : Fin 5000) (q : Fin 128), y = ix2 p q := ⟨y 0, y 1, eq_ix2 y⟩
  obtain ⟨r, s, rfl⟩ : ∃ (r : Fin 50000) (s : Fin 128), i = ix2 r s := ⟨i 0, i 1, eq_ix2 i⟩
  obtain rfl : s = q := Fin.ext h1
  exact rvd_body0 V c t p s r h0

/-- What point t writes back is block t of the layer. -/
theorem rvd_flushed0 (c : Dev nD) (t : Fin cfg0.N) :
    (dat0 V c).flushed 4 t = ((cfg0.win 4).blk t).view.read (Elt Ideal) (rvd_G0 V c) := by
  show (cfg0.win 4).cut (grid0.coords t) ((dat0 V c).after 4 t) = _
  rw [after0_4]
  obtain ⟨-, -, -, -, -, -, -, -, e0, e1⟩ := rvd_idx0 t
  funext j
  refine rvd_body0_at V c t ((cfg0.win 4).xinj (grid0.coords t) j) (((cfg0.win 4).blk t).view.emb j) ?_ ?_
  · show win0_4.index t (0 : Fin 2) * 5000 + 1 * (j 0).val = t.val * 5000 + (j 0).val
    omega
  · show win0_4.index t (1 : Fin 2) * 128 + 1 * (j 1).val = (j 1).val
    omega

/-- An index of the output lies in point t's block iff its row is one of rows 5000·t … 5000·t + 4999. -/
theorem rvd_mem0 (t : Fin cfg0.N) (i : S50000x128.Idx) :
    i ∈ ((cfg0.win 4).blk t).view.set ↔ ∀ a : Fin 2, win0_4.index t a * S5000x128.size a ≤ (i a).val
      ∧ (i a).val < win0_4.index t a * S5000x128.size a + S5000x128.size a := by
  show i ∈ ((View.whole main_v11).slice (win0_4.rect t)).set ↔ _
  rw [View.set_slice_whole, Rect.mem_set_unit]
  exact Iff.rfl

/-- The ten row blocks tile the output: row r lies in block r / 5000. -/
theorem rvd_cover0 (i : S50000x128.Idx) :
    ∃ t : Fin cfg0.N, (cfg0.win 4).flush t = true ∧ i ∈ ((cfg0.win 4).blk t).view.set := by
  have hi0 : (i 0).val < 50000 := (i 0).isLt
  have hi1 : (i 1).val < 128 := (i 1).isLt
  have hN : cfg0.N = 10 := N_0
  let t : Fin cfg0.N := ⟨(i 0).val / 5000, by rw [hN]; omega⟩
  obtain ⟨-, -, -, -, -, -, -, -, e0, e1⟩ := rvd_idx0 t
  have htv : t.val = (i 0).val / 5000 := rfl
  refine ⟨t, flush0_4 t, ?_⟩
  rw [rvd_mem0]
  intro a
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 128 ≤ (i 1).val ∧ (i 1).val < win0_4.index t (1 : Fin 2) * 128 + 128; omega

/-- The output array after the region is the layer of the arrays the region finds. -/
theorem rvd_final0 (c : Dev nD) : (dat0 V c).arrAt 4 cfg0.N = rvd_G0 V c :=
  (dat0 V c).arrAt_eq_of_cover 4 (rvd_G0 V c) (fun t _ => rvd_flushed0 V c t) rvd_cover0

/-- Region 0: the output array after the region, read by row and column, is the specification's layer on the sum
    of the two input arrays, with the weights and the one-row bias the region finds. -/
theorem rvd_region0 (c : Dev nD) :
    cur2 ((dat0 (F := Ideal) V c).arrAt 4 cfg0.N)
      = denseA (cur2 (V c (Pipeline.arrRef spec0 0))) (cur2 (V c (Pipeline.arrRef spec0 1)))
          (cur2 (V c (Pipeline.arrRef spec0 2))) (fun q => V c (Pipeline.arrRef spec0 3) (ix2 0 q)) := by
  rw [rvd_final0]
  rfl

end Cert.RegionVal

end
-- ==== Proof.RegionValD2.lean ====
/-
  The second dense layer of the kernel on 50000 rows, as one function of the arrays the region finds.

  The region walks ten row blocks of 5000 rows. At block t its body reads rows 5000·t … 5000·t + 4999 of the two
  input arrays (50000 × 128), the whole weight matrix (128 × 64) and the whole one-row bias (1 × 64), and writes
  the same rows of the output (50000 × 64). An output entry depends only on its own row of the two inputs, so
  what block t writes is block t of ONE function of the whole arrays — the layer of the specification — and the
  ten blocks tile the output: row r lies in block r / 5000.
-/
import proofs.«157600_j9852654977700_1_alg».proof.Proof.Gen.KernelIdeal.Frame
import proofs.«157600_j9852654977700_1_alg».proof.Proof.RegionValD_Lib
import Idealize.ShloMosaic.Lib.Pipeline.Value

set_option maxRecDepth 16384

noncomputable section

open scoped BigOperators

namespace Cert.RegionVal

open Idealize.ShloMosaic Idealize.ShloMosaic.TcCoe Idealize.ShloMosaic.ValueIdx
open Idealize.SL.Sem
open Idealize.ShloMosaic.Pipeline (Dat)
open Cert.KernelIdeal Cert.KernelIdeal.Gen Cert.Spec Cert.LibDense

variable (V : (c : Dev nD) → (b : Ref sig .tc) → Buf (Elt Ideal) ((c : Thread nD τ).loc b))

/-- The body's product is a plain 5000×128 by 128×64 product. -/
theorem rvd_plain2 : PlainDot dot_S5000x128_S128x64_S5000x64_1_0_0_1_n_n :=
  ⟨rfl, rfl, fun _ _ => rfl, fun _ _ => rfl, fun _ _ => rfl, fun _ _ => rfl⟩

/-- The array the region leaves: the layer of the arrays it finds, entry by entry. -/
def rvd_G2 (c : Dev nD) : S50000x64.Idx → EReal := fun i =>
  denseA (cur2 (V c (Pipeline.arrRef spec2 0))) (cur2 (V c (Pipeline.arrRef spec2 1)))
    (cur2 (V c (Pipeline.arrRef spec2 2))) (fun q => V c (Pipeline.arrRef spec2 3) (ix2 0 q)) (i 0) (i 1)

/-- Where each window's block sits at point t: the inputs' and the output's row blocks move with t, the weights
    and the bias stay whole. -/
theorem rvd_idx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Entry (p, k) of the first input's block t is entry (5000·t + p, k) of the array. -/
theorem rvd_blk2_0 (c : Dev nD) (t : Fin cfg2.N) (x : S5000x128.Idx) (i : S50000x128.Idx)
    (h0 : (i 0).val = t.val * 5000 + (x 0).val) (h1 : (i 1).val = (x 1).val) :
    (iblk2 V c 0 t : Vec Ideal S5000x128 .f32) x = (V c (Pipeline.arrRef spec2 0) : S50000x128.Idx → EReal) i := by
  obtain ⟨e0, e1, -⟩ := rvd_idx2 t
  unfold iblk2
  rw [View.read_apply]
  refine congrArg (V c (Pipeline.arrRef spec2 0) : S50000x128.Idx → EReal) ?_
  funext a
  apply Fin.ext
  match a with
  | ⟨0, _⟩ => show win2_0.index t (0 : Fin 2) * 5000 + 1 * (x 0).val = (i 0).val; omega
  | ⟨1, _⟩ => show win2_0.index t (1 : Fin 2) * 128 + 1 * (x 1).val = (i 1).val; omega

/-- Entry (p, k) of the second input's block t is entry (5000·t + p, k) of the array. -/
theorem rvd_blk2_1 (c : Dev nD) (t : Fin cfg2.N) (x : S5000x128.Idx) (i : S50000x128.Idx)
    (h0 : (i 0).val = t.val * 5000 + (x 0).val) (h1 : (i 1).val = (x 1).val) :
    (iblk2 V c 1 t : Vec Ideal S5000x128 .f32) x = (V c (Pipeline.arrRef spec2 1) : S50000x128.Idx → EReal) i := by
  obtain ⟨-, -, e0, e1, -⟩ := rvd_idx2 t
  unfold iblk2
  rw [View.read_apply]
  refine congrArg (V c (Pipeline.arrRef spec2 1) : S50000x128.Idx → EReal) ?_
  funext a
  apply Fin.ext
  match a with
  | ⟨0, _⟩ => show win2_1.index t (0 : Fin 2) * 5000 + 1 * (x 0).val = (i 0).val; omega
  | ⟨1, _⟩ => show win2_1.index t (1 : Fin 2) * 128 + 1 * (x 1).val = (i 1).val; omega

/-- The weights' block is the whole matrix at every point. -/
theorem rvd_blk2_2 (c : Dev nD) (t : Fin cfg2.N) (x : S128x64.Idx) :
    (iblk2 V c 2 t : Vec Ideal S128x64 .f32) x = (V c (Pipeline.arrRef spec2 2) : S128x64.Idx → EReal) x := by
  obtain ⟨-, -, -, -, e0, e1, -⟩ := rvd_idx2 t
  unfold iblk2
  rw [View.read_apply]
  refine congrArg (V c (Pipeline.arrRef spec2 2) : S128x64.Idx → EReal) ?_
  funext a
  apply Fin.ext
  match a with
  | ⟨0, _⟩ => show win2_2.index t (0 : Fin 2) * 128 + 1 * (x 0).val = (x 0).val; omega
  | ⟨1, _⟩ => show win2_2.index t (1 : Fin 2) * 64 + 1 * (x 1).val = (x 1).val; omega

/-- The bias's block is the whole row at every point. -/
theorem rvd_blk2_3 (c : Dev nD) (t : Fin cfg2.N) (x : S1x64.Idx) :
    (iblk2 V c 3 t : Vec Ideal S1x64 .f32) x = (V c (Pipeline.arrRef spec2 3) : S1x64.Idx → EReal) x := by
  obtain ⟨-, -, -, -, -, -, e0, e1, -⟩ := rvd_idx2 t
  unfold iblk2
  rw [View.read_apply]
  refine congrArg (V c (Pipeline.arrRef spec2 3) : S1x64.Idx → EReal) ?_
  funext a
  apply Fin.ext
  match a with
  | ⟨0, _⟩ => show win2_3.index t (0 : Fin 2) * 1 + 1 * (x 0).val = (x 0).val; omega
  | ⟨1, _⟩ => show win2_3.index t (1 : Fin 2) * 64 + 1 * (x 1).val = (x 1).val; omega

/-- What the body leaves at entry (p, q) of its output block at point t is the layer's entry (5000·t + p, q). -/
theorem rvd_body2 (c : Dev nD) (t : Fin cfg2.N) (p : Fin 5000) (q : Fin 64) (r : Fin 50000)
    (hr : r.val = t.val * 5000 + p.val) :
    out2_4 (iblk2 V c 0 t) (iblk2 V c 1 t) (iblk2 V c 2 t) (iblk2 V c 3 t) (ix2 p q) = rvd_G2 V c (ix2 r q) := by
  unfold out2_4
  rw [View.canon_unit_zero rvd_hz]
  simp only [View.ld_unit_zero (S := S5000x128) rvd_hz, View.ld_unit_zero (S := S128x64) rvd_hz,
    View.ld_unit_zero (S := S1x64) rvd_hz]
  unfold k2_pay1
  refine (rvd_sumLayer2_apply rvd_plain2 shapeCasts_S5000x128_S5000x128 bitsLt_bf16_f32 shapeCasts_S1x64_S1x64
    broadcasts_S1x64_S5000x64 (iblk2 V c 0 t) (iblk2 V c 1 t) (iblk2 V c 2 t) (iblk2 V c 3 t) p q).trans ?_
  show Ideal.logistic _ = Ideal.logistic _
  refine congrArg Ideal.logistic (congrArg₂ (· + ·) (Finset.sum_congr rfl fun k _ => ?_) ?_)
  · exact congrArg₂ (· * ·)
      (congrArg₂ (· + ·) (rvd_blk2_0 V c t (ix2 p k) (ix2 r k) hr rfl) (rvd_blk2_1 V c t (ix2 p k) (ix2 r k) hr rfl))
      (rvd_blk2_2 V c t (ix2 k q))
  · exact rvd_blk2_3 V c t (ix2 0 q)

/-- The same at any entry of the block and any entry of the array whose coordinates are so related. -/
theorem rvd_body2_at (c : Dev nD) (t : Fin cfg2.N) (y : S5000x64.Idx) (i : S50000x64.Idx)
    (h0 : (i 0).val = t.val * 5000 + (y 0).val) (h1 : (i 1).val = (y 1).val) :
    out2_4 (iblk2 V c 0 t) (iblk2 V c 1 t) (iblk2 V c 2 t) (iblk2 V c 3 t) y = rvd_G2 V c i := by
  obtain ⟨p, q, rfl⟩ : ∃ (p : Fin 5000) (q : Fin 64), y = ix2 p q := ⟨y 0, y 1, eq_ix2 y⟩
  obtain ⟨r, s, rfl⟩ : ∃ (r : Fin 50000) (s : Fin 64), i = ix2 r s := ⟨i 0, i 1, eq_ix2 i⟩
  obtain rfl : s = q := Fin.ext h1
  exact rvd_body2 V c t p s r h0

/-- What point t writes back is block t of the layer. -/
theorem rvd_flushed2 (c : Dev nD) (t : Fin cfg2.N) :
    (dat2 V c).flushed 4 t = ((cfg2.win 4).blk t).view.read (Elt Ideal) (rvd_G2 V c) := by
  show (cfg2.win 4).cut (grid2.coords t) ((dat2 V c).after 4 t) = _
  rw [after2_4]
  obtain ⟨-, -, -, -, -, -, -, -, e0, e1⟩ := rvd_idx2 t
  funext j
  refine rvd_body2_at V c t ((cfg2.win 4).xinj (grid2.coords t) j) (((cfg2.win 4).blk t).view.emb j) ?_ ?_
  · show win2_4.index t (0 : Fin 2) * 5000 + 1 * (j 0).val = t.val * 5000 + (j 0).val
    omega
  · show win2_4.index t (1 : Fin 2) * 64 + 1 * (j 1).val = (j 1).val
    omega

/-- An index of the output lies in point t's block iff its row is one of rows 5000·t … 5000·t + 4999. -/
theorem rvd_mem2 (t : Fin cfg2.N) (i : S50000x64.Idx) :
    i ∈ ((cfg2.win 4).blk t).view.set ↔ ∀ a : Fin 2, win2_4.index t a * S5000x64.size a ≤ (i a).val
      ∧ (i a).val < win2_4.index t a * S5000x64.size a + S5000x64.size a := by
  show i ∈ ((View.whole main_v39).slice (win2_4.rect t)).set ↔ _
  rw [View.set_slice_whole, Rect.mem_set_unit]
  exact Iff.rfl

/-- The ten row blocks tile the output: row r lies in block r / 5000. -/
theorem rvd_cover2 (i : S50000x64.Idx) :
    ∃ t : Fin cfg2.N, (cfg2.win 4).flush t = true ∧ i ∈ ((cfg2.win 4).blk t).view.set := by
  have hi0 : (i 0).val < 50000 := (i 0).isLt
  have hi1 : (i 1).val < 64 := (i 1).isLt
  have hN : cfg2.N = 10 := N_2
  let t : Fin cfg2.N := ⟨(i 0).val / 5000, by rw [hN]; omega⟩
  obtain ⟨-, -, -, -, -, -, -, -, e0, e1⟩ := rvd_idx2 t
  have htv : t.val = (i 0).val / 5000 := rfl
  refine ⟨t, flush2_4 t, ?_⟩
  rw [rvd_mem2]
  intro a
  match a with
  | ⟨0, _⟩ => show win2_4.index t (0 : Fin 2) * 5000 ≤ (i 0).val ∧ (i 0).val < win2_4.index t (0 : Fin 2) * 5000 + 5000; omega
  | ⟨1, _⟩ => show win2_4.index t (1 : Fin 2) * 64 ≤ (i 1).val ∧ (i 1).val < win2_4.index t (1 : Fin 2) * 64 + 64; omega

/-- The output array after the region is the layer of the arrays the region finds. -/
theorem rvd_final2 (c : Dev nD) : (dat2 V c).arrAt 4 cfg2.N = rvd_G2 V c :=
  (dat2 V c).arrAt_eq_of_cover 4 (rvd_G2 V c) (fun t _ => rvd_flushed2 V c t) rvd_cover2

/-- Region 2: the output array after the region, read by row and column, is the specification's layer on the sum
    of the two input arrays, with the weights and the one-row bias the region finds. -/
theorem rvd_region2 (c : Dev nD) :
    cur2 ((dat2 (F := Ideal) V c).arrAt 4 cfg2.N)
      = denseA (cur2 (V c (Pipeline.arrRef spec2 0))) (cur2 (V c (Pipeline.arrRef spec2 1)))
          (cur2 (V c (Pipeline.arrRef spec2 2))) (fun q => V c (Pipeline.arrRef spec2 3) (ix2 0 q)) := by
  rw [rvd_final2]
  rfl

end Cert.RegionVal

end
-- ==== Proof.RegionValD5.lean ====
/-
  The third dense layer of the kernel on 50000 rows, as one function of the arrays the region finds.

  The region walks ten row blocks of 5000 rows. At block t its body reads rows 5000·t … 5000·t + 4999 of the two
  input arrays (50000 × 64), the whole weight matrix (64 × 32) and the whole one-row bias (1 × 32), and writes
  the same rows of the output (50000 × 32). An output entry depends only on its own row of the two inputs, so
  what block t writes is block t of ONE function of the whole arrays — the layer of the specification — and the
  ten blocks tile the output: row r lies in block r / 5000.
-/
import proofs.«157600_j9852654977700_1_alg».proof.Proof.Gen.KernelIdeal.Frame
import proofs.«157600_j9852654977700_1_alg».proof.Proof.RegionValD_Lib
import Idealize.ShloMosaic.Lib.Pipeline.Value

set_option maxRecDepth 16384

noncomputable section

open scoped BigOperators

namespace Cert.RegionVal

open Idealize.ShloMosaic Idealize.ShloMosaic.TcCoe Idealize.ShloMosaic.ValueIdx
open Idealize.SL.Sem
open Idealize.ShloMosaic.Pipeline (Dat)
open Cert.KernelIdeal Cert.KernelIdeal.Gen Cert.Spec Cert.LibDense

variable (V : (c : Dev nD) → (b : Ref sig .tc) → Buf (Elt Ideal) ((c : Thread nD τ).loc b))

/-- The body's product is a plain 5000×64 by 64×32 product. -/
theorem rvd_plain5 : PlainDot dot_S5000x64_S64x32_S5000x32_1_0_0_1_n_n :=
  ⟨rfl, rfl, fun _ _ => rfl, fun _ _ => rfl, fun _ _ => rfl, fun _ _ => rfl⟩

/-- The array the region leaves: the layer of the arrays it finds, entry by entry. -/
def rvd_G5 (c : Dev nD) : S50000x32.Idx → EReal := fun i =>
  denseA (cur2 (V c (Pipeline.arrRef spec5 0))) (cur2 (V c (Pipeline.arrRef spec5 1)))
    (cur2 (V c (Pipeline.arrRef spec5 2))) (fun q => V c (Pipeline.arrRef spec5 3) (ix2 0 q)) (i 0) (i 1)

/-- Where each window's block sits at point t: the inputs' and the output's row blocks move with t, the weights
    and the bias stay whole. -/
theorem rvd_idx5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

/-- Entry (p, k) of the first input's block t is entry (5000·t + p, k) of the array. -/
theorem rvd_blk5_0 (c : Dev nD) (t : Fin cfg5.N) (x : S5000x64.Idx) (i : S50000x64.Idx)
    (h0 : (i 0).val = t.val * 5000 + (x 0).val) (h1 : (i 1).val = (x 1).val) :
    (iblk5 V c 0 t : Vec Ideal S5000x64 .f32) x = (V c (Pipeline.arrRef spec5 0) : S50000x64.Idx → EReal) i := by
  obtain ⟨e0, e1, -⟩ := rvd_idx5 t
  unfold iblk5
  rw [View.read_apply]
  refine congrArg (V c (Pipeline.arrRef spec5 0) : S50000x64.Idx → EReal) ?_
  funext a
  apply Fin.ext
  match a with
  | ⟨0, _⟩ => show win5_0.index t (0 : Fin 2) * 5000 + 1 * (x 0).val = (i 0).val; omega
  | ⟨1, _⟩ => show win5_0.index t (1 : Fin 2) * 64 + 1 * (x 1).val = (i 1).val; omega

/-- Entry (p, k) of the second input's block t is entry (5000·t + p, k) of the array. -/
theorem rvd_blk5_1 (c : Dev nD) (t : Fin cfg5.N) (x : S5000x64.Idx) (i : S50000x64.Idx)
    (h0 : (i 0).val = t.val * 5000 + (x 0).val) (h1 : (i 1).val = (x 1).val) :
    (iblk5 V c 1 t : Vec Ideal S5000x64 .f32) x = (V c (Pipeline.arrRef spec5 1) : S50000x64.Idx → EReal) i := by
  obtain ⟨-, -, e0, e1, -⟩ := rvd_idx5 t
  unfold iblk5
  rw [View.read_apply]
  refine congrArg (V c (Pipeline.arrRef spec5 1) : S50000x64.Idx → EReal) ?_
  funext a
  apply Fin.ext
  match a with
  | ⟨0, _⟩ => show win5_1.index t (0 : Fin 2) * 5000 + 1 * (x 0).val = (i 0).val; omega
  | ⟨1, _⟩ => show win5_1.index t (1 : Fin 2) * 64 + 1 * (x 1).val = (i 1).val; omega

/-- The weights' block is the whole matrix at every point. -/
theorem rvd_blk5_2 (c : Dev nD) (t : Fin cfg5.N) (x : S64x32.Idx) :
    (iblk5 V c 2 t : Vec Ideal S64x32 .f32) x = (V c (Pipeline.arrRef spec5 2) : S64x32.Idx → EReal) x := by
  obtain ⟨-, -, -, -, e0, e1, -⟩ := rvd_idx5 t
  unfold iblk5
  rw [View.read_apply]
  refine congrArg (V c (Pipeline.arrRef spec5 2) : S64x32.Idx → EReal) ?_
  funext a
  apply Fin.ext
  match a with
  | ⟨0, _⟩ => show win5_2.index t (0 : Fin 2) * 64 + 1 * (x 0).val = (x 0).val; omega
  | ⟨1, _⟩ => show win5_2.index t (1 : Fin 2) * 32 + 1 * (x 1).val = (x 1).val; omega

/-- The bias's block is the whole row at every point. -/
theorem rvd_blk5_3 (c : Dev nD) (t : Fin cfg5.N) (x : S1x32.Idx) :
    (iblk5 V c 3 t : Vec Ideal S1x32 .f32) x = (V c (Pipeline.arrRef spec5 3) : S1x32.Idx → EReal) x := by
  obtain ⟨-, -, -, -, -, -, e0, e1, -⟩ := rvd_idx5 t
  unfold iblk5
  rw [View.read_apply]
  refine congrArg (V c (Pipeline.arrRef spec5 3) : S1x32.Idx → EReal) ?_
  funext a
  apply Fin.ext
  match a with
  | ⟨0, _⟩ => show win5_3.index t (0 : Fin 2) * 1 + 1 * (x 0).val = (x 0).val; omega
  | ⟨1, _⟩ => show win5_3.index t (1 : Fin 2) * 32 + 1 * (x 1).val = (x 1).val; omega

/-- What the body leaves at entry (p, q) of its output block at point t is the layer's entry (5000·t + p, q). -/
theorem rvd_body5 (c : Dev nD) (t : Fin cfg5.N) (p : Fin 5000) (q : Fin 32) (r : Fin 50000)
    (hr : r.val = t.val * 5000 + p.val) :
    out5_4 (iblk5 V c 0 t) (iblk5 V c 1 t) (iblk5 V c 2 t) (iblk5 V c 3 t) (ix2 p q) = rvd_G5 V c (ix2 r q) := by
  unfold out5_4
  rw [View.canon_unit_zero rvd_hz]
  simp only [View.ld_unit_zero (S := S5000x64) rvd_hz, View.ld_unit_zero (S := S64x32) rvd_hz,
    View.ld_unit_zero (S := S1x32) rvd_hz]
  unfold k5_pay1
  refine (rvd_sumLayer2_apply rvd_plain5 shapeCasts_S5000x64_S5000x64 bitsLt_bf16_f32 shapeCasts_S1x32_S1x32
    broadcasts_S1x32_S5000x32 (iblk5 V c 0 t) (iblk5 V c 1 t) (iblk5 V c 2 t) (iblk5 V c 3 t) p q).trans ?_
  show Ideal.logistic _ = Ideal.logistic _
  refine congrArg Ideal.logistic (congrArg₂ (· + ·) (Finset.sum_congr rfl fun k _ => ?_) ?_)
  · exact congrArg₂ (· * ·)
      (congrArg₂ (· + ·) (rvd_blk5_0 V c t (ix2 p k) (ix2 r k) hr rfl) (rvd_blk5_1 V c t (ix2 p k) (ix2 r k) hr rfl))
      (rvd_blk5_2 V c t (ix2 k q))
  · exact rvd_blk5_3 V c t (ix2 0 q)

/-- The same at any entry of the block and any entry of the array whose coordinates are so related. -/
theorem rvd_body5_at (c : Dev nD) (t : Fin cfg5.N) (y : S5000x32.Idx) (i : S50000x32.Idx)
    (h0 : (i 0).val = t.val * 5000 + (y 0).val) (h1 : (i 1).val = (y 1).val) :
    out5_4 (iblk5 V c 0 t) (iblk5 V c 1 t) (iblk5 V c 2 t) (iblk5 V c 3 t) y = rvd_G5 V c i := by
  obtain ⟨p, q, rfl⟩ : ∃ (p : Fin 5000) (q : Fin 32), y = ix2 p q := ⟨y 0, y 1, eq_ix2 y⟩
  obtain ⟨r, s, rfl⟩ : ∃ (r : Fin 50000) (s : Fin 32), i = ix2 r s := ⟨i 0, i 1, eq_ix2 i⟩
  obtain rfl : s = q := Fin.ext h1
  exact rvd_body5 V c t p s r h0

/-- What point t writes back is block t of the layer. -/
theorem rvd_flushed5 (c : Dev nD) (t : Fin cfg5.N) :
    (dat5 V c).flushed 4 t = ((cfg5.win 4).blk t).view.read (Elt Ideal) (rvd_G5 V c) := by
  show (cfg5.win 4).cut (grid5.coords t) ((dat5 V c).after 4 t) = _
  rw [after5_4]
  obtain ⟨-, -, -, -, -, -, -, -, e0, e1⟩ := rvd_idx5 t
  funext j
  refine rvd_body5_at V c t ((cfg5.win 4).xinj (grid5.coords t) j) (((cfg5.win 4).blk t).view.emb j) ?_ ?_
  · show win5_4.index t (0 : Fin 2) * 5000 + 1 * (j 0).val = t.val * 5000 + (j 0).val
    omega
  · show win5_4.index t (1 : Fin 2) * 32 + 1 * (j 1).val = (j 1).val
    omega

/-- An index of the output lies in point t's block iff its row is one of rows 5000·t … 5000·t + 4999. -/
theorem rvd_mem5 (t : Fin cfg5.N) (i : S50000x32.Idx) :
    i ∈ ((cfg5.win 4).blk t).view.set ↔ ∀ a : Fin 2, win5_4.index t a * S5000x32.size a ≤ (i a).val
      ∧ (i a).val < win5_4.index t a * S5000x32.size a + S5000x32.size a := by
  show i ∈ ((View.whole main_v69).slice (win5_4.rect t)).set ↔ _
  rw [View.set_slice_whole, Rect.mem_set_unit]
  exact Iff.rfl

/-- The ten row blocks tile the output: row r lies in block r / 5000. -/
theorem rvd_cover5 (i : S50000x32.Idx) :
    ∃ t : Fin cfg5.N, (cfg5.win 4).flush t = true ∧ i ∈ ((cfg5.win 4).blk t).view.set := by
  have hi0 : (i 0).val < 50000 := (i 0).isLt
  have hi1 : (i 1).val < 32 := (i 1).isLt
  have hN : cfg5.N = 10 := N_5
  let t : Fin cfg5.N := ⟨(i 0).val / 5000, by rw [hN]; omega⟩
  obtain ⟨-, -, -, -, -, -, -, -, e0, e1⟩ := rvd_idx5 t
  have htv : t.val = (i 0).val / 5000 := rfl
  refine ⟨t, flush5_4 t, ?_⟩
  rw [rvd_mem5]
  intro a
  match a with
  | ⟨0, _⟩ => show win5_4.index t (0 : Fin 2) * 5000 ≤ (i 0).val ∧ (i 0).val < win5_4.index t (0 : Fin 2) * 5000 + 5000; omega
  | ⟨1, _⟩ => show win5_4.index t (1 : Fin 2) * 32 ≤ (i 1).val ∧ (i 1).val < win5_4.index t (1 : Fin 2) * 32 + 32; omega

/-- The output array after the region is the layer of the arrays the region finds. -/
theorem rvd_final5 (c : Dev nD) : (dat5 V c).arrAt 4 cfg5.N = rvd_G5 V c :=
  (dat5 V c).arrAt_eq_of_cover 4 (rvd_G5 V c) (fun t _ => rvd_flushed5 V c t) rvd_cover5

/-- Region 5: the output array after the region, read by row and column, is the specification's layer on the sum
    of the two input arrays, with the weights and the one-row bias the region finds. -/
theorem rvd_region5 (c : Dev nD) :
    cur2 ((dat5 (F := Ideal) V c).arrAt 4 cfg5.N)
      = denseA (cur2 (V c (Pipeline.arrRef spec5 0))) (cur2 (V c (Pipeline.arrRef spec5 1)))
          (cur2 (V c (Pipeline.arrRef spec5 2))) (fun q => V c (Pipeline.arrRef spec5 3) (ix2 0 q)) := by
  rw [rvd_final5]
  rfl

end Cert.RegionVal

end
-- ==== Proof.RegionValD4.lean ====
/-
  The residual dense layer of the kernel on 800000 rows (its region 4), as one function of the arrays the region finds.

  The region walks one hundred row blocks of 8000 rows. At block t its body reads rows 8000·t … 8000·t + 7999 of the
  input array (800000 × 64) and of the residual array (800000 × 32), the whole weight matrix (64 × 32) and the
  whole one-row bias (1 × 32), and writes the same rows of the output (800000 × 32). An output entry depends only
  on its own row of the input and its own entry of the residual, so what block t writes is block t of ONE function
  of the whole arrays — the residual layer of the specification — and the hundred blocks tile the output: row r
  lies in block r / 8000.
-/
import proofs.«157600_j9852654977700_1_alg».proof.Proof.Gen.KernelIdeal.Frame
import proofs.«157600_j9852654977700_1_alg».proof.Proof.RegionValD_Lib
import Idealize.ShloMosaic.Lib.Pipeline.Value

set_option maxRecDepth 16384

noncomputable section

open scoped BigOperators

namespace Cert.RegionVal

open Idealize.ShloMosaic Idealize.ShloMosaic.TcCoe Idealize.ShloMosaic.ValueIdx
open Idealize.SL.Sem
open Idealize.ShloMosaic.Pipeline (Dat)
open Cert.KernelIdeal Cert.KernelIdeal.Gen Cert.Spec Cert.LibDense

variable (V : (c : Dev nD) → (b : Ref sig .tc) → Buf (Elt Ideal) ((c : Thread nD τ).loc b))

/-- The body's product is a plain 8000×64 by 64×32 product. -/
theorem rvd_plain4 : PlainDot dot_S8000x64_S64x32_S8000x32_1_0_0_1_n_n :=
  ⟨rfl, rfl, fun _ _ => rfl, fun _ _ => rfl, fun _ _ => rfl, fun _ _ => rfl⟩

/-- The array the region leaves: the residual layer of the arrays it finds, entry by entry. -/
def rvd_G4 (c : Dev nD) : S800000x32.Idx → EReal := fun i =>
  denseB (cur2 (V c (Pipeline.arrRef spec4 0))) (cur2 (V c (Pipeline.arrRef spec4 1)))
    (fun q => V c (Pipeline.arrRef spec4 2) (ix2 0 q)) (cur2 (V c (Pipeline.arrRef spec4 3))) (i 0) (i 1)

/-- Where each window's block sits at point t: the input's, the residual's and the output's row blocks move with
    t, the weights and the bias stay whole. -/
theorem rvd_idx4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0
    ∧ win4_4.index t (0 : Fin 2) = t.val ∧ win4_4.index t (1 : Fin 2) = 0 :=
  (by decide +kernel : ∀ t : Fin grid4.N, _)

/-- Entry (p, k) of the input's block t is entry (8000·t + p, k) of the array. -/
theorem rvd_blk4_0 (c : Dev nD) (t : Fin cfg4.N) (x : S8000x64.Idx) (i : S800000x64.Idx)
    (h0 : (i 0).val = t.val * 8000 + (x 0).val) (h1 : (i 1).val = (x 1).val) :
    (iblk4 V c 0 t : Vec Ideal S8000x64 .f32) x = (V c (Pipeline.arrRef spec4 0) : S800000x64.Idx → EReal) i := by
  obtain ⟨e0, e1, -⟩ := rvd_idx4 t
  unfold iblk4
  rw [View.read_apply]
  refine congrArg (V c (Pipeline.arrRef spec4 0) : S800000x64.Idx → EReal) ?_
  funext a
  apply Fin.ext
  match a with
  | ⟨0, _⟩ => show win4_0.index t (0 : Fin 2) * 8000 + 1 * (x 0).val = (i 0).val; omega
  | ⟨1, _⟩ => show win4_0.index t (1 : Fin 2) * 64 + 1 * (x 1).val = (i 1).val; omega

/-- The weights' block is the whole matrix at every point. -/
theorem rvd_blk4_1 (c : Dev nD) (t : Fin cfg4.N) (x : S64x32.Idx) :
    (iblk4 V c 1 t : Vec Ideal S64x32 .f32) x = (V c (Pipeline.arrRef spec4 1) : S64x32.Idx → EReal) x := by
  obtain ⟨-, -, e0, e1, -⟩ := rvd_idx4 t
  unfold iblk4
  rw [View.read_apply]
  refine congrArg (V c (Pipeline.arrRef spec4 1) : S64x32.Idx → EReal) ?_
  funext a
  apply Fin.ext
  match a with
  | ⟨0, _⟩ => show win4_1.index t (0 : Fin 2) * 64 + 1 * (x 0).val = (x 0).val; omega
  | ⟨1, _⟩ => show win4_1.index t (1 : Fin 2) * 32 + 1 * (x 1).val = (x 1).val; omega

/-- The bias's block is the whole row at every point. -/
theorem rvd_blk4_2 (c : Dev nD) (t : Fin cfg4.N) (x : S1x32.Idx) :
    (iblk4 V c 2 t : Vec Ideal S1x32 .f32) x = (V c (Pipeline.arrRef spec4 2) : S1x32.Idx → EReal) x := by
  obtain ⟨-, -, -, -, e0, e1, -⟩ := rvd_idx4 t
  unfold iblk4
  rw [View.read_apply]
  refine congrArg (V c (Pipeline.arrRef spec4 2) : S1x32.Idx → EReal) ?_
  funext a
  apply Fin.ext
  match a with
  | ⟨0, _⟩ => show win4_2.index t (0 : Fin 2) * 1 + 1 * (x 0).val = (x 0).val; omega
  | ⟨1, _⟩ => show win4_2.index t (1 : Fin 2) * 32 + 1 * (x 1).val = (x 1).val; omega

/-- Entry (p, q) of the residual's block t is entry (8000·t + p, q) of the array. -/
theorem rvd_blk4_3 (c : Dev nD) (t : Fin cfg4.N) (x : S8000x32.Idx) (i : S800000x32.Idx)
    (h0 : (i 0).val = t.val * 8000 + (x 0).val) (h1 : (i 1).val = (x 1).val) :
    (iblk4 V c 3 t : Vec Ideal S8000x32 .f32) x = (V c (Pipeline.arrRef spec4 3) : S800000x32.Idx → EReal) i := by
  obtain ⟨-, -, -, -, -, -, e0, e1, -⟩ := rvd_idx4 t
  unfold iblk4
  rw [View.read_apply]
  refine congrArg (V c (Pipeline.arrRef spec4 3) : S800000x32.Idx → EReal) ?_
  funext a
  apply Fin.ext
  match a with
  | ⟨0, _⟩ => show win4_3.index t (0 : Fin 2) * 8000 + 1 * (x 0).val = (i 0).val; omega
  | ⟨1, _⟩ => show win4_3.index t (1 : Fin 2) * 32 + 1 * (x 1).val = (i 1).val; omega

/-- What the body leaves at entry (p, q) of its output block at point t is the layer's entry (8000·t + p, q). -/
theorem rvd_body4 (c : Dev nD) (t : Fin cfg4.N) (p : Fin 8000) (q : Fin 32) (r : Fin 800000)
    (hr : r.val = t.val * 8000 + p.val) :
    out4_4 (iblk4 V c 0 t) (iblk4 V c 1 t) (iblk4 V c 2 t) (iblk4 V c 3 t) (ix2 p q) = rvd_G4 V c (ix2 r q) := by
  unfold out4_4
  rw [View.canon_unit_zero rvd_hz]
  simp only [View.ld_unit_zero (S := S8000x64) rvd_hz, View.ld_unit_zero (S := S64x32) rvd_hz,
    View.ld_unit_zero (S := S1x32) rvd_hz, View.ld_unit_zero (S := S8000x32) rvd_hz]
  unfold k4_pay1
  refine (rvd_resLayer_apply rvd_plain4 shapeCasts_S8000x64_S8000x64 bitsLt_bf16_f32 shapeCasts_S1x32_S1x32
    broadcasts_S1x32_S8000x32 shapeCasts_S8000x32_S8000x32
    (iblk4 V c 0 t) (iblk4 V c 1 t) (iblk4 V c 2 t) (iblk4 V c 3 t) p q).trans ?_
  show Ideal.logistic _ = Ideal.logistic _
  refine congrArg Ideal.logistic
    (congrArg₂ (· + ·) (congrArg₂ (· + ·) (Finset.sum_congr rfl fun k _ => ?_) ?_) ?_)
  · exact congrArg₂ (· * ·) (rvd_blk4_0 V c t (ix2 p k) (ix2 r k) hr rfl) (rvd_blk4_1 V c t (ix2 k q))
  · exact rvd_blk4_2 V c t (ix2 0 q)
  · exact rvd_blk4_3 V c t (ix2 p q) (ix2 r q) hr rfl

/-- The same at any entry of the block and any entry of the array whose coordinates are so related. -/
theorem rvd_body4_at (c : Dev nD) (t : Fin cfg4.N) (y : S8000x32.Idx) (i : S800000x32.Idx)
    (h0 : (i 0).val = t.val * 8000 + (y 0).val) (h1 : (i 1).val = (y 1).val) :
    out4_4 (iblk4 V c 0 t) (iblk4 V c 1 t) (iblk4 V c 2 t) (iblk4 V c 3 t) y = rvd_G4 V c i := by
  obtain ⟨p, q, rfl⟩ : ∃ (p : Fin 8000) (q : Fin 32), y = ix2 p q := ⟨y 0, y 1, eq_ix2 y⟩
  obtain ⟨r, s, rfl⟩ : ∃ (r : Fin 800000) (s : Fin 32), i = ix2 r s := ⟨i 0, i 1, eq_ix2 i⟩
  obtain rfl : s = q := Fin.ext h1
  exact rvd_body4 V c t p s r h0

/-- What point t writes back is block t of the layer. -/
theorem rvd_flushed4 (c : Dev nD) (t : Fin cfg4.N) :
    (dat4 V c).flushed 4 t = ((cfg4.win 4).blk t).view.read (Elt Ideal) (rvd_G4 V c) := by
  show (cfg4.win 4).cut (grid4.coords t) ((dat4 V c).after 4 t) = _
  rw [after4_4]
  obtain ⟨-, -, -, -, -, -, -, -, e0, e1⟩ := rvd_idx4 t
  funext j
  refine rvd_body4_at V c t ((cfg4.win 4).xinj (grid4.coords t) j) (((cfg4.win 4).blk t).view.emb j) ?_ ?_
  · show win4_4.index t (0 : Fin 2) * 8000 + 1 * (j 0).val = t.val * 8000 + (j 0).val
    omega
  · show win4_4.index t (1 : Fin 2) * 32 + 1 * (j 1).val = (j 1).val
    omega

/-- An index of the output lies in point t's block iff its row is one of rows 8000·t … 8000·t + 7999. -/
theorem rvd_mem4 (t : Fin cfg4.N) (i : S800000x32.Idx) :
    i ∈ ((cfg4.win 4).blk t).view.set ↔ ∀ a : Fin 2, win4_4.index t a * S8000x32.size a ≤ (i a).val
      ∧ (i a).val < win4_4.index t a * S8000x32.size a + S8000x32.size a := by
  show i ∈ ((View.whole main_v57).slice (win4_4.rect t)).set ↔ _
  rw [View.set_slice_whole, Rect.mem_set_unit]
  exact Iff.rfl

/-- The hundred row blocks tile the output: row r lies in block r / 8000. -/
theorem rvd_cover4 (i : S800000x32.Idx) :
    ∃ t : Fin cfg4.N, (cfg4.win 4).flush t = true ∧ i ∈ ((cfg4.win 4).blk t).view.set := by
  have hi0 : (i 0).val < 800000 := (i 0).isLt
  have hi1 : (i 1).val < 32 := (i 1).isLt
  have hN : cfg4.N = 100 := N_4
  let t : Fin cfg4.N := ⟨(i 0).val / 8000, by rw [hN]; omega⟩
  obtain ⟨-, -, -, -, -, -, -, -, e0, e1⟩ := rvd_idx4 t
  have htv : t.val = (i 0).val / 8000 := rfl
  refine ⟨t, flush4_4 t, ?_⟩
  rw [rvd_mem4]
  intro a
  match a with
  | ⟨0, _⟩ => show win4_4.index t (0 : Fin 2) * 8000 ≤ (i 0).val ∧ (i 0).val < win4_4.index t (0 : Fin 2) * 8000 + 8000; omega
  | ⟨1, _⟩ => show win4_4.index t (1 : Fin 2) * 32 ≤ (i 1).val ∧ (i 1).val < win4_4.index t (1 : Fin 2) * 32 + 32; omega

/-- The output array after the region is the residual layer of the arrays the region finds. -/
theorem rvd_final4 (c : Dev nD) : (dat4 V c).arrAt 4 cfg4.N = rvd_G4 V c :=
  (dat4 V c).arrAt_eq_of_cover 4 (rvd_G4 V c) (fun t _ => rvd_flushed4 V c t) rvd_cover4

/-- Region 4: the output array after the region, read by row and column, is the specification's layer with a
    residual: the input array times the weights, plus the one-row bias, plus the residual array, under the
    logistic function. -/
theorem rvd_region4 (c : Dev nD) :
    cur2 ((dat4 (F := Ideal) V c).arrAt 4 cfg4.N)
      = denseB (cur2 (V c (Pipeline.arrRef spec4 0))) (cur2 (V c (Pipeline.arrRef spec4 1)))
          (fun q => V c (Pipeline.arrRef spec4 2) (ix2 0 q)) (cur2 (V c (Pipeline.arrRef spec4 3))) := by
  rw [rvd_final4]
  rfl

end Cert.RegionVal

end
-- ==== Proof.RegionValD.lean ====
/-
  The values of the kernel's dense layers on 50000 rows (regions 0, 2, 5) and of its first residual layer on
  800000 rows (region 4), gathered: each region's output array is the specification's layer of the arrays the
  region finds.
-/
import proofs.«157600_j9852654977700_1_alg».proof.Proof.RegionValD0
import proofs.«157600_j9852654977700_1_alg».proof.Proof.RegionValD2
import proofs.«157600_j9852654977700_1_alg».proof.Proof.RegionValD5
import proofs.«157600_j9852654977700_1_alg».proof.Proof.RegionValD4
-- ==== Proof.RegionValE_Lib.lean ====
/-
  The dense layer's arithmetic, read at one entry, free of any program.

  A block of the layer is computed from blocks of its operands by the chain
      add the two inputs → round both factors to bf16 → product into a zero accumulator → add the bias row,
      broadcast over the rows → logistic
  (or, for the layer with a residual: round → product → add the bias row → add the residual → logistic).
  At the exact instance rounding is the identity, the product into zero is the plain sum over the contracted
  axis (LibDense), a shape cast to the same shape is the identity and a broadcast row reads its one row, so
  entry (p, q) of the chain is
      logistic (∑ₖ (x₀ (p, k) + x₁ (p, k)) · x₂ (k, q) + x₃ (0, q))
  and, with a residual,
      logistic ((∑ₖ x₀ (p, k) · x₁ (k, q) + x₂ (0, q)) + x₃ (p, q)).
  Both are stated over arbitrary extents M, K, N and an arbitrary plain product record.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«157600_j9852654977700_1_alg».proof.Proof.LibDense

noncomputable section

open scoped BigOperators

namespace Cert.RegionVal

open Idealize.ShloMosaic Idealize.ShloMosaic.ValueIdx

variable {M K N : Nat} {d : DotDims (⟨2, ![M, K]⟩ : Shape) (⟨2, ![K, N]⟩ : Shape) (⟨2, ![M, N]⟩ : Shape)}

/-- Entry (p, q) of the layer on the sum of two inputs:
    logistic (∑ₖ (x₀ (p, k) + x₁ (p, k)) · x₂ (k, q) + x₃ (0, q)). -/
theorem rve_denseA_entry (hd : Cert.LibDense.PlainDot d)
    (x0 x1 : FVec Ideal (⟨2, ![M, K]⟩ : Shape) .f32) (x2 : FVec Ideal (⟨2, ![K, N]⟩ : Shape) .f32)
    (x3 : FVec Ideal (⟨2, ![1, N]⟩ : Shape) .f32)
    (h0 : (⟨2, ![M, K]⟩ : Shape).ShapeCasts ⟨2, ![M, K]⟩) (h3 : (⟨2, ![1, N]⟩ : Shape).ShapeCasts ⟨2, ![1, N]⟩)
    (hb : (⟨2, ![1, N]⟩ : Shape).Broadcasts ⟨2, ![M, N]⟩) (hbits : FTy.bf16.bits < FTy.f32.bits)
    (p : Fin M) (q : Fin N) :
    logistic (addf
        (matmul d none (truncf .bf16 (addf (shapeCast ⟨2, ![M, K]⟩ x0 h0) (shapeCast ⟨2, ![M, K]⟩ x1 h0)) hbits)
          (truncf .bf16 x2 hbits) (constant (⟨2, ![M, N]⟩ : Shape) .f32 0x00000000#32))
        (broadcastTo ⟨2, ![M, N]⟩ (shapeCast ⟨2, ![1, N]⟩ x3 h3) hb)) (ix2 p q)
      = Ideal.logistic ((∑ k : Fin K, (x0 (ix2 p k) + x1 (ix2 p k)) * x2 (ix2 k q)) + x3 (ix2 0 q)) := by
  refine congrArg Ideal.logistic ?_
  show FloatOps.matmul d none (truncf .bf16 (addf (shapeCast ⟨2, ![M, K]⟩ x0 h0) (shapeCast ⟨2, ![M, K]⟩ x1 h0)) hbits)
        (truncf .bf16 x2 hbits) (constant (⟨2, ![M, N]⟩ : Shape) .f32 0x00000000#32) (ix2 p q)
      + broadcastTo ⟨2, ![M, N]⟩ (shapeCast ⟨2, ![1, N]⟩ x3 h3) hb (ix2 p q) = _
  rw [Cert.LibDense.matmul_zero_plain hd, broadcastTo_1b_ab_apply, shapeCast_self, shapeCast_self, shapeCast_self]
  rfl

/-- Entry (p, q) of the layer with a residual:
    logistic ((∑ₖ x₀ (p, k) · x₁ (k, q) + x₂ (0, q)) + x₃ (p, q)). -/
theorem rve_denseB_entry (hd : Cert.LibDense.PlainDot d)
    (x0 : FVec Ideal (⟨2, ![M, K]⟩ : Shape) .f32) (x1 : FVec Ideal (⟨2, ![K, N]⟩ : Shape) .f32)
    (x2 : FVec Ideal (⟨2, ![1, N]⟩ : Shape) .f32) (x3 : FVec Ideal (⟨2, ![M, N]⟩ : Shape) .f32)
    (h0 : (⟨2, ![M, K]⟩ : Shape).ShapeCasts ⟨2, ![M, K]⟩) (h2 : (⟨2, ![1, N]⟩ : Shape).ShapeCasts ⟨2, ![1, N]⟩)
    (h3 : (⟨2, ![M, N]⟩ : Shape).ShapeCasts ⟨2, ![M, N]⟩)
    (hb : (⟨2, ![1, N]⟩ : Shape).Broadcasts ⟨2, ![M, N]⟩) (hbits : FTy.bf16.bits < FTy.f32.bits)
    (p : Fin M) (q : Fin N) :
    logistic (addf
        (addf
          (matmul d none (truncf .bf16 (shapeCast ⟨2, ![M, K]⟩ x0 h0) hbits) (truncf .bf16 x1 hbits)
            (constant (⟨2, ![M, N]⟩ : Shape) .f32 0x00000000#32))
          (broadcastTo ⟨2, ![M, N]⟩ (shapeCast ⟨2, ![1, N]⟩ x2 h2) hb))
        (shapeCast ⟨2, ![M, N]⟩ x3 h3)) (ix2 p q)
      = Ideal.logistic (((∑ k : Fin K, x0 (ix2 p k) * x1 (ix2 k q)) + x2 (ix2 0 q)) + x3 (ix2 p q)) := by
  refine congrArg Ideal.logistic ?_
  show (FloatOps.matmul d none (truncf .bf16 (shapeCast ⟨2, ![M, K]⟩ x0 h0) hbits) (truncf .bf16 x1 hbits)
          (constant (⟨2, ![M, N]⟩ : Shape) .f32 0x00000000#32) (ix2 p q)
        + broadcastTo ⟨2, ![M, N]⟩ (shapeCast ⟨2, ![1, N]⟩ x2 h2) hb (ix2 p q))
      + shapeCast ⟨2, ![M, N]⟩ x3 h3 (ix2 p q) = _
  rw [Cert.LibDense.matmul_zero_plain hd, broadcastTo_1b_ab_apply, shapeCast_self, shapeCast_self, shapeCast_self]
  rfl

end Cert.RegionVal

end
-- ==== Proof.RegionValE1.lean ====
import proofs.«157600_j9852654977700_1_alg».proof.Proof.Gen.KernelIdeal.Frame
import proofs.«157600_j9852654977700_1_alg».proof.Proof.Spec
import proofs.«157600_j9852654977700_1_alg».proof.Proof.LibDense
import proofs.«157600_j9852654977700_1_alg».proof.Proof.RegionValE_Lib
import Idealize.ShloMosaic.Lib.Pipeline.Value
import Idealize.ShloMosaic.Lib.ValueIdx

set_option maxRecDepth 16384
set_option Elab.async false

noncomputable section

open scoped BigOperators

namespace Cert.RegionVal

open Idealize.ShloMosaic Idealize.ShloMosaic.ValueIdx Idealize.ShloMosaic.TcCoe
open Idealize.ShloMosaic.Pipeline (Dat Cfg Window)
open Cert.KernelIdeal Cert.KernelIdeal.Gen Cert.Spec

/-! # Region 1: the layer  logistic ((X + Y) · W + b)  on 800000 rows, 8000 rows per grid point

Windows 0 and 1 (X and Y, 800000×128) and the output window 4 (800000×64) move together: point t holds rows
8000·t … 8000·t + 7999. Windows 2 and 3 (W, 128×64, and the bias row, 1×64) are whole at every point. So the block
point t writes back is rows 8000·t … of the layer of the entry arrays, and the 100 blocks tile the output. -/

variable (V : (c : Dev nD) → (b : Ref sig .tc) → Buf (Elt Ideal) ((c : Thread nD τ).loc b))

theorem rve_zeros1 : (![0, 0] : Fin 2 → Nat) = fun _ => 0 := funext fun a => by fin_cases a <;> rfl

/-- The body's product record is the plain product of one 8000×128 block by the 128×64 weights. -/
theorem rve_plain1 : Cert.LibDense.PlainDot dot_S8000x128_S128x64_S8000x64_1_0_0_1_n_n :=
  ⟨rfl, rfl, fun _ _ => rfl, fun _ _ => rfl, fun _ _ => rfl, fun _ _ => rfl⟩

/-- Entry (p, q) of the block the body stores, from the blocks it loaded. -/
theorem rve_pay1 (x0 x1 : Vec Ideal S8000x128 .f32) (x2 : Vec Ideal S128x64 .f32) (x3 : Vec Ideal S1x64 .f32)
    (p : Fin 8000) (q : Fin 64) :
    k1_pay1 x0 x1 x2 x3 (ix2 p q)
      = Ideal.logistic ((∑ k : Fin 128, (x0 (ix2 p k) + x1 (ix2 p k)) * x2 (ix2 k q)) + x3 (ix2 0 q)) := by
  unfold k1_pay1
  exact rve_denseA_entry rve_plain1 x0 x1 x2 x3 _ _ _ _ p q

/-- The layer of four whole arrays, as an array: entry (r, q) is
    logistic (∑ₖ (X (r, k) + Y (r, k)) · W (k, q) + b (0, q)). -/
def rve_layer1 (X Y : S800000x128.Idx → EReal) (W : S128x64.Idx → EReal) (b : S1x64.Idx → EReal) : S800000x64.Idx → EReal :=
  fun i => Ideal.logistic ((∑ k : Fin 128, (X (ix2 (i 0) k) + Y (ix2 (i 0) k)) * W (ix2 k (i 1))) + b (ix2 0 (i 1)))

/-- The printed index maps, decided over the grid: X, Y and the output are at row block t, column block 0; the
    weights and the bias row are at block (0, 0). -/
theorem rve_block_index1 : ∀ t : Fin cfg1.N,
      win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Window 0's block at point t holds rows 8000·t … of its array, all 128 columns. -/
theorem rve_window1_0 (c : Dev nD) (t : Fin cfg1.N) (x : S8000x128.Idx) (i : S800000x128.Idx)
    (h0 : (i 0).val = t.val * 8000 + (x 0).val) (h1 : (i 1).val = (x 1).val) :
    iblk1 V c 0 t x = V c (Pipeline.arrRef spec1 0) i := by
  obtain ⟨e00, e01, e10, e11, e20, e21, e30, e31, e40, e41⟩ := rve_block_index1 t
  show V c (Pipeline.arrRef spec1 0) (((cfg1.win 0).blk t).view.emb x) = V c (Pipeline.arrRef spec1 0) i
  congr 1
  funext a; apply Fin.ext
  match a with
  | ⟨0, _⟩ => show win1_0.index t (0 : Fin 2) * 8000 + 1 * (x 0).val = (i 0).val; omega
  | ⟨1, _⟩ => show win1_0.index t (1 : Fin 2) * 128 + 1 * (x 1).val = (i 1).val; omega

/-- Window 1's block at point t holds rows 8000·t … of its array, all 128 columns. -/
theorem rve_window1_1 (c : Dev nD) (t : Fin cfg1.N) (x : S8000x128.Idx) (i : S800000x128.Idx)
    (h0 : (i 0).val = t.val * 8000 + (x 0).val) (h1 : (i 1).val = (x 1).val) :
    iblk1 V c 1 t x = V c (Pipeline.arrRef spec1 1) i := by
  obtain ⟨e00, e01, e10, e11, e20, e21, e30, e31, e40, e41⟩ := rve_block_index1 t
  show V c (Pipeline.arrRef spec1 1) (((cfg1.win 1).blk t).view.emb x) = V c (Pipeline.arrRef spec1 1) i
  congr 1
  funext a; apply Fin.ext
  match a with
  | ⟨0, _⟩ => show win1_1.index t (0 : Fin 2) * 8000 + 1 * (x 0).val = (i 0).val; omega
  | ⟨1, _⟩ => show win1_1.index t (1 : Fin 2) * 128 + 1 * (x 1).val = (i 1).val; omega

/-- Window 2's block at every point is its whole array (the weights). -/
theorem rve_window1_2 (c : Dev nD) (t : Fin cfg1.N) (x : S128x64.Idx) :
    iblk1 V c 2 t x = V c (Pipeline.arrRef spec1 2) x := by
  obtain ⟨e00, e01, e10, e11, e20, e21, e30, e31, e40, e41⟩ := rve_block_index1 t
  show V c (Pipeline.arrRef spec1 2) (((cfg1.win 2).blk t).view.emb x) = V c (Pipeline.arrRef spec1 2) x
  congr 1
  funext a; apply Fin.ext
  match a with
  | ⟨0, _⟩ => show win1_2.index t (0 : Fin 2) * 128 + 1 * (x 0).val = (x 0).val; omega
  | ⟨1, _⟩ => show win1_2.index t (1 : Fin 2) * 64 + 1 * (x 1).val = (x 1).val; omega

/-- Window 3's block at every point is its whole array (the bias row). -/
theorem rve_window1_3 (c : Dev nD) (t : Fin cfg1.N) (x : S1x64.Idx) :
    iblk1 V c 3 t x = V c (Pipeline.arrRef spec1 3) x := by
  obtain ⟨e00, e01, e10, e11, e20, e21, e30, e31, e40, e41⟩ := rve_block_index1 t
  show V c (Pipeline.arrRef spec1 3) (((cfg1.win 3).blk t).view.emb x) = V c (Pipeline.arrRef spec1 3) x
  congr 1
  funext a; apply Fin.ext
  match a with
  | ⟨0, _⟩ => show win1_3.index t (0 : Fin 2) * 1 + 1 * (x 0).val = (x 0).val; omega
  | ⟨1, _⟩ => show win1_3.index t (1 : Fin 2) * 64 + 1 * (x 1).val = (x 1).val; omega

/-- One entry of what point t stores: entry y of its block is the layer's entry at row 8000·t + (row of y). -/
theorem rve_entry1 (c : Dev nD) (t : Fin cfg1.N) (y : S8000x64.Idx) (i : S800000x64.Idx)
    (h0 : (i 0).val = t.val * 8000 + (y 0).val) (h1 : (i 1).val = (y 1).val) :
    k1_pay1 (iblk1 V c 0 t) (iblk1 V c 1 t) (iblk1 V c 2 t) (iblk1 V c 3 t) y
      = rve_layer1 (V c (Pipeline.arrRef spec1 0)) (V c (Pipeline.arrRef spec1 1))
          (V c (Pipeline.arrRef spec1 2)) (V c (Pipeline.arrRef spec1 3)) i := by
  obtain ⟨p, q, rfl⟩ : ∃ (p : Fin 8000) (q : Fin 64), y = ix2 p q := ⟨y 0, y 1, eq_ix2 y⟩
  have hq : (i 1 : Fin 64) = q := Fin.ext h1
  refine (rve_pay1 (iblk1 V c 0 t) (iblk1 V c 1 t) (iblk1 V c 2 t) (iblk1 V c 3 t) p q).trans ?_
  unfold rve_layer1
  rw [hq]
  refine congrArg Ideal.logistic (congrArg₂ (· + ·) (Finset.sum_congr rfl fun k _ => ?_) ?_)
  · exact congrArg₂ (· * ·)
      (congrArg₂ (· + ·) (rve_window1_0 V c t (ix2 p k) (ix2 (i 0) k) h0 rfl) (rve_window1_1 V c t (ix2 p k) (ix2 (i 0) k) h0 rfl))
      (rve_window1_2 V c t (ix2 k q))
  · exact rve_window1_3 V c t (ix2 0 q)

/-- The block that point t writes back is block t of the layer of the entry arrays. -/
theorem rve_written_back1 (c : Dev nD) (t : Fin cfg1.N) :
    (dat1 (F := Ideal) V c).flushed 4 t
      = ((cfg1.win 4).blk t).view.read (Elt Ideal)
          (rve_layer1 (V c (Pipeline.arrRef spec1 0)) (V c (Pipeline.arrRef spec1 1))
            (V c (Pipeline.arrRef spec1 2)) (V c (Pipeline.arrRef spec1 3))) := by
  show (cfg1.win 4).cut (grid1.coords t) ((dat1 V c).after 4 t) = _
  rw [after1_4]
  unfold out1_4
  rw [View.canon_unit_zero rve_zeros1]
  simp only [View.ld_unit_zero (S := S8000x128) rve_zeros1, View.ld_unit_zero (S := S128x64) rve_zeros1,
    View.ld_unit_zero (S := S1x64) rve_zeros1]
  obtain ⟨e00, e01, e10, e11, e20, e21, e30, e31, e40, e41⟩ := rve_block_index1 t
  funext j
  exact rve_entry1 V c t ((cfg1.win 4).xinj (grid1.coords t) j) (((cfg1.win 4).blk t).view.emb j)
    (by show win1_4.index t (0 : Fin 2) * 8000 + 1 * (j 0).val = t.val * 8000 + (j 0).val; omega)
    (by show win1_4.index t (1 : Fin 2) * 64 + 1 * (j 1).val = (j 1).val; omega)

/-- An index of the output array is in point t's block iff each coordinate is in the block's range on its axis. -/
theorem rve_in_block_iff1 (t : Fin cfg1.N) (i : S800000x64.Idx) :
    i ∈ ((cfg1.win 4).blk t).view.set
      ↔ ∀ a : Fin 2, win1_4.index t a * S8000x64.size a ≤ (i a).val ∧ (i a).val < win1_4.index t a * S8000x64.size a + S8000x64.size a := by
  show i ∈ ((View.whole main_v27).slice (win1_4.rect t)).set ↔ _
  rw [View.set_slice_whole, Rect.mem_set_unit]
  exact Iff.rfl

/-- The blocks tile the output: row r is in the block of point r / 8000. -/
theorem rve_tiles1 (i : S800000x64.Idx) :
    ∃ t : Fin cfg1.N, (cfg1.win 4).flush t = true ∧ i ∈ ((cfg1.win 4).blk t).view.set := by
  have hi0 : (i 0).val < 800000 := (i 0).isLt
  have hi1 : (i 1).val < 64 := (i 1).isLt
  have hN : cfg1.N = 100 := N_1
  have ht : (i 0).val / 8000 < cfg1.N := by rw [hN]; omega
  obtain ⟨e00, e01, e10, e11, e20, e21, e30, e31, e40, e41⟩ := rve_block_index1 ⟨(i 0).val / 8000, ht⟩
  refine ⟨⟨(i 0).val / 8000, ht⟩, flush1_4 _, ?_⟩
  rw [rve_in_block_iff1]
  intro a
  match a with
  | ⟨0, _⟩ =>
    show win1_4.index ⟨(i 0).val / 8000, ht⟩ (0 : Fin 2) * 8000 ≤ (i 0).val
      ∧ (i 0).val < win1_4.index ⟨(i 0).val / 8000, ht⟩ (0 : Fin 2) * 8000 + 8000
    rw [e40]
    show (i 0).val / 8000 * 8000 ≤ (i 0).val ∧ (i 0).val < (i 0).val / 8000 * 8000 + 8000
    omega
  | ⟨1, _⟩ =>
    show win1_4.index ⟨(i 0).val / 8000, ht⟩ (1 : Fin 2) * 64 ≤ (i 1).val
      ∧ (i 1).val < win1_4.index ⟨(i 0).val / 8000, ht⟩ (1 : Fin 2) * 64 + 64
    omega

/-- After the region the output array is the layer of the entry arrays. -/
theorem rve_output1 (c : Dev nD) :
    (dat1 (F := Ideal) V c).arrAt 4 cfg1.N
      = rve_layer1 (V c (Pipeline.arrRef spec1 0)) (V c (Pipeline.arrRef spec1 1))
          (V c (Pipeline.arrRef spec1 2)) (V c (Pipeline.arrRef spec1 3)) :=
  (dat1 (F := Ideal) V c).arrAt_eq_of_cover 4 _ (fun t _ => rve_written_back1 V c t) rve_tiles1

/-- Region 1, read by row and column: the output array is the layer  logistic ((X + Y) · W + b)  of the entry arrays. -/
theorem rve_region1 (c : Dev nD) :
    cur2 ((dat1 (F := Ideal) V c).arrAt 4 cfg1.N)
      = denseA (cur2 (V c (Pipeline.arrRef spec1 0))) (cur2 (V c (Pipeline.arrRef spec1 1)))
          (cur2 (V c (Pipeline.arrRef spec1 2))) (fun q => V c (Pipeline.arrRef spec1 3) (ix2 0 q)) :=
  (congrArg (cur2 (m := 800000) (n := 64)) (rve_output1 V c)).trans rfl

end Cert.RegionVal

end
-- ==== Proof.RegionValE3.lean ====
import proofs.«157600_j9852654977700_1_alg».proof.Proof.Gen.KernelIdeal.Frame
import proofs.«157600_j9852654977700_1_alg».proof.Proof.Spec
import proofs.«157600_j9852654977700_1_alg».proof.Proof.LibDense
import proofs.«157600_j9852654977700_1_alg».proof.Proof.RegionValE_Lib
import Idealize.ShloMosaic.Lib.Pipeline.Value
import Idealize.ShloMosaic.Lib.ValueIdx

set_option maxRecDepth 16384
set_option Elab.async false

noncomputable section

open scoped BigOperators

namespace Cert.RegionVal

open Idealize.ShloMosaic Idealize.ShloMosaic.ValueIdx Idealize.ShloMosaic.TcCoe
open Idealize.ShloMosaic.Pipeline (Dat Cfg Window)
open Cert.KernelIdeal Cert.KernelIdeal.Gen Cert.Spec

/-! # Region 3: the layer  logistic ((X + Y) · W + b)  on 800000 rows, 8000 rows per grid point

Windows 0 and 1 (X and Y, 800000×64) and the output window 4 (800000×32) move together: point t holds rows
8000·t … 8000·t + 7999. Windows 2 and 3 (W, 64×32, and the bias row, 1×32) are whole at every point. So the block
point t writes back is rows 8000·t … of the layer of the entry arrays, and the 100 blocks tile the output. -/

variable (V : (c : Dev nD) → (b : Ref sig .tc) → Buf (Elt Ideal) ((c : Thread nD τ).loc b))

theorem rve_zeros3 : (![0, 0] : Fin 2 → Nat) = fun _ => 0 := funext fun a => by fin_cases a <;> rfl

/-- The body's product record is the plain product of one 8000×64 block by the 64×32 weights. -/
theorem rve_plain3 : Cert.LibDense.PlainDot dot_S8000x64_S64x32_S8000x32_1_0_0_1_n_n :=
  ⟨rfl, rfl, fun _ _ => rfl, fun _ _ => rfl, fun _ _ => rfl, fun _ _ => rfl⟩

/-- Entry (p, q) of the block the body stores, from the blocks it loaded. -/
theorem rve_pay3 (x0 x1 : Vec Ideal S8000x64 .f32) (x2 : Vec Ideal S64x32 .f32) (x3 : Vec Ideal S1x32 .f32)
    (p : Fin 8000) (q : Fin 32) :
    k3_pay1 x0 x1 x2 x3 (ix2 p q)
      = Ideal.logistic ((∑ k : Fin 64, (x0 (ix2 p k) + x1 (ix2 p k)) * x2 (ix2 k q)) + x3 (ix2 0 q)) := by
  unfold k3_pay1
  exact rve_denseA_entry rve_plain3 x0 x1 x2 x3 _ _ _ _ p q

/-- The layer of four whole arrays, as an array: entry (r, q) is
    logistic (∑ₖ (X (r, k) + Y (r, k)) · W (k, q) + b (0, q)). -/
def rve_layer3 (X Y : S800000x64.Idx → EReal) (W : S64x32.Idx → EReal) (b : S1x32.Idx → EReal) : S800000x32.Idx → EReal :=
  fun i => Ideal.logistic ((∑ k : Fin 64, (X (ix2 (i 0) k) + Y (ix2 (i 0) k)) * W (ix2 k (i 1))) + b (ix2 0 (i 1)))

/-- The printed index maps, decided over the grid: X, Y and the output are at row block t, column block 0; the
    weights and the bias row are at block (0, 0). -/
theorem rve_block_index3 : ∀ t : Fin cfg3.N,
      win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- Window 0's block at point t holds rows 8000·t … of its array, all 64 columns. -/
theorem rve_window3_0 (c : Dev nD) (t : Fin cfg3.N) (x : S8000x64.Idx) (i : S800000x64.Idx)
    (h0 : (i 0).val = t.val * 8000 + (x 0).val) (h1 : (i 1).val = (x 1).val) :
    iblk3 V c 0 t x = V c (Pipeline.arrRef spec3 0) i := by
  obtain ⟨e00, e01, e10, e11, e20, e21, e30, e31, e40, e41⟩ := rve_block_index3 t
  show V c (Pipeline.arrRef spec3 0) (((cfg3.win 0).blk t).view.emb x) = V c (Pipeline.arrRef spec3 0) i
  congr 1
  funext a; apply Fin.ext
  match a with
  | ⟨0, _⟩ => show win3_0.index t (0 : Fin 2) * 8000 + 1 * (x 0).val = (i 0).val; omega
  | ⟨1, _⟩ => show win3_0.index t (1 : Fin 2) * 64 + 1 * (x 1).val = (i 1).val; omega

/-- Window 1's block at point t holds rows 8000·t … of its array, all 64 columns. -/
theorem rve_window3_1 (c : Dev nD) (t : Fin cfg3.N) (x : S8000x64.Idx) (i : S800000x64.Idx)
    (h0 : (i 0).val = t.val * 8000 + (x 0).val) (h1 : (i 1).val = (x 1).val) :
    iblk3 V c 1 t x = V c (Pipeline.arrRef spec3 1) i := by
  obtain ⟨e00, e01, e10, e11, e20, e21, e30, e31, e40, e41⟩ := rve_block_index3 t
  show V c (Pipeline.arrRef spec3 1) (((cfg3.win 1).blk t).view.emb x) = V c (Pipeline.arrRef spec3 1) i
  congr 1
  funext a; apply Fin.ext
  match a with
  | ⟨0, _⟩ => show win3_1.index t (0 : Fin 2) * 8000 + 1 * (x 0).val = (i 0).val; omega
  | ⟨1, _⟩ => show win3_1.index t (1 : Fin 2) * 64 + 1 * (x 1).val = (i 1).val; omega

/-- Window 2's block at every point is its whole array (the weights). -/
theorem rve_window3_2 (c : Dev nD) (t : Fin cfg3.N) (x : S64x32.Idx) :
    iblk3 V c 2 t x = V c (Pipeline.arrRef spec3 2) x := by
  obtain ⟨e00, e01, e10, e11, e20, e21, e30, e31, e40, e41⟩ := rve_block_index3 t
  show V c (Pipeline.arrRef spec3 2) (((cfg3.win 2).blk t).view.emb x) = V c (Pipeline.arrRef spec3 2) x
  congr 1
  funext a; apply Fin.ext
  match a with
  | ⟨0, _⟩ => show win3_2.index t (0 : Fin 2) * 64 + 1 * (x 0).val = (x 0).val; omega
  | ⟨1, _⟩ => show win3_2.index t (1 : Fin 2) * 32 + 1 * (x 1).val = (x 1).val; omega

/-- Window 3's block at every point is its whole array (the bias row). -/
theorem rve_window3_3 (c : Dev nD) (t : Fin cfg3.N) (x : S1x32.Idx) :
    iblk3 V c 3 t x = V c (Pipeline.arrRef spec3 3) x := by
  obtain ⟨e00, e01, e10, e11, e20, e21, e30, e31, e40, e41⟩ := rve_block_index3 t
  show V c (Pipeline.arrRef spec3 3) (((cfg3.win 3).blk t).view.emb x) = V c (Pipeline.arrRef spec3 3) x
  congr 1
  funext a; apply Fin.ext
  match a with
  | ⟨0, _⟩ => show win3_3.index t (0 : Fin 2) * 1 + 1 * (x 0).val = (x 0).val; omega
  | ⟨1, _⟩ => show win3_3.index t (1 : Fin 2) * 32 + 1 * (x 1).val = (x 1).val; omega

/-- One entry of what point t stores: entry y of its block is the layer's entry at row 8000·t + (row of y). -/
theorem rve_entry3 (c : Dev nD) (t : Fin cfg3.N) (y : S8000x32.Idx) (i : S800000x32.Idx)
    (h0 : (i 0).val = t.val * 8000 + (y 0).val) (h1 : (i 1).val = (y 1).val) :
    k3_pay1 (iblk3 V c 0 t) (iblk3 V c 1 t) (iblk3 V c 2 t) (iblk3 V c 3 t) y
      = rve_layer3 (V c (Pipeline.arrRef spec3 0)) (V c (Pipeline.arrRef spec3 1))
          (V c (Pipeline.arrRef spec3 2)) (V c (Pipeline.arrRef spec3 3)) i := by
  obtain ⟨p, q, rfl⟩ : ∃ (p : Fin 8000) (q : Fin 32), y = ix2 p q := ⟨y 0, y 1, eq_ix2 y⟩
  have hq : (i 1 : Fin 32) = q := Fin.ext h1
  refine (rve_pay3 (iblk3 V c 0 t) (iblk3 V c 1 t) (iblk3 V c 2 t) (iblk3 V c 3 t) p q).trans ?_
  unfold rve_layer3
  rw [hq]
  refine congrArg Ideal.logistic (congrArg₂ (· + ·) (Finset.sum_congr rfl fun k _ => ?_) ?_)
  · exact congrArg₂ (· * ·)
      (congrArg₂ (· + ·) (rve_window3_0 V c t (ix2 p k) (ix2 (i 0) k) h0 rfl) (rve_window3_1 V c t (ix2 p k) (ix2 (i 0) k) h0 rfl))
      (rve_window3_2 V c t (ix2 k q))
  · exact rve_window3_3 V c t (ix2 0 q)

/-- The block that point t writes back is block t of the layer of the entry arrays. -/
theorem rve_written_back3 (c : Dev nD) (t : Fin cfg3.N) :
    (dat3 (F := Ideal) V c).flushed 4 t
      = ((cfg3.win 4).blk t).view.read (Elt Ideal)
          (rve_layer3 (V c (Pipeline.arrRef spec3 0)) (V c (Pipeline.arrRef spec3 1))
            (V c (Pipeline.arrRef spec3 2)) (V c (Pipeline.arrRef spec3 3))) := by
  show (cfg3.win 4).cut (grid3.coords t) ((dat3 V c).after 4 t) = _
  rw [after3_4]
  unfold out3_4
  rw [View.canon_unit_zero rve_zeros3]
  simp only [View.ld_unit_zero (S := S8000x64) rve_zeros3, View.ld_unit_zero (S := S64x32) rve_zeros3,
    View.ld_unit_zero (S := S1x32) rve_zeros3]
  obtain ⟨e00, e01, e10, e11, e20, e21, e30, e31, e40, e41⟩ := rve_block_index3 t
  funext j
  exact rve_entry3 V c t ((cfg3.win 4).xinj (grid3.coords t) j) (((cfg3.win 4).blk t).view.emb j)
    (by show win3_4.index t (0 : Fin 2) * 8000 + 1 * (j 0).val = t.val * 8000 + (j 0).val; omega)
    (by show win3_4.index t (1 : Fin 2) * 32 + 1 * (j 1).val = (j 1).val; omega)

/-- An index of the output array is in point t's block iff each coordinate is in the block's range on its axis. -/
theorem rve_in_block_iff3 (t : Fin cfg3.N) (i : S800000x32.Idx) :
    i ∈ ((cfg3.win 4).blk t).view.set
      ↔ ∀ a : Fin 2, win3_4.index t a * S8000x32.size a ≤ (i a).val ∧ (i a).val < win3_4.index t a * S8000x32.size a + S8000x32.size a := by
  show i ∈ ((View.whole main_v55).slice (win3_4.rect t)).set ↔ _
  rw [View.set_slice_whole, Rect.mem_set_unit]
  exact Iff.rfl

/-- The blocks tile the output: row r is in the block of point r / 8000. -/
theorem rve_tiles3 (i : S800000x32.Idx) :
    ∃ t : Fin cfg3.N, (cfg3.win 4).flush t = true ∧ i ∈ ((cfg3.win 4).blk t).view.set := by
  have hi0 : (i 0).val < 800000 := (i 0).isLt
  have hi1 : (i 1).val < 32 := (i 1).isLt
  have hN : cfg3.N = 100 := N_3
  have ht : (i 0).val / 8000 < cfg3.N := by rw [hN]; omega
  obtain ⟨e00, e01, e10, e11, e20, e21, e30, e31, e40, e41⟩ := rve_block_index3 ⟨(i 0).val / 8000, ht⟩
  refine ⟨⟨(i 0).val / 8000, ht⟩, flush3_4 _, ?_⟩
  rw [rve_in_block_iff3]
  intro a
  match a with
  | ⟨0, _⟩ =>
    show win3_4.index ⟨(i 0).val / 8000, ht⟩ (0 : Fin 2) * 8000 ≤ (i 0).val
      ∧ (i 0).val < win3_4.index ⟨(i 0).val / 8000, ht⟩ (0 : Fin 2) * 8000 + 8000
    rw [e40]
    show (i 0).val / 8000 * 8000 ≤ (i 0).val ∧ (i 0).val < (i 0).val / 8000 * 8000 + 8000
    omega
  | ⟨1, _⟩ =>
    show win3_4.index ⟨(i 0).val / 8000, ht⟩ (1 : Fin 2) * 32 ≤ (i 1).val
      ∧ (i 1).val < win3_4.index ⟨(i 0).val / 8000, ht⟩ (1 : Fin 2) * 32 + 32
    omega

/-- After the region the output array is the layer of the entry arrays. -/
theorem rve_output3 (c : Dev nD) :
    (dat3 (F := Ideal) V c).arrAt 4 cfg3.N
      = rve_layer3 (V c (Pipeline.arrRef spec3 0)) (V c (Pipeline.arrRef spec3 1))
          (V c (Pipeline.arrRef spec3 2)) (V c (Pipeline.arrRef spec3 3)) :=
  (dat3 (F := Ideal) V c).arrAt_eq_of_cover 4 _ (fun t _ => rve_written_back3 V c t) rve_tiles3

/-- Region 3, read by row and column: the output array is the layer  logistic ((X + Y) · W + b)  of the entry arrays. -/
theorem rve_region3 (c : Dev nD) :
    cur2 ((dat3 (F := Ideal) V c).arrAt 4 cfg3.N)
      = denseA (cur2 (V c (Pipeline.arrRef spec3 0))) (cur2 (V c (Pipeline.arrRef spec3 1)))
          (cur2 (V c (Pipeline.arrRef spec3 2))) (fun q => V c (Pipeline.arrRef spec3 3) (ix2 0 q)) :=
  (congrArg (cur2 (m := 800000) (n := 32)) (rve_output3 V c)).trans rfl

end Cert.RegionVal

end
-- ==== Proof.RegionValE6.lean ====
import proofs.«157600_j9852654977700_1_alg».proof.Proof.Gen.KernelIdeal.Frame
import proofs.«157600_j9852654977700_1_alg».proof.Proof.Spec
import proofs.«157600_j9852654977700_1_alg».proof.Proof.LibDense
import proofs.«157600_j9852654977700_1_alg».proof.Proof.RegionValE_Lib
import Idealize.ShloMosaic.Lib.Pipeline.Value
import Idealize.ShloMosaic.Lib.ValueIdx

set_option maxRecDepth 16384
set_option Elab.async false

noncomputable section

open scoped BigOperators

namespace Cert.RegionVal

open Idealize.ShloMosaic Idealize.ShloMosaic.ValueIdx Idealize.ShloMosaic.TcCoe
open Idealize.ShloMosaic.Pipeline (Dat Cfg Window)
open Cert.KernelIdeal Cert.KernelIdeal.Gen Cert.Spec

/-! # Region 6: the layer  logistic ((X + Y) · W + b)  on 800000 rows, 8000 rows per grid point

Windows 0 and 1 (X and Y, 800000×32) and the output window 4 (800000×1) move together: point t holds rows
8000·t … 8000·t + 7999. Windows 2 and 3 (W, 32×1, and the bias row, 1×1) are whole at every point. So the block
point t writes back is rows 8000·t … of the layer of the entry arrays, and the 100 blocks tile the output. -/

variable (V : (c : Dev nD) → (b : Ref sig .tc) → Buf (Elt Ideal) ((c : Thread nD τ).loc b))

theorem rve_zeros6 : (![0, 0] : Fin 2 → Nat) = fun _ => 0 := funext fun a => by fin_cases a <;> rfl

/-- The body's product record is the plain product of one 8000×32 block by the 32×1 weights. -/
theorem rve_plain6 : Cert.LibDense.PlainDot dot_S8000x32_S32x1_S8000x1_1_0_0_1_n_n :=
  ⟨rfl, rfl, fun _ _ => rfl, fun _ _ => rfl, fun _ _ => rfl, fun _ _ => rfl⟩

/-- Entry (p, q) of the block the body stores, from the blocks it loaded. -/
theorem rve_pay6 (x0 x1 : Vec Ideal S8000x32 .f32) (x2 : Vec Ideal S32x1 .f32) (x3 : Vec Ideal S1x1 .f32)
    (p : Fin 8000) (q : Fin 1) :
    k6_pay1 x0 x1 x2 x3 (ix2 p q)
      = Ideal.logistic ((∑ k : Fin 32, (x0 (ix2 p k) + x1 (ix2 p k)) * x2 (ix2 k q)) + x3 (ix2 0 q)) := by
  unfold k6_pay1
  exact rve_denseA_entry rve_plain6 x0 x1 x2 x3 _ _ _ _ p q

/-- The layer of four whole arrays, as an array: entry (r, q) is
    logistic (∑ₖ (X (r, k) + Y (r, k)) · W (k, q) + b (0, q)). -/
def rve_layer6 (X Y : S800000x32.Idx → EReal) (W : S32x1.Idx → EReal) (b : S1x1.Idx → EReal) : S800000x1.Idx → EReal :=
  fun i => Ideal.logistic ((∑ k : Fin 32, (X (ix2 (i 0) k) + Y (ix2 (i 0) k)) * W (ix2 k (i 1))) + b (ix2 0 (i 1)))

/-- The printed index maps, decided over the grid: X, Y and the output are at row block t, column block 0; the
    weights and the bias row are at block (0, 0). -/
theorem rve_block_index6 : ∀ t : Fin cfg6.N,
      win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = t.val ∧ win6_4.index t (1 : Fin 2) = 0 :=
  (by decide +kernel : ∀ t : Fin grid6.N, _)

/-- Window 0's block at point t holds rows 8000·t … of its array, all 32 columns. -/
theorem rve_window6_0 (c : Dev nD) (t : Fin cfg6.N) (x : S8000x32.Idx) (i : S800000x32.Idx)
    (h0 : (i 0).val = t.val * 8000 + (x 0).val) (h1 : (i 1).val = (x 1).val) :
    iblk6 V c 0 t x = V c (Pipeline.arrRef spec6 0) i := by
  obtain ⟨e00, e01, e10, e11, e20, e21, e30, e31, e40, e41⟩ := rve_block_index6 t
  show V c (Pipeline.arrRef spec6 0) (((cfg6.win 0).blk t).view.emb x) = V c (Pipeline.arrRef spec6 0) i
  congr 1
  funext a; apply Fin.ext
  match a with
  | ⟨0, _⟩ => show win6_0.index t (0 : Fin 2) * 8000 + 1 * (x 0).val = (i 0).val; omega
  | ⟨1, _⟩ => show win6_0.index t (1 : Fin 2) * 32 + 1 * (x 1).val = (i 1).val; omega

/-- Window 1's block at point t holds rows 8000·t … of its array, all 32 columns. -/
theorem rve_window6_1 (c : Dev nD) (t : Fin cfg6.N) (x : S8000x32.Idx) (i : S800000x32.Idx)
    (h0 : (i 0).val = t.val * 8000 + (x 0).val) (h1 : (i 1).val = (x 1).val) :
    iblk6 V c 1 t x = V c (Pipeline.arrRef spec6 1) i := by
  obtain ⟨e00, e01, e10, e11, e20, e21, e30, e31, e40, e41⟩ := rve_block_index6 t
  show V c (Pipeline.arrRef spec6 1) (((cfg6.win 1).blk t).view.emb x) = V c (Pipeline.arrRef spec6 1) i
  congr 1
  funext a; apply Fin.ext
  match a with
  | ⟨0, _⟩ => show win6_1.index t (0 : Fin 2) * 8000 + 1 * (x 0).val = (i 0).val; omega
  | ⟨1, _⟩ => show win6_1.index t (1 : Fin 2) * 32 + 1 * (x 1).val = (i 1).val; omega

/-- Window 2's block at every point is its whole array (the weights). -/
theorem rve_window6_2 (c : Dev nD) (t : Fin cfg6.N) (x : S32x1.Idx) :
    iblk6 V c 2 t x = V c (Pipeline.arrRef spec6 2) x := by
  obtain ⟨e00, e01, e10, e11, e20, e21, e30, e31, e40, e41⟩ := rve_block_index6 t
  show V c (Pipeline.arrRef spec6 2) (((cfg6.win 2).blk t).view.emb x) = V c (Pipeline.arrRef spec6 2) x
  congr 1
  funext a; apply Fin.ext
  match a with
  | ⟨0, _⟩ => show win6_2.index t (0 : Fin 2) * 32 + 1 * (x 0).val = (x 0).val; omega
  | ⟨1, _⟩ => show win6_2.index t (1 : Fin 2) * 1 + 1 * (x 1).val = (x 1).val; omega

/-- Window 3's block at every point is its whole array (the bias row). -/
theorem rve_window6_3 (c : Dev nD) (t : Fin cfg6.N) (x : S1x1.Idx) :
    iblk6 V c 3 t x = V c (Pipeline.arrRef spec6 3) x := by
  obtain ⟨e00, e01, e10, e11, e20, e21, e30, e31, e40, e41⟩ := rve_block_index6 t
  show V c (Pipeline.arrRef spec6 3) (((cfg6.win 3).blk t).view.emb x) = V c (Pipeline.arrRef spec6 3) x
  congr 1
  funext a; apply Fin.ext
  match a with
  | ⟨0, _⟩ => show win6_3.index t (0 : Fin 2) * 1 + 1 * (x 0).val = (x 0).val; omega
  | ⟨1, _⟩ => show win6_3.index t (1 : Fin 2) * 1 + 1 * (x 1).val = (x 1).val; omega

/-- One entry of what point t stores: entry y of its block is the layer's entry at row 8000·t + (row of y). -/
theorem rve_entry6 (c : Dev nD) (t : Fin cfg6.N) (y : S8000x1.Idx) (i : S800000x1.Idx)
    (h0 : (i 0).val = t.val * 8000 + (y 0).val) (h1 : (i 1).val = (y 1).val) :
    k6_pay1 (iblk6 V c 0 t) (iblk6 V c 1 t) (iblk6 V c 2 t) (iblk6 V c 3 t) y
      = rve_layer6 (V c (Pipeline.arrRef spec6 0)) (V c (Pipeline.arrRef spec6 1))
          (V c (Pipeline.arrRef spec6 2)) (V c (Pipeline.arrRef spec6 3)) i := by
  obtain ⟨p, q, rfl⟩ : ∃ (p : Fin 8000) (q : Fin 1), y = ix2 p q := ⟨y 0, y 1, eq_ix2 y⟩
  have hq : (i 1 : Fin 1) = q := Fin.ext h1
  refine (rve_pay6 (iblk6 V c 0 t) (iblk6 V c 1 t) (iblk6 V c 2 t) (iblk6 V c 3 t) p q).trans ?_
  unfold rve_layer6
  rw [hq]
  refine congrArg Ideal.logistic (congrArg₂ (· + ·) (Finset.sum_congr rfl fun k _ => ?_) ?_)
  · exact congrArg₂ (· * ·)
      (congrArg₂ (· + ·) (rve_window6_0 V c t (ix2 p k) (ix2 (i 0) k) h0 rfl) (rve_window6_1 V c t (ix2 p k) (ix2 (i 0) k) h0 rfl))
      (rve_window6_2 V c t (ix2 k q))
  · exact rve_window6_3 V c t (ix2 0 q)

/-- The block that point t writes back is block t of the layer of the entry arrays. -/
theorem rve_written_back6 (c : Dev nD) (t : Fin cfg6.N) :
    (dat6 (F := Ideal) V c).flushed 4 t
      = ((cfg6.win 4).blk t).view.read (Elt Ideal)
          (rve_layer6 (V c (Pipeline.arrRef spec6 0)) (V c (Pipeline.arrRef spec6 1))
            (V c (Pipeline.arrRef spec6 2)) (V c (Pipeline.arrRef spec6 3))) := by
  show (cfg6.win 4).cut (grid6.coords t) ((dat6 V c).after 4 t) = _
  rw [after6_4]
  unfold out6_4
  rw [View.canon_unit_zero rve_zeros6]
  simp only [View.ld_unit_zero (S := S8000x32) rve_zeros6, View.ld_unit_zero (S := S32x1) rve_zeros6,
    View.ld_unit_zero (S := S1x1) rve_zeros6]
  obtain ⟨e00, e01, e10, e11, e20, e21, e30, e31, e40, e41⟩ := rve_block_index6 t
  funext j
  exact rve_entry6 V c t ((cfg6.win 4).xinj (grid6.coords t) j) (((cfg6.win 4).blk t).view.emb j)
    (by show win6_4.index t (0 : Fin 2) * 8000 + 1 * (j 0).val = t.val * 8000 + (j 0).val; omega)
    (by show win6_4.index t (1 : Fin 2) * 1 + 1 * (j 1).val = (j 1).val; omega)

/-- An index of the output array is in point t's block iff each coordinate is in the block's range on its axis. -/
theorem rve_in_block_iff6 (t : Fin cfg6.N) (i : S800000x1.Idx) :
    i ∈ ((cfg6.win 4).blk t).view.set
      ↔ ∀ a : Fin 2, win6_4.index t a * S8000x1.size a ≤ (i a).val ∧ (i a).val < win6_4.index t a * S8000x1.size a + S8000x1.size a := by
  show i ∈ ((View.whole main_v85).slice (win6_4.rect t)).set ↔ _
  rw [View.set_slice_whole, Rect.mem_set_unit]
  exact Iff.rfl

/-- The blocks tile the output: row r is in the block of point r / 8000. -/
theorem rve_tiles6 (i : S800000x1.Idx) :
    ∃ t : Fin cfg6.N, (cfg6.win 4).flush t = true ∧ i ∈ ((cfg6.win 4).blk t).view.set := by
  have hi0 : (i 0).val < 800000 := (i 0).isLt
  have hi1 : (i 1).val < 1 := (i 1).isLt
  have hN : cfg6.N = 100 := N_6
  have ht : (i 0).val / 8000 < cfg6.N := by rw [hN]; omega
  obtain ⟨e00, e01, e10, e11, e20, e21, e30, e31, e40, e41⟩ := rve_block_index6 ⟨(i 0).val / 8000, ht⟩
  refine ⟨⟨(i 0).val / 8000, ht⟩, flush6_4 _, ?_⟩
  rw [rve_in_block_iff6]
  intro a
  match a with
  | ⟨0, _⟩ =>
    show win6_4.index ⟨(i 0).val / 8000, ht⟩ (0 : Fin 2) * 8000 ≤ (i 0).val
      ∧ (i 0).val < win6_4.index ⟨(i 0).val / 8000, ht⟩ (0 : Fin 2) * 8000 + 8000
    rw [e40]
    show (i 0).val / 8000 * 8000 ≤ (i 0).val ∧ (i 0).val < (i 0).val / 8000 * 8000 + 8000
    omega
  | ⟨1, _⟩ =>
    show win6_4.index ⟨(i 0).val / 8000, ht⟩ (1 : Fin 2) * 1 ≤ (i 1).val
      ∧ (i 1).val < win6_4.index ⟨(i 0).val / 8000, ht⟩ (1 : Fin 2) * 1 + 1
    omega

/-- After the region the output array is the layer of the entry arrays. -/
theorem rve_output6 (c : Dev nD) :
    (dat6 (F := Ideal) V c).arrAt 4 cfg6.N
      = rve_layer6 (V c (Pipeline.arrRef spec6 0)) (V c (Pipeline.arrRef spec6 1))
          (V c (Pipeline.arrRef spec6 2)) (V c (Pipeline.arrRef spec6 3)) :=
  (dat6 (F := Ideal) V c).arrAt_eq_of_cover 4 _ (fun t _ => rve_written_back6 V c t) rve_tiles6

/-- Region 6, read by row and column: the output array is the layer  logistic ((X + Y) · W + b)  of the entry arrays. -/
theorem rve_region6 (c : Dev nD) :
    cur2 ((dat6 (F := Ideal) V c).arrAt 4 cfg6.N)
      = denseA (cur2 (V c (Pipeline.arrRef spec6 0))) (cur2 (V c (Pipeline.arrRef spec6 1)))
          (cur2 (V c (Pipeline.arrRef spec6 2))) (fun q => V c (Pipeline.arrRef spec6 3) (ix2 0 q)) :=
  (congrArg (cur2 (m := 800000) (n := 1)) (rve_output6 V c)).trans rfl

end Cert.RegionVal

end
-- ==== Proof.RegionValE7.lean ====
import proofs.«157600_j9852654977700_1_alg».proof.Proof.Gen.KernelIdeal.Frame
import proofs.«157600_j9852654977700_1_alg».proof.Proof.Spec
import proofs.«157600_j9852654977700_1_alg».proof.Proof.LibDense
import proofs.«157600_j9852654977700_1_alg».proof.Proof.RegionValE_Lib
import Idealize.ShloMosaic.Lib.Pipeline.Value
import Idealize.ShloMosaic.Lib.ValueIdx

set_option maxRecDepth 16384
set_option Elab.async false

noncomputable section

open scoped BigOperators

namespace Cert.RegionVal

open Idealize.ShloMosaic Idealize.ShloMosaic.ValueIdx Idealize.ShloMosaic.TcCoe
open Idealize.ShloMosaic.Pipeline (Dat Cfg Window)
open Cert.KernelIdeal Cert.KernelIdeal.Gen Cert.Spec

/-! # Region 7: the layer  logistic ((X · W + b) + E)  on 800000 rows, 8000 rows per grid point

Window 0 (X, 800000×32), window 3 (the residual E, 800000×1) and the output window 4 (800000×1) move together: point
t holds rows 8000·t … 8000·t + 7999. Windows 1 and 2 (W, 32×1, and the bias row, 1×1) are whole at every point. So the
block point t writes back is rows 8000·t … of the layer of the entry arrays, and the 100 blocks tile the output. -/

variable (V : (c : Dev nD) → (b : Ref sig .tc) → Buf (Elt Ideal) ((c : Thread nD τ).loc b))

theorem rve_zeros7 : (![0, 0] : Fin 2 → Nat) = fun _ => 0 := funext fun a => by fin_cases a <;> rfl

/-- The body's product record is the plain product of one 8000×32 block by the 32×1 weights. -/
theorem rve_plain7 : Cert.LibDense.PlainDot dot_S8000x32_S32x1_S8000x1_1_0_0_1_n_n :=
  ⟨rfl, rfl, fun _ _ => rfl, fun _ _ => rfl, fun _ _ => rfl, fun _ _ => rfl⟩

/-- Entry (p, q) of the block the body stores, from the blocks it loaded. -/
theorem rve_pay7 (x0 : Vec Ideal S8000x32 .f32) (x1 : Vec Ideal S32x1 .f32) (x2 : Vec Ideal S1x1 .f32) (x3 : Vec Ideal S8000x1 .f32)
    (p : Fin 8000) (q : Fin 1) :
    k7_pay1 x0 x1 x2 x3 (ix2 p q)
      = Ideal.logistic (((∑ k : Fin 32, x0 (ix2 p k) * x1 (ix2 k q)) + x2 (ix2 0 q)) + x3 (ix2 p q)) := by
  unfold k7_pay1
  exact rve_denseB_entry rve_plain7 x0 x1 x2 x3 _ _ _ _ _ p q

/-- The layer of four whole arrays, as an array: entry (r, q) is
    logistic ((∑ₖ X (r, k) · W (k, q) + b (0, q)) + E (r, q)). -/
def rve_layer7 (X : S800000x32.Idx → EReal) (W : S32x1.Idx → EReal) (b : S1x1.Idx → EReal) (E : S800000x1.Idx → EReal) : S800000x1.Idx → EReal :=
  fun i => Ideal.logistic (((∑ k : Fin 32, X (ix2 (i 0) k) * W (ix2 k (i 1))) + b (ix2 0 (i 1))) + E (ix2 (i 0) (i 1)))

/-- The printed index maps, decided over the grid: X, the residual and the output are at row block t, column block 0;
    the weights and the bias row are at block (0, 0). -/
theorem rve_block_index7 : ∀ t : Fin cfg7.N,
      win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0
    ∧ win7_4.index t (0 : Fin 2) = t.val ∧ win7_4.index t (1 : Fin 2) = 0 :=
  (by decide +kernel : ∀ t : Fin grid7.N, _)

/-- Window 0's block at point t holds rows 8000·t … of its array, all 32 columns. -/
theorem rve_window7_0 (c : Dev nD) (t : Fin cfg7.N) (x : S8000x32.Idx) (i : S800000x32.Idx)
    (h0 : (i 0).val = t.val * 8000 + (x 0).val) (h1 : (i 1).val = (x 1).val) :
    iblk7 V c 0 t x = V c (Pipeline.arrRef spec7 0) i := by
  obtain ⟨e00, e01, e10, e11, e20, e21, e30, e31, e40, e41⟩ := rve_block_index7 t
  show V c (Pipeline.arrRef spec7 0) (((cfg7.win 0).blk t).view.emb x) = V c (Pipeline.arrRef spec7 0) i
  congr 1
  funext a; apply Fin.ext
  match a with
  | ⟨0, _⟩ => show win7_0.index t (0 : Fin 2) * 8000 + 1 * (x 0).val = (i 0).val; omega
  | ⟨1, _⟩ => show win7_0.index t (1 : Fin 2) * 32 + 1 * (x 1).val = (i 1).val; omega

/-- Window 1's block at every point is its whole array (the weights). -/
theorem rve_window7_1 (c : Dev nD) (t : Fin cfg7.N) (x : S32x1.Idx) :
    iblk7 V c 1 t x = V c (Pipeline.arrRef spec7 1) x := by
  obtain ⟨e00, e01, e10, e11, e20, e21, e30, e31, e40, e41⟩ := rve_block_index7 t
  show V c (Pipeline.arrRef spec7 1) (((cfg7.win 1).blk t).view.emb x) = V c (Pipeline.arrRef spec7 1) x
  congr 1
  funext a; apply Fin.ext
  match a with
  | ⟨0, _⟩ => show win7_1.index t (0 : Fin 2) * 32 + 1 * (x 0).val = (x 0).val; omega
  | ⟨1, _⟩ => show win7_1.index t (1 : Fin 2) * 1 + 1 * (x 1).val = (x 1).val; omega

/-- Window 2's block at every point is its whole array (the bias row). -/
theorem rve_window7_2 (c : Dev nD) (t : Fin cfg7.N) (x : S1x1.Idx) :
    iblk7 V c 2 t x = V c (Pipeline.arrRef spec7 2) x := by
  obtain ⟨e00, e01, e10, e11, e20, e21, e30, e31, e40, e41⟩ := rve_block_index7 t
  show V c (Pipeline.arrRef spec7 2) (((cfg7.win 2).blk t).view.emb x) = V c (Pipeline.arrRef spec7 2) x
  congr 1
  funext a; apply Fin.ext
  match a with
  | ⟨0, _⟩ => show win7_2.index t (0 : Fin 2) * 1 + 1 * (x 0).val = (x 0).val; omega
  | ⟨1, _⟩ => show win7_2.index t (1 : Fin 2) * 1 + 1 * (x 1).val = (x 1).val; omega

/-- Window 3's block at point t holds rows 8000·t … of its array, all 1 columns. -/
theorem rve_window7_3 (c : Dev nD) (t : Fin cfg7.N) (x : S8000x1.Idx) (i : S800000x1.Idx)
    (h0 : (i 0).val = t.val * 8000 + (x 0).val) (h1 : (i 1).val = (x 1).val) :
    iblk7 V c 3 t x = V c (Pipeline.arrRef spec7 3) i := by
  obtain ⟨e00, e01, e10, e11, e20, e21, e30, e31, e40, e41⟩ := rve_block_index7 t
  show V c (Pipeline.arrRef spec7 3) (((cfg7.win 3).blk t).view.emb x) = V c (Pipeline.arrRef spec7 3) i
  congr 1
  funext a; apply Fin.ext
  match a with
  | ⟨0, _⟩ => show win7_3.index t (0 : Fin 2) * 8000 + 1 * (x 0).val = (i 0).val; omega
  | ⟨1, _⟩ => show win7_3.index t (1 : Fin 2) * 1 + 1 * (x 1).val = (i 1).val; omega

/-- One entry of what point t stores: entry y of its block is the layer's entry at row 8000·t + (row of y). -/
theorem rve_entry7 (c : Dev nD) (t : Fin cfg7.N) (y : S8000x1.Idx) (i : S800000x1.Idx)
    (h0 : (i 0).val = t.val * 8000 + (y 0).val) (h1 : (i 1).val = (y 1).val) :
    k7_pay1 (iblk7 V c 0 t) (iblk7 V c 1 t) (iblk7 V c 2 t) (iblk7 V c 3 t) y
      = rve_layer7 (V c (Pipeline.arrRef spec7 0)) (V c (Pipeline.arrRef spec7 1))
          (V c (Pipeline.arrRef spec7 2)) (V c (Pipeline.arrRef spec7 3)) i := by
  obtain ⟨p, q, rfl⟩ : ∃ (p : Fin 8000) (q : Fin 1), y = ix2 p q := ⟨y 0, y 1, eq_ix2 y⟩
  have hq : (i 1 : Fin 1) = q := Fin.ext h1
  refine (rve_pay7 (iblk7 V c 0 t) (iblk7 V c 1 t) (iblk7 V c 2 t) (iblk7 V c 3 t) p q).trans ?_
  unfold rve_layer7
  rw [hq]
  refine congrArg Ideal.logistic (congrArg₂ (· + ·) (congrArg₂ (· + ·) (Finset.sum_congr rfl fun k _ => ?_) ?_) ?_)
  · exact congrArg₂ (· * ·) (rve_window7_0 V c t (ix2 p k) (ix2 (i 0) k) h0 rfl) (rve_window7_1 V c t (ix2 k q))
  · exact rve_window7_2 V c t (ix2 0 q)
  · exact rve_window7_3 V c t (ix2 p q) (ix2 (i 0) q) h0 rfl

/-- The block that point t writes back is block t of the layer of the entry arrays. -/
theorem rve_written_back7 (c : Dev nD) (t : Fin cfg7.N) :
    (dat7 (F := Ideal) V c).flushed 4 t
      = ((cfg7.win 4).blk t).view.read (Elt Ideal)
          (rve_layer7 (V c (Pipeline.arrRef spec7 0)) (V c (Pipeline.arrRef spec7 1))
            (V c (Pipeline.arrRef spec7 2)) (V c (Pipeline.arrRef spec7 3))) := by
  show (cfg7.win 4).cut (grid7.coords t) ((dat7 V c).after 4 t) = _
  rw [after7_4]
  unfold out7_4
  rw [View.canon_unit_zero rve_zeros7]
  simp only [View.ld_unit_zero (S := S8000x32) rve_zeros7, View.ld_unit_zero (S := S32x1) rve_zeros7,
    View.ld_unit_zero (S := S1x1) rve_zeros7, View.ld_unit_zero (S := S8000x1) rve_zeros7]
  obtain ⟨e00, e01, e10, e11, e20, e21, e30, e31, e40, e41⟩ := rve_block_index7 t
  funext j
  exact rve_entry7 V c t ((cfg7.win 4).xinj (grid7.coords t) j) (((cfg7.win 4).blk t).view.emb j)
    (by show win7_4.index t (0 : Fin 2) * 8000 + 1 * (j 0).val = t.val * 8000 + (j 0).val; omega)
    (by show win7_4.index t (1 : Fin 2) * 1 + 1 * (j 1).val = (j 1).val; omega)

/-- An index of the output array is in point t's block iff each coordinate is in the block's range on its axis. -/
theorem rve_in_block_iff7 (t : Fin cfg7.N) (i : S800000x1.Idx) :
    i ∈ ((cfg7.win 4).blk t).view.set
      ↔ ∀ a : Fin 2, win7_4.index t a * S8000x1.size a ≤ (i a).val ∧ (i a).val < win7_4.index t a * S8000x1.size a + S8000x1.size a := by
  show i ∈ ((View.whole main_v87).slice (win7_4.rect t)).set ↔ _
  rw [View.set_slice_whole, Rect.mem_set_unit]
  exact Iff.rfl

/-- The blocks tile the output: row r is in the block of point r / 8000. -/
theorem rve_tiles7 (i : S800000x1.Idx) :
    ∃ t : Fin cfg7.N, (cfg7.win 4).flush t = true ∧ i ∈ ((cfg7.win 4).blk t).view.set := by
  have hi0 : (i 0).val < 800000 := (i 0).isLt
  have hi1 : (i 1).val < 1 := (i 1).isLt
  have hN : cfg7.N = 100 := N_7
  have ht : (i 0).val / 8000 < cfg7.N := by rw [hN]; omega
  obtain ⟨e00, e01, e10, e11, e20, e21, e30, e31, e40, e41⟩ := rve_block_index7 ⟨(i 0).val / 8000, ht⟩
  refine ⟨⟨(i 0).val / 8000, ht⟩, flush7_4 _, ?_⟩
  rw [rve_in_block_iff7]
  intro a
  match a with
  | ⟨0, _⟩ =>
    show win7_4.index ⟨(i 0).val / 8000, ht⟩ (0 : Fin 2) * 8000 ≤ (i 0).val
      ∧ (i 0).val < win7_4.index ⟨(i 0).val / 8000, ht⟩ (0 : Fin 2) * 8000 + 8000
    rw [e40]
    show (i 0).val / 8000 * 8000 ≤ (i 0).val ∧ (i 0).val < (i 0).val / 8000 * 8000 + 8000
    omega
  | ⟨1, _⟩ =>
    show win7_4.index ⟨(i 0).val / 8000, ht⟩ (1 : Fin 2) * 1 ≤ (i 1).val
      ∧ (i 1).val < win7_4.index ⟨(i 0).val / 8000, ht⟩ (1 : Fin 2) * 1 + 1
    omega

/-- After the region the output array is the layer of the entry arrays. -/
theorem rve_output7 (c : Dev nD) :
    (dat7 (F := Ideal) V c).arrAt 4 cfg7.N
      = rve_layer7 (V c (Pipeline.arrRef spec7 0)) (V c (Pipeline.arrRef spec7 1))
          (V c (Pipeline.arrRef spec7 2)) (V c (Pipeline.arrRef spec7 3)) :=
  (dat7 (F := Ideal) V c).arrAt_eq_of_cover 4 _ (fun t _ => rve_written_back7 V c t) rve_tiles7

/-- Region 7, read by row and column: the output array is the layer  logistic ((X · W + b) + E)  of the entry arrays. -/
theorem rve_region7 (c : Dev nD) :
    cur2 ((dat7 (F := Ideal) V c).arrAt 4 cfg7.N)
      = denseB (cur2 (V c (Pipeline.arrRef spec7 0))) (cur2 (V c (Pipeline.arrRef spec7 1)))
          (fun q => V c (Pipeline.arrRef spec7 2) (ix2 0 q)) (cur2 (V c (Pipeline.arrRef spec7 3))) :=
  (congrArg (cur2 (m := 800000) (n := 1)) (rve_output7 V c)).trans rfl

end Cert.RegionVal

end
-- ==== Proof.RegionValE.lean ====
/-
  The values of regions 1, 3, 6 and 7 of the idealized kernel, gathered: after each region its output array is the
  dense layer (Spec) of the arrays the region was entered with.
-/
import proofs.«157600_j9852654977700_1_alg».proof.Proof.RegionValE1
import proofs.«157600_j9852654977700_1_alg».proof.Proof.RegionValE3
import proofs.«157600_j9852654977700_1_alg».proof.Proof.RegionValE6
import proofs.«157600_j9852654977700_1_alg».proof.Proof.RegionValE7
-- ==== Proof.RefLayersLib.lean ====
/-
  The two dense layers as a host program spells them, read by row and column, for any extents M, K, N.

  The host program writes a dense layer as: a matrix product (`dot_general`), the bias laid first as the one row of
  a 1×N array and then down the M rows, an addition, and the logistic written out as 1 / (1 + exp (-z)) with both
  ones a scalar constant broadcast to the whole array. Read at the entry (i, j):

  * the product is ∑ₖ L (i, k) · R (k, j) (`LibDense.dotGeneral_plain`);
  * the twice-broadcast bias is b j (`rl_bcast_row`, then the library's one-row broadcast);
  * the written-out logistic of z is `Ideal.logistic` of z's entry, by unfolding (`rl_logistic_apply`).

  So the layer on the sum of two inputs is `Spec.denseA` and the layer with a residual is `Spec.denseB`. Nothing here
  asks for finiteness: no law of arithmetic is used, only the reading of each operation at an index.
-/
import proofs.«157600_j9852654977700_1_alg».proof.Proof.Spec
import proofs.«157600_j9852654977700_1_alg».proof.Proof.LibDense
import Idealize.ShloMosaic.Lib.IdealHost
import Idealize.ShloMosaic.Lib.KernelVsHost

noncomputable section

open scoped BigOperators

namespace Cert.RefLayers

open Idealize.ShloMosaic Idealize.ShloMosaic.ValueIdx Cert.Spec Cert.LibDense

/-- A vector of N entries laid as the one row of a 1×N array: the entry (0, t) is the vector's entry t. -/
theorem rl_bcast_row {α : Type} {N : Nat} (h : (⟨1, ![N]⟩ : Shape).BroadcastsInDim ⟨2, ![1, N]⟩ ![1])
    (b : (⟨1, ![N]⟩ : Shape).Idx → α) (t : Fin N) :
    broadcastInDim ⟨2, ![1, N]⟩ ![1] h b (ix2 (0 : Fin 1) t) = b (ix1 t) := by
  refine broadcastInDim_apply ![1] h b (ix2 (0 : Fin 1) t) (ix1 t) ?_
  intro a
  match a with
  | ⟨0, _⟩ =>
    show t.val = if N = 1 then 0 else t.val
    split
    · have := t.isLt; omega
    · rfl

/-- The bias laid as one row and then down the M rows: the entry (i, j) is the bias's entry j. -/
theorem rl_bias_apply {α : Type} {M N : Nat} (h1 : (⟨1, ![N]⟩ : Shape).BroadcastsInDim ⟨2, ![1, N]⟩ ![1])
    (h2 : (⟨2, ![1, N]⟩ : Shape).BroadcastsInDim ⟨2, ![M, N]⟩ ![0, 1]) (b : (⟨1, ![N]⟩ : Shape).Idx → α)
    (i : Fin M) (j : Fin N) :
    broadcastInDim ⟨2, ![M, N]⟩ ![0, 1] h2 (broadcastInDim ⟨2, ![1, N]⟩ ![1] h1 b) (ix2 i j) = b (ix1 j) :=
  (broadcastInDim_oneRow_apply h2 _ i j).trans (rl_bcast_row h1 b j)

/-- The logistic written out as 1 / (1 + exp (-z)), both ones the f32 pattern of one broadcast from a scalar, read at
    an index: it is the logistic of z's entry there (`Ideal.logistic x` is `div 1 (1 + exp (-x))` by definition). -/
theorem rl_logistic_apply {S : Shape} (h0 : (⟨0, ![]⟩ : Shape).BroadcastsInDim S ![]) (z : FVec Ideal S .f32) (i : S.Idx) :
    Host.divf (broadcastInDim S ![] h0 (constant (F := Ideal) ⟨0, ![]⟩ .f32 0x3F800000#32))
        (addf (broadcastInDim S ![] h0 (constant (F := Ideal) ⟨0, ![]⟩ .f32 0x3F800000#32)) (Host.exp (Host.negf z))) i
      = Ideal.logistic (z i) := by
  rw [hostDivf_apply, addf_apply, broadcastInDim_scalar_apply, constant_apply, Ideal.ofBits_one_f32]
  rfl

variable {M K N : Nat} {d : DotDims (⟨2, ![M, K]⟩ : Shape) (⟨2, ![K, N]⟩ : Shape) (⟨2, ![M, N]⟩ : Shape)}

/-- The host's dense layer on the sum of two inputs, read by row and column, is `denseA`. -/
theorem rl_denseA (hd : PlainDot d)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![])
    (X Y : FVec Ideal ⟨2, ![M, K]⟩ .f32) (W : FVec Ideal ⟨2, ![K, N]⟩ .f32) (b : FVec Ideal ⟨1, ![N]⟩ .f32) :
    cur2 (Host.divf (broadcastInDim ⟨2, ![M, N]⟩ ![] h0 (constant (F := Ideal) ⟨0, ![]⟩ .f32 0x3F800000#32))
        (addf (broadcastInDim ⟨2, ![M, N]⟩ ![] h0 (constant (F := Ideal) ⟨0, ![]⟩ .f32 0x3F800000#32))
          (Host.exp (Host.negf (addf (Host.dotGeneral d none (addf X Y) W)
            (broadcastInDim ⟨2, ![M, N]⟩ ![0, 1] h2 (broadcastInDim ⟨2, ![1, N]⟩ ![1] h1 b)))))))
      = denseA (cur2 X) (cur2 Y) (cur2 W) (cur1 b) := by
  funext i j
  show Host.divf (F := Ideal) (φ := .f32) _ _ (ix2 i j)
      = Ideal.logistic ((∑ k : Fin K, (X (ix2 i k) + Y (ix2 i k)) * W (ix2 k j)) + b (ix1 j))
  rw [rl_logistic_apply, addf_apply, rl_bias_apply]
  exact congrArg (fun s => Ideal.logistic (s + b (ix1 j))) (dotGeneral_plain hd none .single (addf X Y) W (ix2 i j))

/-- The host's dense layer with a residual added before the activation, read by row and column, is `denseB`. -/
theorem rl_denseB (hd : PlainDot d)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![])
    (X : FVec Ideal ⟨2, ![M, K]⟩ .f32) (W : FVec Ideal ⟨2, ![K, N]⟩ .f32) (b : FVec Ideal ⟨1, ![N]⟩ .f32)
    (E : FVec Ideal ⟨2, ![M, N]⟩ .f32) :
    cur2 (Host.divf (broadcastInDim ⟨2, ![M, N]⟩ ![] h0 (constant (F := Ideal) ⟨0, ![]⟩ .f32 0x3F800000#32))
        (addf (broadcastInDim ⟨2, ![M, N]⟩ ![] h0 (constant (F := Ideal) ⟨0, ![]⟩ .f32 0x3F800000#32))
          (Host.exp (Host.negf (addf (addf (Host.dotGeneral d none X W)
            (broadcastInDim ⟨2, ![M, N]⟩ ![0, 1] h2 (broadcastInDim ⟨2, ![1, N]⟩ ![1] h1 b))) E)))))
      = denseB (cur2 X) (cur2 W) (cur1 b) (cur2 E) := by
  funext i j
  show Host.divf (F := Ideal) (φ := .f32) _ _ (ix2 i j)
      = Ideal.logistic (((∑ k : Fin K, X (ix2 i k) * W (ix2 k j)) + b (ix1 j)) + E (ix2 i j))
  rw [rl_logistic_apply, addf_apply, addf_apply, rl_bias_apply]
  exact congrArg (fun s => Ideal.logistic ((s + b (ix1 j)) + E (ix2 i j))) (dotGeneral_plain hd none .single X W (ix2 i j))

end Cert.RefLayers

end
-- ==== Proof.RefLayers.lean ====
/-
  The reference's eight layer functions, at the exact instance, are the dense layers of the Spec read by row and
  column.

  Each of `Net.lay1` … `Net.lay8` is a chain of the same host operations: a matrix product, the bias laid as one
  row and then down the rows, an addition (for `lay5` and `lay8` a second one, of the residual), and the logistic
  written out as 1 / (1 + exp (-z)). That chain, for any extents, is read at an entry in `RefLayersLib`
  (`rl_denseA`, `rl_denseB`); here it is instantiated at each layer's extents. A layer function unfolds to the
  generic chain by definition (its `let`s are the chain's subterms, its shapes the literal extents), and each of the
  reference's product records is a plain M×K by K×N product, its six coordinate facts holding by computation.
-/
import proofs.«157600_j9852654977700_1_alg».proof.Proof.Net
import proofs.«157600_j9852654977700_1_alg».proof.Proof.RefLayersLib

noncomputable section

namespace Cert.RefLayers

open Idealize.ShloMosaic Cert.ReferenceIdeal Cert.ReferenceIdeal.Gen Cert.Spec Cert.LibDense

/-- The reference's product of a 50000×64 by a 64×128 array is a plain one: each coordinate fact holds by computation on the literal record. -/
theorem rl_plain_S50000x64_S64x128_S50000x128 : PlainDot dot_S50000x64_S64x128_S50000x128_1_0_0_1_n_n :=
  ⟨rfl, rfl, fun _ _ => rfl, fun _ _ => rfl, fun _ _ => rfl, fun _ _ => rfl⟩

/-- The reference's product of an 800000×128 by a 128×64 array is a plain one: each coordinate fact holds by computation on the literal record. -/
theorem rl_plain_S800000x128_S128x64_S800000x64 : PlainDot dot_S800000x128_S128x64_S800000x64_1_0_0_1_n_n :=
  ⟨rfl, rfl, fun _ _ => rfl, fun _ _ => rfl, fun _ _ => rfl, fun _ _ => rfl⟩

/-- The reference's product of a 50000×128 by a 128×64 array is a plain one: each coordinate fact holds by computation on the literal record. -/
theorem rl_plain_S50000x128_S128x64_S50000x64 : PlainDot dot_S50000x128_S128x64_S50000x64_1_0_0_1_n_n :=
  ⟨rfl, rfl, fun _ _ => rfl, fun _ _ => rfl, fun _ _ => rfl, fun _ _ => rfl⟩

/-- The reference's product of an 800000×64 by a 64×32 array is a plain one: each coordinate fact holds by computation on the literal record. -/
theorem rl_plain_S800000x64_S64x32_S800000x32 : PlainDot dot_S800000x64_S64x32_S800000x32_1_0_0_1_n_n :=
  ⟨rfl, rfl, fun _ _ => rfl, fun _ _ => rfl, fun _ _ => rfl, fun _ _ => rfl⟩

/-- The reference's product of a 50000×64 by a 64×32 array is a plain one: each coordinate fact holds by computation on the literal record. -/
theorem rl_plain_S50000x64_S64x32_S50000x32 : PlainDot dot_S50000x64_S64x32_S50000x32_1_0_0_1_n_n :=
  ⟨rfl, rfl, fun _ _ => rfl, fun _ _ => rfl, fun _ _ => rfl, fun _ _ => rfl⟩

/-- The reference's product of an 800000×32 by a 32×1 array is a plain one: each coordinate fact holds by computation on the literal record. -/
theorem rl_plain_S800000x32_S32x1_S800000x1 : PlainDot dot_S800000x32_S32x1_S800000x1_1_0_0_1_n_n :=
  ⟨rfl, rfl, fun _ _ => rfl, fun _ _ => rfl, fun _ _ => rfl, fun _ _ => rfl⟩

/-- Node layer 64 → 128: read by row and column it is `denseA`. -/
theorem rl_lay1 (X Y : (⟨S50000x64, .f32⟩ : BufTy).Contents (Elt Ideal)) (W : (⟨S64x128, .f32⟩ : BufTy).Contents (Elt Ideal)) (b : (⟨S128, .f32⟩ : BufTy).Contents (Elt Ideal)) :
    cur2 (Cert.Net.lay1 (F := Ideal) X Y W b) = denseA (cur2 X) (cur2 Y) (cur2 W) (cur1 b) :=
  rl_denseA rl_plain_S50000x64_S64x128_S50000x128 bcast_S128_S1x128_1 bcast_S1x128_S50000x128_0_1 bcast_S_S50000x128 X Y W b

/-- Edge layer 128 → 64: read by row and column it is `denseA`. -/
theorem rl_lay2 (X Y : (⟨S800000x128, .f32⟩ : BufTy).Contents (Elt Ideal)) (W : (⟨S128x64, .f32⟩ : BufTy).Contents (Elt Ideal)) (b : (⟨S64, .f32⟩ : BufTy).Contents (Elt Ideal)) :
    cur2 (Cert.Net.lay2 (F := Ideal) X Y W b) = denseA (cur2 X) (cur2 Y) (cur2 W) (cur1 b) :=
  rl_denseA rl_plain_S800000x128_S128x64_S800000x64 bcast_S64_S1x64_1 bcast_S1x64_S800000x64_0_1 bcast_S_S800000x64 X Y W b

/-- Node layer 128 → 64: read by row and column it is `denseA`. -/
theorem rl_lay3 (X Y : (⟨S50000x128, .f32⟩ : BufTy).Contents (Elt Ideal)) (W : (⟨S128x64, .f32⟩ : BufTy).Contents (Elt Ideal)) (b : (⟨S64, .f32⟩ : BufTy).Contents (Elt Ideal)) :
    cur2 (Cert.Net.lay3 (F := Ideal) X Y W b) = denseA (cur2 X) (cur2 Y) (cur2 W) (cur1 b) :=
  rl_denseA rl_plain_S50000x128_S128x64_S50000x64 bcast_S64_S1x64_1 bcast_S1x64_S50000x64_0_1 bcast_S_S50000x64 X Y W b

/-- Edge layer 64 → 32: read by row and column it is `denseA`. -/
theorem rl_lay4 (X Y : (⟨S800000x64, .f32⟩ : BufTy).Contents (Elt Ideal)) (W : (⟨S64x32, .f32⟩ : BufTy).Contents (Elt Ideal)) (b : (⟨S32, .f32⟩ : BufTy).Contents (Elt Ideal)) :
    cur2 (Cert.Net.lay4 (F := Ideal) X Y W b) = denseA (cur2 X) (cur2 Y) (cur2 W) (cur1 b) :=
  rl_denseA rl_plain_S800000x64_S64x32_S800000x32 bcast_S32_S1x32_1 bcast_S1x32_S800000x32_0_1 bcast_S_S800000x32 X Y W b

/-- Edge layer 64 → 32 with a residual: read by row and column it is `denseB`. -/
theorem rl_lay5 (X : (⟨S800000x64, .f32⟩ : BufTy).Contents (Elt Ideal)) (W : (⟨S64x32, .f32⟩ : BufTy).Contents (Elt Ideal)) (b : (⟨S32, .f32⟩ : BufTy).Contents (Elt Ideal)) (E : (⟨S800000x32, .f32⟩ : BufTy).Contents (Elt Ideal)) :
    cur2 (Cert.Net.lay5 (F := Ideal) X W b E) = denseB (cur2 X) (cur2 W) (cur1 b) (cur2 E) :=
  rl_denseB rl_plain_S800000x64_S64x32_S800000x32 bcast_S32_S1x32_1 bcast_S1x32_S800000x32_0_1 bcast_S_S800000x32 X W b E

/-- Node layer 64 → 32: read by row and column it is `denseA`. -/
theorem rl_lay6 (X Y : (⟨S50000x64, .f32⟩ : BufTy).Contents (Elt Ideal)) (W : (⟨S64x32, .f32⟩ : BufTy).Contents (Elt Ideal)) (b : (⟨S32, .f32⟩ : BufTy).Contents (Elt Ideal)) :
    cur2 (Cert.Net.lay6 (F := Ideal) X Y W b) = denseA (cur2 X) (cur2 Y) (cur2 W) (cur1 b) :=
  rl_denseA rl_plain_S50000x64_S64x32_S50000x32 bcast_S32_S1x32_1 bcast_S1x32_S50000x32_0_1 bcast_S_S50000x32 X Y W b

/-- Edge layer 32 → 1: read by row and column it is `denseA`. -/
theorem rl_lay7 (X Y : (⟨S800000x32, .f32⟩ : BufTy).Contents (Elt Ideal)) (W : (⟨S32x1, .f32⟩ : BufTy).Contents (Elt Ideal)) (b : (⟨S1, .f32⟩ : BufTy).Contents (Elt Ideal)) :
    cur2 (Cert.Net.lay7 (F := Ideal) X Y W b) = denseA (cur2 X) (cur2 Y) (cur2 W) (cur1 b) :=
  rl_denseA rl_plain_S800000x32_S32x1_S800000x1 bcast_S1_S1x1_1 bcast_S1x1_S800000x1_0_1 bcast_S_S800000x1 X Y W b

/-- Edge layer 32 → 1 with a residual: read by row and column it is `denseB`. -/
theorem rl_lay8 (X : (⟨S800000x32, .f32⟩ : BufTy).Contents (Elt Ideal)) (W : (⟨S32x1, .f32⟩ : BufTy).Contents (Elt Ideal)) (b : (⟨S1, .f32⟩ : BufTy).Contents (Elt Ideal)) (E : (⟨S800000x1, .f32⟩ : BufTy).Contents (Elt Ideal)) :
    cur2 (Cert.Net.lay8 (F := Ideal) X W b E) = denseB (cur2 X) (cur2 W) (cur1 b) (cur2 E) :=
  rl_denseB rl_plain_S800000x32_S32x1_S800000x1 bcast_S1_S1x1_1 bcast_S1x1_S800000x1_0_1 bcast_S_S800000x1 X W b E

end Cert.RefLayers

end
-- ==== Proof.RegionEq.lean ====
/-
  Each region of the idealized kernel program, at the exact instance, leaves in its output array the matching
  layer of the network applied to the arrays it finds at its entry. Two readings meet in the shape-free layer
  function: the region's blocks assembled into the array give `denseA` / `denseB` of the entry arrays, with
  the bias read off its [1, N] reshape at row 0; the host program's layer (product, broadcast bias, logistic
  spelt 1 / (1 + exp (-z))) gives the same function of the flat bias. The reshape's row 0 is the flat bias, so
  the two agree entry by entry, hence as arrays.
-/
import proofs.«157600_j9852654977700_1_alg».proof.Proof.RegionValD
import proofs.«157600_j9852654977700_1_alg».proof.Proof.RegionValE
import proofs.«157600_j9852654977700_1_alg».proof.Proof.RefLayers
import proofs.«157600_j9852654977700_1_alg».proof.Proof.HostKReshape

set_option maxRecDepth 16384

noncomputable section

namespace Cert.RegionEq

open Idealize.ShloMosaic Idealize.ShloMosaic.TcCoe Idealize.SL.Sem Cert.KernelIdeal Cert.KernelIdeal.Gen
open Idealize.ShloMosaic.ValueIdx

/-- Region 0: its output array is layer `lay1` of its entry arrays and the flat bias. -/
theorem region0_eq (V : (c : Dev nD) → (b : Ref sig .tc) → Buf (Elt Ideal) ((c : Thread nD τ).loc b)) (c : Dev nD)
    (b : (⟨S128, .f32⟩ : BufTy).Contents (Elt Ideal)) (hb : V c (Pipeline.arrRef spec0 3) = Cert.HostK.rs128 b) :
    (dat0 (F := Ideal) V c).arrAt 4 cfg0.N = Cert.Net.lay1 (F := Ideal) (V c (Pipeline.arrRef spec0 0)) (V c (Pipeline.arrRef spec0 1)) (V c (Pipeline.arrRef spec0 2)) b :=
  Cert.Spec.cur2_inj ((Cert.RegionVal.rvd_region0 V c).trans ((congrArg (Cert.Spec.denseA _ _ _) (funext fun q => (congrFun hb _).trans (Cert.HostK.hk_rs128_apply b q))).trans (Cert.RefLayers.rl_lay1 _ _ _ _).symm))

/-- Region 1: its output array is layer `lay2` of its entry arrays and the flat bias. -/
theorem region1_eq (V : (c : Dev nD) → (b : Ref sig .tc) → Buf (Elt Ideal) ((c : Thread nD τ).loc b)) (c : Dev nD)
    (b : (⟨S64, .f32⟩ : BufTy).Contents (Elt Ideal)) (hb : V c (Pipeline.arrRef spec1 3) = Cert.HostK.rs64 b) :
    (dat1 (F := Ideal) V c).arrAt 4 cfg1.N = Cert.Net.lay2 (F := Ideal) (V c (Pipeline.arrRef spec1 0)) (V c (Pipeline.arrRef spec1 1)) (V c (Pipeline.arrRef spec1 2)) b :=
  Cert.Spec.cur2_inj ((Cert.RegionVal.rve_region1 V c).trans ((congrArg (Cert.Spec.denseA _ _ _) (funext fun q => (congrFun hb _).trans (Cert.HostK.hk_rs64_apply b q))).trans (Cert.RefLayers.rl_lay2 _ _ _ _).symm))

/-- Region 2: its output array is layer `lay3` of its entry arrays and the flat bias. -/
theorem region2_eq (V : (c : Dev nD) → (b : Ref sig .tc) → Buf (Elt Ideal) ((c : Thread nD τ).loc b)) (c : Dev nD)
    (b : (⟨S64, .f32⟩ : BufTy).Contents (Elt Ideal)) (hb : V c (Pipeline.arrRef spec2 3) = Cert.HostK.rs64 b) :
    (dat2 (F := Ideal) V c).arrAt 4 cfg2.N = Cert.Net.lay3 (F := Ideal) (V c (Pipeline.arrRef spec2 0)) (V c (Pipeline.arrRef spec2 1)) (V c (Pipeline.arrRef spec2 2)) b :=
  Cert.Spec.cur2_inj ((Cert.RegionVal.rvd_region2 V c).trans ((congrArg (Cert.Spec.denseA _ _ _) (funext fun q => (congrFun hb _).trans (Cert.HostK.hk_rs64_apply b q))).trans (Cert.RefLayers.rl_lay3 _ _ _ _).symm))

/-- Region 3: its output array is layer `lay4` of its entry arrays and the flat bias. -/
theorem region3_eq (V : (c : Dev nD) → (b : Ref sig .tc) → Buf (Elt Ideal) ((c : Thread nD τ).loc b)) (c : Dev nD)
    (b : (⟨S32, .f32⟩ : BufTy).Contents (Elt Ideal)) (hb : V c (Pipeline.arrRef spec3 3) = Cert.HostK.rs32 b) :
    (dat3 (F := Ideal) V c).arrAt 4 cfg3.N = Cert.Net.lay4 (F := Ideal) (V c (Pipeline.arrRef spec3 0)) (V c (Pipeline.arrRef spec3 1)) (V c (Pipeline.arrRef spec3 2)) b :=
  Cert.Spec.cur2_inj ((Cert.RegionVal.rve_region3 V c).trans ((congrArg (Cert.Spec.denseA _ _ _) (funext fun q => (congrFun hb _).trans (Cert.HostK.hk_rs32_apply b q))).trans (Cert.RefLayers.rl_lay4 _ _ _ _).symm))

/-- Region 4: its output array is layer `lay5` of its entry arrays and the flat bias. -/
theorem region4_eq (V : (c : Dev nD) → (b : Ref sig .tc) → Buf (Elt Ideal) ((c : Thread nD τ).loc b)) (c : Dev nD)
    (b : (⟨S32, .f32⟩ : BufTy).Contents (Elt Ideal)) (hb : V c (Pipeline.arrRef spec4 2) = Cert.HostK.rs32 b) :
    (dat4 (F := Ideal) V c).arrAt 4 cfg4.N = Cert.Net.lay5 (F := Ideal) (V c (Pipeline.arrRef spec4 0)) (V c (Pipeline.arrRef spec4 1)) b (V c (Pipeline.arrRef spec4 3)) :=
  Cert.Spec.cur2_inj ((Cert.RegionVal.rvd_region4 V c).trans ((congrArg (fun bb => Cert.Spec.denseB _ _ bb _) (funext fun q => (congrFun hb _).trans (Cert.HostK.hk_rs32_apply b q))).trans (Cert.RefLayers.rl_lay5 _ _ _ _).symm))

/-- Region 5: its output array is layer `lay6` of its entry arrays and the flat bias. -/
theorem region5_eq (V : (c : Dev nD) → (b : Ref sig .tc) → Buf (Elt Ideal) ((c : Thread nD τ).loc b)) (c : Dev nD)
    (b : (⟨S32, .f32⟩ : BufTy).Contents (Elt Ideal)) (hb : V c (Pipeline.arrRef spec5 3) = Cert.HostK.rs32 b) :
    (dat5 (F := Ideal) V c).arrAt 4 cfg5.N = Cert.Net.lay6 (F := Ideal) (V c (Pipeline.arrRef spec5 0)) (V c (Pipeline.arrRef spec5 1)) (V c (Pipeline.arrRef spec5 2)) b :=
  Cert.Spec.cur2_inj ((Cert.RegionVal.rvd_region5 V c).trans ((congrArg (Cert.Spec.denseA _ _ _) (funext fun q => (congrFun hb _).trans (Cert.HostK.hk_rs32_apply b q))).trans (Cert.RefLayers.rl_lay6 _ _ _ _).symm))

/-- Region 6: its output array is layer `lay7` of its entry arrays and the flat bias. -/
theorem region6_eq (V : (c : Dev nD) → (b : Ref sig .tc) → Buf (Elt Ideal) ((c : Thread nD τ).loc b)) (c : Dev nD)
    (b : (⟨S1, .f32⟩ : BufTy).Contents (Elt Ideal)) (hb : V c (Pipeline.arrRef spec6 3) = Cert.HostK.rs1 b) :
    (dat6 (F := Ideal) V c).arrAt 4 cfg6.N = Cert.Net.lay7 (F := Ideal) (V c (Pipeline.arrRef spec6 0)) (V c (Pipeline.arrRef spec6 1)) (V c (Pipeline.arrRef spec6 2)) b :=
  Cert.Spec.cur2_inj ((Cert.RegionVal.rve_region6 V c).trans ((congrArg (Cert.Spec.denseA _ _ _) (funext fun q => (congrFun hb _).trans (Cert.HostK.hk_rs1_apply b q))).trans (Cert.RefLayers.rl_lay7 _ _ _ _).symm))

/-- Region 7: its output array is layer `lay8` of its entry arrays and the flat bias. -/
theorem region7_eq (V : (c : Dev nD) → (b : Ref sig .tc) → Buf (Elt Ideal) ((c : Thread nD τ).loc b)) (c : Dev nD)
    (b : (⟨S1, .f32⟩ : BufTy).Contents (Elt Ideal)) (hb : V c (Pipeline.arrRef spec7 2) = Cert.HostK.rs1 b) :
    (dat7 (F := Ideal) V c).arrAt 4 cfg7.N = Cert.Net.lay8 (F := Ideal) (V c (Pipeline.arrRef spec7 0)) (V c (Pipeline.arrRef spec7 1)) b (V c (Pipeline.arrRef spec7 3)) :=
  Cert.Spec.cur2_inj ((Cert.RegionVal.rve_region7 V c).trans ((congrArg (fun bb => Cert.Spec.denseB _ _ bb _) (funext fun q => (congrFun hb _).trans (Cert.HostK.hk_rs1_apply b q))).trans (Cert.RefLayers.rl_lay8 _ _ _ _).symm))

end Cert.RegionEq

end
-- ==== Proof.KernelChain.lean ====
/-
  The idealized kernel program's result, read off the fold of its segments at the exact instance.

  `W0 … W16` are the buffer contents at the seventeen segment boundaries: a host stretch applies its operations, a
  region replaces its output array by what its write-backs leave and keeps every other buffer. Walking the fold
  forward, each live buffer at each boundary is a closed term of the launch arguments `A0 … A18`: a host
  stretch's gather / neighbour sum / bias reshape of terms already known, a region's layer of its entry arrays
  (Proof/RegionEq.lean), or a buffer carried over unchanged because the segment does not write it. The terms
  `T_v9 … T_v87` name the intermediate arrays (neighbour sums, gathered rows, the eight layers' outputs); the last
  one, the result buffer at the last boundary, is `Cert.Net.net` of the arguments by unfolding.
-/
import proofs.«157600_j9852654977700_1_alg».proof.Proof.Gen.KernelIdeal.Frame
import proofs.«157600_j9852654977700_1_alg».proof.Proof.Net
import proofs.«157600_j9852654977700_1_alg».proof.Proof.HostKReshape
import proofs.«157600_j9852654977700_1_alg».proof.Proof.HostKGlue
import proofs.«157600_j9852654977700_1_alg».proof.Proof.RegionEq
set_option maxRecDepth 16384

noncomputable section
namespace Cert.KernelIdeal.Chain

open Idealize.ShloMosaic Idealize.ShloMosaic.TcCoe Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg) (c : Dev nD)

/-- Argument 0 as launched. -/
def A0 : (⟨S50000x64, .f32⟩ : BufTy).Contents (Elt Ideal) := m ((c : Thread nD τ).loc main_arg0)
/-- Argument 1 as launched. -/
def A1 : (⟨S800000, .i32⟩ : BufTy).Contents (Elt Ideal) := m ((c : Thread nD τ).loc main_arg1)
/-- Argument 2 as launched. -/
def A2 : (⟨S800000, .i32⟩ : BufTy).Contents (Elt Ideal) := m ((c : Thread nD τ).loc main_arg2)
/-- Argument 3 as launched. -/
def A3 : (⟨S64x128, .f32⟩ : BufTy).Contents (Elt Ideal) := m ((c : Thread nD τ).loc main_arg3)
/-- Argument 4 as launched. -/
def A4 : (⟨S128, .f32⟩ : BufTy).Contents (Elt Ideal) := m ((c : Thread nD τ).loc main_arg4)
/-- Argument 5 as launched. -/
def A5 : (⟨S128x64, .f32⟩ : BufTy).Contents (Elt Ideal) := m ((c : Thread nD τ).loc main_arg5)
/-- Argument 6 as launched. -/
def A6 : (⟨S64, .f32⟩ : BufTy).Contents (Elt Ideal) := m ((c : Thread nD τ).loc main_arg6)
/-- Argument 7 as launched. -/
def A7 : (⟨S128x64, .f32⟩ : BufTy).Contents (Elt Ideal) := m ((c : Thread nD τ).loc main_arg7)
/-- Argument 8 as launched. -/
def A8 : (⟨S64, .f32⟩ : BufTy).Contents (Elt Ideal) := m ((c : Thread nD τ).loc main_arg8)
/-- Argument 9 as launched. -/
def A9 : (⟨S64x32, .f32⟩ : BufTy).Contents (Elt Ideal) := m ((c : Thread nD τ).loc main_arg9)
/-- Argument 10 as launched. -/
def A10 : (⟨S32, .f32⟩ : BufTy).Contents (Elt Ideal) := m ((c : Thread nD τ).loc main_arg10)
/-- Argument 11 as launched. -/
def A11 : (⟨S64x32, .f32⟩ : BufTy).Contents (Elt Ideal) := m ((c : Thread nD τ).loc main_arg11)
/-- Argument 12 as launched. -/
def A12 : (⟨S32, .f32⟩ : BufTy).Contents (Elt Ideal) := m ((c : Thread nD τ).loc main_arg12)
/-- Argument 13 as launched. -/
def A13 : (⟨S32x1, .f32⟩ : BufTy).Contents (Elt Ideal) := m ((c : Thread nD τ).loc main_arg13)
/-- Argument 14 as launched. -/
def A14 : (⟨S1, .f32⟩ : BufTy).Contents (Elt Ideal) := m ((c : Thread nD τ).loc main_arg14)
/-- Argument 15 as launched. -/
def A15 : (⟨S64x32, .f32⟩ : BufTy).Contents (Elt Ideal) := m ((c : Thread nD τ).loc main_arg15)
/-- Argument 16 as launched. -/
def A16 : (⟨S32, .f32⟩ : BufTy).Contents (Elt Ideal) := m ((c : Thread nD τ).loc main_arg16)
/-- Argument 17 as launched. -/
def A17 : (⟨S32x1, .f32⟩ : BufTy).Contents (Elt Ideal) := m ((c : Thread nD τ).loc main_arg17)
/-- Argument 18 as launched. -/
def A18 : (⟨S1, .f32⟩ : BufTy).Contents (Elt Ideal) := m ((c : Thread nD τ).loc main_arg18)
def T_v9 : (⟨S50000x64, .f32⟩ : BufTy).Contents (Elt Ideal) := Cert.Net.agg64 (A0 m c) (A1 m c) (A2 m c)
def T_v10 : (⟨S1x128, .f32⟩ : BufTy).Contents (Elt Ideal) := Cert.HostK.rs128 (A4 m c)
def T_v11 : (⟨S50000x128, .f32⟩ : BufTy).Contents (Elt Ideal) := Cert.Net.lay1 (A0 m c) (T_v9 m c) (A3 m c) (A4 m c)
def T_v18 : (⟨S800000x128, .f32⟩ : BufTy).Contents (Elt Ideal) := Cert.Net.gat128 (T_v11 m c) (A1 m c)
def T_v25 : (⟨S800000x128, .f32⟩ : BufTy).Contents (Elt Ideal) := Cert.Net.gat128 (T_v11 m c) (A2 m c)
def T_v26 : (⟨S1x64, .f32⟩ : BufTy).Contents (Elt Ideal) := Cert.HostK.rs64 (A6 m c)
def T_v27 : (⟨S800000x64, .f32⟩ : BufTy).Contents (Elt Ideal) := Cert.Net.lay2 (T_v18 m c) (T_v25 m c) (A5 m c) (A6 m c)
def T_v37 : (⟨S50000x128, .f32⟩ : BufTy).Contents (Elt Ideal) := Cert.Net.agg128 (T_v11 m c) (A1 m c) (A2 m c)
def T_v38 : (⟨S1x64, .f32⟩ : BufTy).Contents (Elt Ideal) := Cert.HostK.rs64 (A8 m c)
def T_v39 : (⟨S50000x64, .f32⟩ : BufTy).Contents (Elt Ideal) := Cert.Net.lay3 (T_v11 m c) (T_v37 m c) (A7 m c) (A8 m c)
def T_v46 : (⟨S800000x64, .f32⟩ : BufTy).Contents (Elt Ideal) := Cert.Net.gat64 (T_v39 m c) (A1 m c)
def T_v53 : (⟨S800000x64, .f32⟩ : BufTy).Contents (Elt Ideal) := Cert.Net.gat64 (T_v39 m c) (A2 m c)
def T_v54 : (⟨S1x32, .f32⟩ : BufTy).Contents (Elt Ideal) := Cert.HostK.rs32 (A10 m c)
def T_v55 : (⟨S800000x32, .f32⟩ : BufTy).Contents (Elt Ideal) := Cert.Net.lay4 (T_v46 m c) (T_v53 m c) (A9 m c) (A10 m c)
def T_v56 : (⟨S1x32, .f32⟩ : BufTy).Contents (Elt Ideal) := Cert.HostK.rs32 (A16 m c)
def T_v57 : (⟨S800000x32, .f32⟩ : BufTy).Contents (Elt Ideal) := Cert.Net.lay5 (T_v27 m c) (A15 m c) (A16 m c) (T_v55 m c)
def T_v67 : (⟨S50000x64, .f32⟩ : BufTy).Contents (Elt Ideal) := Cert.Net.agg64 (T_v39 m c) (A1 m c) (A2 m c)
def T_v68 : (⟨S1x32, .f32⟩ : BufTy).Contents (Elt Ideal) := Cert.HostK.rs32 (A12 m c)
def T_v69 : (⟨S50000x32, .f32⟩ : BufTy).Contents (Elt Ideal) := Cert.Net.lay6 (T_v39 m c) (T_v67 m c) (A11 m c) (A12 m c)
def T_v76 : (⟨S800000x32, .f32⟩ : BufTy).Contents (Elt Ideal) := Cert.Net.gat32 (T_v69 m c) (A1 m c)
def T_v83 : (⟨S800000x32, .f32⟩ : BufTy).Contents (Elt Ideal) := Cert.Net.gat32 (T_v69 m c) (A2 m c)
def T_v84 : (⟨S1x1, .f32⟩ : BufTy).Contents (Elt Ideal) := Cert.HostK.rs1 (A14 m c)
def T_v85 : (⟨S800000x1, .f32⟩ : BufTy).Contents (Elt Ideal) := Cert.Net.lay7 (T_v76 m c) (T_v83 m c) (A13 m c) (A14 m c)
def T_v86 : (⟨S1x1, .f32⟩ : BufTy).Contents (Elt Ideal) := Cert.HostK.rs1 (A18 m c)
def T_v87 : (⟨S800000x1, .f32⟩ : BufTy).Contents (Elt Ideal) := Cert.Net.lay8 (T_v57 m c) (A17 m c) (A18 m c) (T_v85 m c)

theorem f0_arg0 : W0 m ρ c (Proc.devRef .tc main_arg0) = A0 m c :=
  rfl
theorem f0_arg1 : W0 m ρ c (Proc.devRef .tc main_arg1) = A1 m c :=
  rfl
theorem f0_arg10 : W0 m ρ c (Proc.devRef .tc main_arg10) = A10 m c :=
  rfl
theorem f0_arg11 : W0 m ρ c (Proc.devRef .tc main_arg11) = A11 m c :=
  rfl
theorem f0_arg12 : W0 m ρ c (Proc.devRef .tc main_arg12) = A12 m c :=
  rfl
theorem f0_arg13 : W0 m ρ c (Proc.devRef .tc main_arg13) = A13 m c :=
  rfl
theorem f0_arg14 : W0 m ρ c (Proc.devRef .tc main_arg14) = A14 m c :=
  rfl
theorem f0_arg15 : W0 m ρ c (Proc.devRef .tc main_arg15) = A15 m c :=
  rfl
theorem f0_arg16 : W0 m ρ c (Proc.devRef .tc main_arg16) = A16 m c :=
  rfl
theorem f0_arg17 : W0 m ρ c (Proc.devRef .tc main_arg17) = A17 m c :=
  rfl
theorem f0_arg18 : W0 m ρ c (Proc.devRef .tc main_arg18) = A18 m c :=
  rfl
theorem f0_arg2 : W0 m ρ c (Proc.devRef .tc main_arg2) = A2 m c :=
  rfl
theorem f0_arg3 : W0 m ρ c (Proc.devRef .tc main_arg3) = A3 m c :=
  rfl
theorem f0_arg4 : W0 m ρ c (Proc.devRef .tc main_arg4) = A4 m c :=
  rfl
theorem f0_arg5 : W0 m ρ c (Proc.devRef .tc main_arg5) = A5 m c :=
  rfl
theorem f0_arg6 : W0 m ρ c (Proc.devRef .tc main_arg6) = A6 m c :=
  rfl
theorem f0_arg7 : W0 m ρ c (Proc.devRef .tc main_arg7) = A7 m c :=
  rfl
theorem f0_arg8 : W0 m ρ c (Proc.devRef .tc main_arg8) = A8 m c :=
  rfl
theorem f0_arg9 : W0 m ρ c (Proc.devRef .tc main_arg9) = A9 m c :=
  rfl
theorem f1_arg0 : W1 m ρ c (Proc.devRef .tc main_arg0) = A0 m c :=
  (Cert.HostK.hk_keep0 (W0 m ρ c) main_arg0 (by decide)).trans (f0_arg0 m ρ c)
theorem f1_arg1 : W1 m ρ c (Proc.devRef .tc main_arg1) = A1 m c :=
  (Cert.HostK.hk_keep0 (W0 m ρ c) main_arg1 (by decide)).trans (f0_arg1 m ρ c)
theorem f1_arg10 : W1 m ρ c (Proc.devRef .tc main_arg10) = A10 m c :=
  (Cert.HostK.hk_keep0 (W0 m ρ c) main_arg10 (by decide)).trans (f0_arg10 m ρ c)
theorem f1_arg11 : W1 m ρ c (Proc.devRef .tc main_arg11) = A11 m c :=
  (Cert.HostK.hk_keep0 (W0 m ρ c) main_arg11 (by decide)).trans (f0_arg11 m ρ c)
theorem f1_arg12 : W1 m ρ c (Proc.devRef .tc main_arg12) = A12 m c :=
  (Cert.HostK.hk_keep0 (W0 m ρ c) main_arg12 (by decide)).trans (f0_arg12 m ρ c)
theorem f1_arg13 : W1 m ρ c (Proc.devRef .tc main_arg13) = A13 m c :=
  (Cert.HostK.hk_keep0 (W0 m ρ c) main_arg13 (by decide)).trans (f0_arg13 m ρ c)
theorem f1_arg14 : W1 m ρ c (Proc.devRef .tc main_arg14) = A14 m c :=
  (Cert.HostK.hk_keep0 (W0 m ρ c) main_arg14 (by decide)).trans (f0_arg14 m ρ c)
theorem f1_arg15 : W1 m ρ c (Proc.devRef .tc main_arg15) = A15 m c :=
  (Cert.HostK.hk_keep0 (W0 m ρ c) main_arg15 (by decide)).trans (f0_arg15 m ρ c)
theorem f1_arg16 : W1 m ρ c (Proc.devRef .tc main_arg16) = A16 m c :=
  (Cert.HostK.hk_keep0 (W0 m ρ c) main_arg16 (by decide)).trans (f0_arg16 m ρ c)
theorem f1_arg17 : W1 m ρ c (Proc.devRef .tc main_arg17) = A17 m c :=
  (Cert.HostK.hk_keep0 (W0 m ρ c) main_arg17 (by decide)).trans (f0_arg17 m ρ c)
theorem f1_arg18 : W1 m ρ c (Proc.devRef .tc main_arg18) = A18 m c :=
  (Cert.HostK.hk_keep0 (W0 m ρ c) main_arg18 (by decide)).trans (f0_arg18 m ρ c)
theorem f1_arg2 : W1 m ρ c (Proc.devRef .tc main_arg2) = A2 m c :=
  (Cert.HostK.hk_keep0 (W0 m ρ c) main_arg2 (by decide)).trans (f0_arg2 m ρ c)
theorem f1_arg3 : W1 m ρ c (Proc.devRef .tc main_arg3) = A3 m c :=
  (Cert.HostK.hk_keep0 (W0 m ρ c) main_arg3 (by decide)).trans (f0_arg3 m ρ c)
theorem f1_arg5 : W1 m ρ c (Proc.devRef .tc main_arg5) = A5 m c :=
  (Cert.HostK.hk_keep0 (W0 m ρ c) main_arg5 (by decide)).trans (f0_arg5 m ρ c)
theorem f1_arg6 : W1 m ρ c (Proc.devRef .tc main_arg6) = A6 m c :=
  (Cert.HostK.hk_keep0 (W0 m ρ c) main_arg6 (by decide)).trans (f0_arg6 m ρ c)
theorem f1_arg7 : W1 m ρ c (Proc.devRef .tc main_arg7) = A7 m c :=
  (Cert.HostK.hk_keep0 (W0 m ρ c) main_arg7 (by decide)).trans (f0_arg7 m ρ c)
theorem f1_arg8 : W1 m ρ c (Proc.devRef .tc main_arg8) = A8 m c :=
  (Cert.HostK.hk_keep0 (W0 m ρ c) main_arg8 (by decide)).trans (f0_arg8 m ρ c)
theorem f1_arg9 : W1 m ρ c (Proc.devRef .tc main_arg9) = A9 m c :=
  (Cert.HostK.hk_keep0 (W0 m ρ c) main_arg9 (by decide)).trans (f0_arg9 m ρ c)
theorem f1_v10 : W1 m ρ c (Proc.devRef .tc main_v10) = T_v10 m c :=
  (Cert.HostK.hk_v10 (W0 m ρ c)).trans (by rw [f0_arg4 m ρ c]; rfl)
theorem f1_v9 : W1 m ρ c (Proc.devRef .tc main_v9) = T_v9 m c :=
  (Cert.HostK.hk_v9 (W0 m ρ c)).trans (by rw [f0_arg0 m ρ c, f0_arg1 m ρ c, f0_arg2 m ρ c]; rfl)
theorem f2_arg1 : W2 m ρ c (Proc.devRef .tc main_arg1) = A1 m c :=
  (W2_of_ne m ρ c main_arg1 (by decide)).trans (f1_arg1 m ρ c)
theorem f2_arg10 : W2 m ρ c (Proc.devRef .tc main_arg10) = A10 m c :=
  (W2_of_ne m ρ c main_arg10 (by decide)).trans (f1_arg10 m ρ c)
theorem f2_arg11 : W2 m ρ c (Proc.devRef .tc main_arg11) = A11 m c :=
  (W2_of_ne m ρ c main_arg11 (by decide)).trans (f1_arg11 m ρ c)
theorem f2_arg12 : W2 m ρ c (Proc.devRef .tc main_arg12) = A12 m c :=
  (W2_of_ne m ρ c main_arg12 (by decide)).trans (f1_arg12 m ρ c)
theorem f2_arg13 : W2 m ρ c (Proc.devRef .tc main_arg13) = A13 m c :=
  (W2_of_ne m ρ c main_arg13 (by decide)).trans (f1_arg13 m ρ c)
theorem f2_arg14 : W2 m ρ c (Proc.devRef .tc main_arg14) = A14 m c :=
  (W2_of_ne m ρ c main_arg14 (by decide)).trans (f1_arg14 m ρ c)
theorem f2_arg15 : W2 m ρ c (Proc.devRef .tc main_arg15) = A15 m c :=
  (W2_of_ne m ρ c main_arg15 (by decide)).trans (f1_arg15 m ρ c)
theorem f2_arg16 : W2 m ρ c (Proc.devRef .tc main_arg16) = A16 m c :=
  (W2_of_ne m ρ c main_arg16 (by decide)).trans (f1_arg16 m ρ c)
theorem f2_arg17 : W2 m ρ c (Proc.devRef .tc main_arg17) = A17 m c :=
  (W2_of_ne m ρ c main_arg17 (by decide)).trans (f1_arg17 m ρ c)
theorem f2_arg18 : W2 m ρ c (Proc.devRef .tc main_arg18) = A18 m c :=
  (W2_of_ne m ρ c main_arg18 (by decide)).trans (f1_arg18 m ρ c)
theorem f2_arg2 : W2 m ρ c (Proc.devRef .tc main_arg2) = A2 m c :=
  (W2_of_ne m ρ c main_arg2 (by decide)).trans (f1_arg2 m ρ c)
theorem f2_arg5 : W2 m ρ c (Proc.devRef .tc main_arg5) = A5 m c :=
  (W2_of_ne m ρ c main_arg5 (by decide)).trans (f1_arg5 m ρ c)
theorem f2_arg6 : W2 m ρ c (Proc.devRef .tc main_arg6) = A6 m c :=
  (W2_of_ne m ρ c main_arg6 (by decide)).trans (f1_arg6 m ρ c)
theorem f2_arg7 : W2 m ρ c (Proc.devRef .tc main_arg7) = A7 m c :=
  (W2_of_ne m ρ c main_arg7 (by decide)).trans (f1_arg7 m ρ c)
theorem f2_arg8 : W2 m ρ c (Proc.devRef .tc main_arg8) = A8 m c :=
  (W2_of_ne m ρ c main_arg8 (by decide)).trans (f1_arg8 m ρ c)
theorem f2_arg9 : W2 m ρ c (Proc.devRef .tc main_arg9) = A9 m c :=
  (W2_of_ne m ρ c main_arg9 (by decide)).trans (f1_arg9 m ρ c)
theorem f2_v11 : W2 m ρ c (Proc.devRef .tc main_v11) = T_v11 m c :=
  (W2_arr m ρ c 4).trans ((Cert.RegionEq.region0_eq (V1 m ρ) c (A4 m c) (f1_v10 m ρ c)).trans (by rw [show V1 m ρ c (Pipeline.arrRef spec0 0) = A0 m c from f1_arg0 m ρ c, show V1 m ρ c (Pipeline.arrRef spec0 1) = T_v9 m c from f1_v9 m ρ c, show V1 m ρ c (Pipeline.arrRef spec0 2) = A3 m c from f1_arg3 m ρ c]; rfl))
theorem f3_arg1 : W3 m ρ c (Proc.devRef .tc main_arg1) = A1 m c :=
  (Cert.HostK.hk_keep1 (W2 m ρ c) main_arg1 (by decide)).trans (f2_arg1 m ρ c)
theorem f3_arg10 : W3 m ρ c (Proc.devRef .tc main_arg10) = A10 m c :=
  (Cert.HostK.hk_keep1 (W2 m ρ c) main_arg10 (by decide)).trans (f2_arg10 m ρ c)
theorem f3_arg11 : W3 m ρ c (Proc.devRef .tc main_arg11) = A11 m c :=
  (Cert.HostK.hk_keep1 (W2 m ρ c) main_arg11 (by decide)).trans (f2_arg11 m ρ c)
theorem f3_arg12 : W3 m ρ c (Proc.devRef .tc main_arg12) = A12 m c :=
  (Cert.HostK.hk_keep1 (W2 m ρ c) main_arg12 (by decide)).trans (f2_arg12 m ρ c)
theorem f3_arg13 : W3 m ρ c (Proc.devRef .tc main_arg13) = A13 m c :=
  (Cert.HostK.hk_keep1 (W2 m ρ c) main_arg13 (by decide)).trans (f2_arg13 m ρ c)
theorem f3_arg14 : W3 m ρ c (Proc.devRef .tc main_arg14) = A14 m c :=
  (Cert.HostK.hk_keep1 (W2 m ρ c) main_arg14 (by decide)).trans (f2_arg14 m ρ c)
theorem f3_arg15 : W3 m ρ c (Proc.devRef .tc main_arg15) = A15 m c :=
  (Cert.HostK.hk_keep1 (W2 m ρ c) main_arg15 (by decide)).trans (f2_arg15 m ρ c)
theorem f3_arg16 : W3 m ρ c (Proc.devRef .tc main_arg16) = A16 m c :=
  (Cert.HostK.hk_keep1 (W2 m ρ c) main_arg16 (by decide)).trans (f2_arg16 m ρ c)
theorem f3_arg17 : W3 m ρ c (Proc.devRef .tc main_arg17) = A17 m c :=
  (Cert.HostK.hk_keep1 (W2 m ρ c) main_arg17 (by decide)).trans (f2_arg17 m ρ c)
theorem f3_arg18 : W3 m ρ c (Proc.devRef .tc main_arg18) = A18 m c :=
  (Cert.HostK.hk_keep1 (W2 m ρ c) main_arg18 (by decide)).trans (f2_arg18 m ρ c)
theorem f3_arg2 : W3 m ρ c (Proc.devRef .tc main_arg2) = A2 m c :=
  (Cert.HostK.hk_keep1 (W2 m ρ c) main_arg2 (by decide)).trans (f2_arg2 m ρ c)
theorem f3_arg5 : W3 m ρ c (Proc.devRef .tc main_arg5) = A5 m c :=
  (Cert.HostK.hk_keep1 (W2 m ρ c) main_arg5 (by decide)).trans (f2_arg5 m ρ c)
theorem f3_arg7 : W3 m ρ c (Proc.devRef .tc main_arg7) = A7 m c :=
  (Cert.HostK.hk_keep1 (W2 m ρ c) main_arg7 (by decide)).trans (f2_arg7 m ρ c)
theorem f3_arg8 : W3 m ρ c (Proc.devRef .tc main_arg8) = A8 m c :=
  (Cert.HostK.hk_keep1 (W2 m ρ c) main_arg8 (by decide)).trans (f2_arg8 m ρ c)
theorem f3_arg9 : W3 m ρ c (Proc.devRef .tc main_arg9) = A9 m c :=
  (Cert.HostK.hk_keep1 (W2 m ρ c) main_arg9 (by decide)).trans (f2_arg9 m ρ c)
theorem f3_v11 : W3 m ρ c (Proc.devRef .tc main_v11) = T_v11 m c :=
  (Cert.HostK.hk_keep1 (W2 m ρ c) main_v11 (by decide)).trans (f2_v11 m ρ c)
theorem f3_v18 : W3 m ρ c (Proc.devRef .tc main_v18) = T_v18 m c :=
  (Cert.HostK.hk_v18 (W2 m ρ c)).trans (by rw [f2_v11 m ρ c, f2_arg1 m ρ c]; rfl)
theorem f3_v25 : W3 m ρ c (Proc.devRef .tc main_v25) = T_v25 m c :=
  (Cert.HostK.hk_v25 (W2 m ρ c)).trans (by rw [f2_v11 m ρ c, f2_arg2 m ρ c]; rfl)
theorem f3_v26 : W3 m ρ c (Proc.devRef .tc main_v26) = T_v26 m c :=
  (Cert.HostK.hk_v26 (W2 m ρ c)).trans (by rw [f2_arg6 m ρ c]; rfl)
theorem f4_arg1 : W4 m ρ c (Proc.devRef .tc main_arg1) = A1 m c :=
  (W4_of_ne m ρ c main_arg1 (by decide)).trans (f3_arg1 m ρ c)
theorem f4_arg10 : W4 m ρ c (Proc.devRef .tc main_arg10) = A10 m c :=
  (W4_of_ne m ρ c main_arg10 (by decide)).trans (f3_arg10 m ρ c)
theorem f4_arg11 : W4 m ρ c (Proc.devRef .tc main_arg11) = A11 m c :=
  (W4_of_ne m ρ c main_arg11 (by decide)).trans (f3_arg11 m ρ c)
theorem f4_arg12 : W4 m ρ c (Proc.devRef .tc main_arg12) = A12 m c :=
  (W4_of_ne m ρ c main_arg12 (by decide)).trans (f3_arg12 m ρ c)
theorem f4_arg13 : W4 m ρ c (Proc.devRef .tc main_arg13) = A13 m c :=
  (W4_of_ne m ρ c main_arg13 (by decide)).trans (f3_arg13 m ρ c)
theorem f4_arg14 : W4 m ρ c (Proc.devRef .tc main_arg14) = A14 m c :=
  (W4_of_ne m ρ c main_arg14 (by decide)).trans (f3_arg14 m ρ c)
theorem f4_arg15 : W4 m ρ c (Proc.devRef .tc main_arg15) = A15 m c :=
  (W4_of_ne m ρ c main_arg15 (by decide)).trans (f3_arg15 m ρ c)
theorem f4_arg16 : W4 m ρ c (Proc.devRef .tc main_arg16) = A16 m c :=
  (W4_of_ne m ρ c main_arg16 (by decide)).trans (f3_arg16 m ρ c)
theorem f4_arg17 : W4 m ρ c (Proc.devRef .tc main_arg17) = A17 m c :=
  (W4_of_ne m ρ c main_arg17 (by decide)).trans (f3_arg17 m ρ c)
theorem f4_arg18 : W4 m ρ c (Proc.devRef .tc main_arg18) = A18 m c :=
  (W4_of_ne m ρ c main_arg18 (by decide)).trans (f3_arg18 m ρ c)
theorem f4_arg2 : W4 m ρ c (Proc.devRef .tc main_arg2) = A2 m c :=
  (W4_of_ne m ρ c main_arg2 (by decide)).trans (f3_arg2 m ρ c)
theorem f4_arg7 : W4 m ρ c (Proc.devRef .tc main_arg7) = A7 m c :=
  (W4_of_ne m ρ c main_arg7 (by decide)).trans (f3_arg7 m ρ c)
theorem f4_arg8 : W4 m ρ c (Proc.devRef .tc main_arg8) = A8 m c :=
  (W4_of_ne m ρ c main_arg8 (by decide)).trans (f3_arg8 m ρ c)
theorem f4_arg9 : W4 m ρ c (Proc.devRef .tc main_arg9) = A9 m c :=
  (W4_of_ne m ρ c main_arg9 (by decide)).trans (f3_arg9 m ρ c)
theorem f4_v11 : W4 m ρ c (Proc.devRef .tc main_v11) = T_v11 m c :=
  (W4_of_ne m ρ c main_v11 (by decide)).trans (f3_v11 m ρ c)
theorem f4_v27 : W4 m ρ c (Proc.devRef .tc main_v27) = T_v27 m c :=
  (W4_arr m ρ c 4).trans ((Cert.RegionEq.region1_eq (V3 m ρ) c (A6 m c) (f3_v26 m ρ c)).trans (by rw [show V3 m ρ c (Pipeline.arrRef spec1 0) = T_v18 m c from f3_v18 m ρ c, show V3 m ρ c (Pipeline.arrRef spec1 1) = T_v25 m c from f3_v25 m ρ c, show V3 m ρ c (Pipeline.arrRef spec1 2) = A5 m c from f3_arg5 m ρ c]; rfl))
theorem f5_arg1 : W5 m ρ c (Proc.devRef .tc main_arg1) = A1 m c :=
  (Cert.HostK.hk_keep2 (W4 m ρ c) main_arg1 (by decide)).trans (f4_arg1 m ρ c)
theorem f5_arg10 : W5 m ρ c (Proc.devRef .tc main_arg10) = A10 m c :=
  (Cert.HostK.hk_keep2 (W4 m ρ c) main_arg10 (by decide)).trans (f4_arg10 m ρ c)
theorem f5_arg11 : W5 m ρ c (Proc.devRef .tc main_arg11) = A11 m c :=
  (Cert.HostK.hk_keep2 (W4 m ρ c) main_arg11 (by decide)).trans (f4_arg11 m ρ c)
theorem f5_arg12 : W5 m ρ c (Proc.devRef .tc main_arg12) = A12 m c :=
  (Cert.HostK.hk_keep2 (W4 m ρ c) main_arg12 (by decide)).trans (f4_arg12 m ρ c)
theorem f5_arg13 : W5 m ρ c (Proc.devRef .tc main_arg13) = A13 m c :=
  (Cert.HostK.hk_keep2 (W4 m ρ c) main_arg13 (by decide)).trans (f4_arg13 m ρ c)
theorem f5_arg14 : W5 m ρ c (Proc.devRef .tc main_arg14) = A14 m c :=
  (Cert.HostK.hk_keep2 (W4 m ρ c) main_arg14 (by decide)).trans (f4_arg14 m ρ c)
theorem f5_arg15 : W5 m ρ c (Proc.devRef .tc main_arg15) = A15 m c :=
  (Cert.HostK.hk_keep2 (W4 m ρ c) main_arg15 (by decide)).trans (f4_arg15 m ρ c)
theorem f5_arg16 : W5 m ρ c (Proc.devRef .tc main_arg16) = A16 m c :=
  (Cert.HostK.hk_keep2 (W4 m ρ c) main_arg16 (by decide)).trans (f4_arg16 m ρ c)
theorem f5_arg17 : W5 m ρ c (Proc.devRef .tc main_arg17) = A17 m c :=
  (Cert.HostK.hk_keep2 (W4 m ρ c) main_arg17 (by decide)).trans (f4_arg17 m ρ c)
theorem f5_arg18 : W5 m ρ c (Proc.devRef .tc main_arg18) = A18 m c :=
  (Cert.HostK.hk_keep2 (W4 m ρ c) main_arg18 (by decide)).trans (f4_arg18 m ρ c)
theorem f5_arg2 : W5 m ρ c (Proc.devRef .tc main_arg2) = A2 m c :=
  (Cert.HostK.hk_keep2 (W4 m ρ c) main_arg2 (by decide)).trans (f4_arg2 m ρ c)
theorem f5_arg7 : W5 m ρ c (Proc.devRef .tc main_arg7) = A7 m c :=
  (Cert.HostK.hk_keep2 (W4 m ρ c) main_arg7 (by decide)).trans (f4_arg7 m ρ c)
theorem f5_arg9 : W5 m ρ c (Proc.devRef .tc main_arg9) = A9 m c :=
  (Cert.HostK.hk_keep2 (W4 m ρ c) main_arg9 (by decide)).trans (f4_arg9 m ρ c)
theorem f5_v11 : W5 m ρ c (Proc.devRef .tc main_v11) = T_v11 m c :=
  (Cert.HostK.hk_keep2 (W4 m ρ c) main_v11 (by decide)).trans (f4_v11 m ρ c)
theorem f5_v27 : W5 m ρ c (Proc.devRef .tc main_v27) = T_v27 m c :=
  (Cert.HostK.hk_keep2 (W4 m ρ c) main_v27 (by decide)).trans (f4_v27 m ρ c)
theorem f5_v37 : W5 m ρ c (Proc.devRef .tc main_v37) = T_v37 m c :=
  (Cert.HostK.hk_v37 (W4 m ρ c)).trans (by rw [f4_v11 m ρ c, f4_arg1 m ρ c, f4_arg2 m ρ c]; rfl)
theorem f5_v38 : W5 m ρ c (Proc.devRef .tc main_v38) = T_v38 m c :=
  (Cert.HostK.hk_v38 (W4 m ρ c)).trans (by rw [f4_arg8 m ρ c]; rfl)
theorem f6_arg1 : W6 m ρ c (Proc.devRef .tc main_arg1) = A1 m c :=
  (W6_of_ne m ρ c main_arg1 (by decide)).trans (f5_arg1 m ρ c)
theorem f6_arg10 : W6 m ρ c (Proc.devRef .tc main_arg10) = A10 m c :=
  (W6_of_ne m ρ c main_arg10 (by decide)).trans (f5_arg10 m ρ c)
theorem f6_arg11 : W6 m ρ c (Proc.devRef .tc main_arg11) = A11 m c :=
  (W6_of_ne m ρ c main_arg11 (by decide)).trans (f5_arg11 m ρ c)
theorem f6_arg12 : W6 m ρ c (Proc.devRef .tc main_arg12) = A12 m c :=
  (W6_of_ne m ρ c main_arg12 (by decide)).trans (f5_arg12 m ρ c)
theorem f6_arg13 : W6 m ρ c (Proc.devRef .tc main_arg13) = A13 m c :=
  (W6_of_ne m ρ c main_arg13 (by decide)).trans (f5_arg13 m ρ c)
theorem f6_arg14 : W6 m ρ c (Proc.devRef .tc main_arg14) = A14 m c :=
  (W6_of_ne m ρ c main_arg14 (by decide)).trans (f5_arg14 m ρ c)
theorem f6_arg15 : W6 m ρ c (Proc.devRef .tc main_arg15) = A15 m c :=
  (W6_of_ne m ρ c main_arg15 (by decide)).trans (f5_arg15 m ρ c)
theorem f6_arg16 : W6 m ρ c (Proc.devRef .tc main_arg16) = A16 m c :=
  (W6_of_ne m ρ c main_arg16 (by decide)).trans (f5_arg16 m ρ c)
theorem f6_arg17 : W6 m ρ c (Proc.devRef .tc main_arg17) = A17 m c :=
  (W6_of_ne m ρ c main_arg17 (by decide)).trans (f5_arg17 m ρ c)
theorem f6_arg18 : W6 m ρ c (Proc.devRef .tc main_arg18) = A18 m c :=
  (W6_of_ne m ρ c main_arg18 (by decide)).trans (f5_arg18 m ρ c)
theorem f6_arg2 : W6 m ρ c (Proc.devRef .tc main_arg2) = A2 m c :=
  (W6_of_ne m ρ c main_arg2 (by decide)).trans (f5_arg2 m ρ c)
theorem f6_arg9 : W6 m ρ c (Proc.devRef .tc main_arg9) = A9 m c :=
  (W6_of_ne m ρ c main_arg9 (by decide)).trans (f5_arg9 m ρ c)
theorem f6_v27 : W6 m ρ c (Proc.devRef .tc main_v27) = T_v27 m c :=
  (W6_of_ne m ρ c main_v27 (by decide)).trans (f5_v27 m ρ c)
theorem f6_v39 : W6 m ρ c (Proc.devRef .tc main_v39) = T_v39 m c :=
  (W6_arr m ρ c 4).trans ((Cert.RegionEq.region2_eq (V5 m ρ) c (A8 m c) (f5_v38 m ρ c)).trans (by rw [show V5 m ρ c (Pipeline.arrRef spec2 0) = T_v11 m c from f5_v11 m ρ c, show V5 m ρ c (Pipeline.arrRef spec2 1) = T_v37 m c from f5_v37 m ρ c, show V5 m ρ c (Pipeline.arrRef spec2 2) = A7 m c from f5_arg7 m ρ c]; rfl))
theorem f7_arg1 : W7 m ρ c (Proc.devRef .tc main_arg1) = A1 m c :=
  (Cert.HostK.hk_keep3 (W6 m ρ c) main_arg1 (by decide)).trans (f6_arg1 m ρ c)
theorem f7_arg11 : W7 m ρ c (Proc.devRef .tc main_arg11) = A11 m c :=
  (Cert.HostK.hk_keep3 (W6 m ρ c) main_arg11 (by decide)).trans (f6_arg11 m ρ c)
theorem f7_arg12 : W7 m ρ c (Proc.devRef .tc main_arg12) = A12 m c :=
  (Cert.HostK.hk_keep3 (W6 m ρ c) main_arg12 (by decide)).trans (f6_arg12 m ρ c)
theorem f7_arg13 : W7 m ρ c (Proc.devRef .tc main_arg13) = A13 m c :=
  (Cert.HostK.hk_keep3 (W6 m ρ c) main_arg13 (by decide)).trans (f6_arg13 m ρ c)
theorem f7_arg14 : W7 m ρ c (Proc.devRef .tc main_arg14) = A14 m c :=
  (Cert.HostK.hk_keep3 (W6 m ρ c) main_arg14 (by decide)).trans (f6_arg14 m ρ c)
theorem f7_arg15 : W7 m ρ c (Proc.devRef .tc main_arg15) = A15 m c :=
  (Cert.HostK.hk_keep3 (W6 m ρ c) main_arg15 (by decide)).trans (f6_arg15 m ρ c)
theorem f7_arg16 : W7 m ρ c (Proc.devRef .tc main_arg16) = A16 m c :=
  (Cert.HostK.hk_keep3 (W6 m ρ c) main_arg16 (by decide)).trans (f6_arg16 m ρ c)
theorem f7_arg17 : W7 m ρ c (Proc.devRef .tc main_arg17) = A17 m c :=
  (Cert.HostK.hk_keep3 (W6 m ρ c) main_arg17 (by decide)).trans (f6_arg17 m ρ c)
theorem f7_arg18 : W7 m ρ c (Proc.devRef .tc main_arg18) = A18 m c :=
  (Cert.HostK.hk_keep3 (W6 m ρ c) main_arg18 (by decide)).trans (f6_arg18 m ρ c)
theorem f7_arg2 : W7 m ρ c (Proc.devRef .tc main_arg2) = A2 m c :=
  (Cert.HostK.hk_keep3 (W6 m ρ c) main_arg2 (by decide)).trans (f6_arg2 m ρ c)
theorem f7_arg9 : W7 m ρ c (Proc.devRef .tc main_arg9) = A9 m c :=
  (Cert.HostK.hk_keep3 (W6 m ρ c) main_arg9 (by decide)).trans (f6_arg9 m ρ c)
theorem f7_v27 : W7 m ρ c (Proc.devRef .tc main_v27) = T_v27 m c :=
  (Cert.HostK.hk_keep3 (W6 m ρ c) main_v27 (by decide)).trans (f6_v27 m ρ c)
theorem f7_v39 : W7 m ρ c (Proc.devRef .tc main_v39) = T_v39 m c :=
  (Cert.HostK.hk_keep3 (W6 m ρ c) main_v39 (by decide)).trans (f6_v39 m ρ c)
theorem f7_v46 : W7 m ρ c (Proc.devRef .tc main_v46) = T_v46 m c :=
  (Cert.HostK.hk_v46 (W6 m ρ c)).trans (by rw [f6_v39 m ρ c, f6_arg1 m ρ c]; rfl)
theorem f7_v53 : W7 m ρ c (Proc.devRef .tc main_v53) = T_v53 m c :=
  (Cert.HostK.hk_v53 (W6 m ρ c)).trans (by rw [f6_v39 m ρ c, f6_arg2 m ρ c]; rfl)
theorem f7_v54 : W7 m ρ c (Proc.devRef .tc main_v54) = T_v54 m c :=
  (Cert.HostK.hk_v54 (W6 m ρ c)).trans (by rw [f6_arg10 m ρ c]; rfl)
theorem f8_arg1 : W8 m ρ c (Proc.devRef .tc main_arg1) = A1 m c :=
  (W8_of_ne m ρ c main_arg1 (by decide)).trans (f7_arg1 m ρ c)
theorem f8_arg11 : W8 m ρ c (Proc.devRef .tc main_arg11) = A11 m c :=
  (W8_of_ne m ρ c main_arg11 (by decide)).trans (f7_arg11 m ρ c)
theorem f8_arg12 : W8 m ρ c (Proc.devRef .tc main_arg12) = A12 m c :=
  (W8_of_ne m ρ c main_arg12 (by decide)).trans (f7_arg12 m ρ c)
theorem f8_arg13 : W8 m ρ c (Proc.devRef .tc main_arg13) = A13 m c :=
  (W8_of_ne m ρ c main_arg13 (by decide)).trans (f7_arg13 m ρ c)
theorem f8_arg14 : W8 m ρ c (Proc.devRef .tc main_arg14) = A14 m c :=
  (W8_of_ne m ρ c main_arg14 (by decide)).trans (f7_arg14 m ρ c)
theorem f8_arg15 : W8 m ρ c (Proc.devRef .tc main_arg15) = A15 m c :=
  (W8_of_ne m ρ c main_arg15 (by decide)).trans (f7_arg15 m ρ c)
theorem f8_arg16 : W8 m ρ c (Proc.devRef .tc main_arg16) = A16 m c :=
  (W8_of_ne m ρ c main_arg16 (by decide)).trans (f7_arg16 m ρ c)
theorem f8_arg17 : W8 m ρ c (Proc.devRef .tc main_arg17) = A17 m c :=
  (W8_of_ne m ρ c main_arg17 (by decide)).trans (f7_arg17 m ρ c)
theorem f8_arg18 : W8 m ρ c (Proc.devRef .tc main_arg18) = A18 m c :=
  (W8_of_ne m ρ c main_arg18 (by decide)).trans (f7_arg18 m ρ c)
theorem f8_arg2 : W8 m ρ c (Proc.devRef .tc main_arg2) = A2 m c :=
  (W8_of_ne m ρ c main_arg2 (by decide)).trans (f7_arg2 m ρ c)
theorem f8_v27 : W8 m ρ c (Proc.devRef .tc main_v27) = T_v27 m c :=
  (W8_of_ne m ρ c main_v27 (by decide)).trans (f7_v27 m ρ c)
theorem f8_v39 : W8 m ρ c (Proc.devRef .tc main_v39) = T_v39 m c :=
  (W8_of_ne m ρ c main_v39 (by decide)).trans (f7_v39 m ρ c)
theorem f8_v55 : W8 m ρ c (Proc.devRef .tc main_v55) = T_v55 m c :=
  (W8_arr m ρ c 4).trans ((Cert.RegionEq.region3_eq (V7 m ρ) c (A10 m c) (f7_v54 m ρ c)).trans (by rw [show V7 m ρ c (Pipeline.arrRef spec3 0) = T_v46 m c from f7_v46 m ρ c, show V7 m ρ c (Pipeline.arrRef spec3 1) = T_v53 m c from f7_v53 m ρ c, show V7 m ρ c (Pipeline.arrRef spec3 2) = A9 m c from f7_arg9 m ρ c]; rfl))
theorem f9_arg1 : W9 m ρ c (Proc.devRef .tc main_arg1) = A1 m c :=
  (Cert.HostK.hk_keep4 (W8 m ρ c) main_arg1 (by decide)).trans (f8_arg1 m ρ c)
theorem f9_arg11 : W9 m ρ c (Proc.devRef .tc main_arg11) = A11 m c :=
  (Cert.HostK.hk_keep4 (W8 m ρ c) main_arg11 (by decide)).trans (f8_arg11 m ρ c)
theorem f9_arg12 : W9 m ρ c (Proc.devRef .tc main_arg12) = A12 m c :=
  (Cert.HostK.hk_keep4 (W8 m ρ c) main_arg12 (by decide)).trans (f8_arg12 m ρ c)
theorem f9_arg13 : W9 m ρ c (Proc.devRef .tc main_arg13) = A13 m c :=
  (Cert.HostK.hk_keep4 (W8 m ρ c) main_arg13 (by decide)).trans (f8_arg13 m ρ c)
theorem f9_arg14 : W9 m ρ c (Proc.devRef .tc main_arg14) = A14 m c :=
  (Cert.HostK.hk_keep4 (W8 m ρ c) main_arg14 (by decide)).trans (f8_arg14 m ρ c)
theorem f9_arg15 : W9 m ρ c (Proc.devRef .tc main_arg15) = A15 m c :=
  (Cert.HostK.hk_keep4 (W8 m ρ c) main_arg15 (by decide)).trans (f8_arg15 m ρ c)
theorem f9_arg17 : W9 m ρ c (Proc.devRef .tc main_arg17) = A17 m c :=
  (Cert.HostK.hk_keep4 (W8 m ρ c) main_arg17 (by decide)).trans (f8_arg17 m ρ c)
theorem f9_arg18 : W9 m ρ c (Proc.devRef .tc main_arg18) = A18 m c :=
  (Cert.HostK.hk_keep4 (W8 m ρ c) main_arg18 (by decide)).trans (f8_arg18 m ρ c)
theorem f9_arg2 : W9 m ρ c (Proc.devRef .tc main_arg2) = A2 m c :=
  (Cert.HostK.hk_keep4 (W8 m ρ c) main_arg2 (by decide)).trans (f8_arg2 m ρ c)
theorem f9_v27 : W9 m ρ c (Proc.devRef .tc main_v27) = T_v27 m c :=
  (Cert.HostK.hk_keep4 (W8 m ρ c) main_v27 (by decide)).trans (f8_v27 m ρ c)
theorem f9_v39 : W9 m ρ c (Proc.devRef .tc main_v39) = T_v39 m c :=
  (Cert.HostK.hk_keep4 (W8 m ρ c) main_v39 (by decide)).trans (f8_v39 m ρ c)
theorem f9_v55 : W9 m ρ c (Proc.devRef .tc main_v55) = T_v55 m c :=
  (Cert.HostK.hk_keep4 (W8 m ρ c) main_v55 (by decide)).trans (f8_v55 m ρ c)
theorem f9_v56 : W9 m ρ c (Proc.devRef .tc main_v56) = T_v56 m c :=
  (Cert.HostK.hk_v56 (W8 m ρ c)).trans (by rw [f8_arg16 m ρ c]; rfl)
theorem f10_arg1 : W10 m ρ c (Proc.devRef .tc main_arg1) = A1 m c :=
  (W10_of_ne m ρ c main_arg1 (by decide)).trans (f9_arg1 m ρ c)
theorem f10_arg11 : W10 m ρ c (Proc.devRef .tc main_arg11) = A11 m c :=
  (W10_of_ne m ρ c main_arg11 (by decide)).trans (f9_arg11 m ρ c)
theorem f10_arg12 : W10 m ρ c (Proc.devRef .tc main_arg12) = A12 m c :=
  (W10_of_ne m ρ c main_arg12 (by decide)).trans (f9_arg12 m ρ c)
theorem f10_arg13 : W10 m ρ c (Proc.devRef .tc main_arg13) = A13 m c :=
  (W10_of_ne m ρ c main_arg13 (by decide)).trans (f9_arg13 m ρ c)
theorem f10_arg14 : W10 m ρ c (Proc.devRef .tc main_arg14) = A14 m c :=
  (W10_of_ne m ρ c main_arg14 (by decide)).trans (f9_arg14 m ρ c)
theorem f10_arg17 : W10 m ρ c (Proc.devRef .tc main_arg17) = A17 m c :=
  (W10_of_ne m ρ c main_arg17 (by decide)).trans (f9_arg17 m ρ c)
theorem f10_arg18 : W10 m ρ c (Proc.devRef .tc main_arg18) = A18 m c :=
  (W10_of_ne m ρ c main_arg18 (by decide)).trans (f9_arg18 m ρ c)
theorem f10_arg2 : W10 m ρ c (Proc.devRef .tc main_arg2) = A2 m c :=
  (W10_of_ne m ρ c main_arg2 (by decide)).trans (f9_arg2 m ρ c)
theorem f10_v39 : W10 m ρ c (Proc.devRef .tc main_v39) = T_v39 m c :=
  (W10_of_ne m ρ c main_v39 (by decide)).trans (f9_v39 m ρ c)
theorem f10_v57 : W10 m ρ c (Proc.devRef .tc main_v57) = T_v57 m c :=
  (W10_arr m ρ c 4).trans ((Cert.RegionEq.region4_eq (V9 m ρ) c (A16 m c) (f9_v56 m ρ c)).trans (by rw [show V9 m ρ c (Pipeline.arrRef spec4 0) = T_v27 m c from f9_v27 m ρ c, show V9 m ρ c (Pipeline.arrRef spec4 1) = A15 m c from f9_arg15 m ρ c, show V9 m ρ c (Pipeline.arrRef spec4 3) = T_v55 m c from f9_v55 m ρ c]; rfl))
theorem f11_arg1 : W11 m ρ c (Proc.devRef .tc main_arg1) = A1 m c :=
  (Cert.HostK.hk_keep5 (W10 m ρ c) main_arg1 (by decide)).trans (f10_arg1 m ρ c)
theorem f11_arg11 : W11 m ρ c (Proc.devRef .tc main_arg11) = A11 m c :=
  (Cert.HostK.hk_keep5 (W10 m ρ c) main_arg11 (by decide)).trans (f10_arg11 m ρ c)
theorem f11_arg13 : W11 m ρ c (Proc.devRef .tc main_arg13) = A13 m c :=
  (Cert.HostK.hk_keep5 (W10 m ρ c) main_arg13 (by decide)).trans (f10_arg13 m ρ c)
theorem f11_arg14 : W11 m ρ c (Proc.devRef .tc main_arg14) = A14 m c :=
  (Cert.HostK.hk_keep5 (W10 m ρ c) main_arg14 (by decide)).trans (f10_arg14 m ρ c)
theorem f11_arg17 : W11 m ρ c (Proc.devRef .tc main_arg17) = A17 m c :=
  (Cert.HostK.hk_keep5 (W10 m ρ c) main_arg17 (by decide)).trans (f10_arg17 m ρ c)
theorem f11_arg18 : W11 m ρ c (Proc.devRef .tc main_arg18) = A18 m c :=
  (Cert.HostK.hk_keep5 (W10 m ρ c) main_arg18 (by decide)).trans (f10_arg18 m ρ c)
theorem f11_arg2 : W11 m ρ c (Proc.devRef .tc main_arg2) = A2 m c :=
  (Cert.HostK.hk_keep5 (W10 m ρ c) main_arg2 (by decide)).trans (f10_arg2 m ρ c)
theorem f11_v39 : W11 m ρ c (Proc.devRef .tc main_v39) = T_v39 m c :=
  (Cert.HostK.hk_keep5 (W10 m ρ c) main_v39 (by decide)).trans (f10_v39 m ρ c)
theorem f11_v57 : W11 m ρ c (Proc.devRef .tc main_v57) = T_v57 m c :=
  (Cert.HostK.hk_keep5 (W10 m ρ c) main_v57 (by decide)).trans (f10_v57 m ρ c)
theorem f11_v67 : W11 m ρ c (Proc.devRef .tc main_v67) = T_v67 m c :=
  (Cert.HostK.hk_v67 (W10 m ρ c)).trans (by rw [f10_v39 m ρ c, f10_arg1 m ρ c, f10_arg2 m ρ c]; rfl)
theorem f11_v68 : W11 m ρ c (Proc.devRef .tc main_v68) = T_v68 m c :=
  (Cert.HostK.hk_v68 (W10 m ρ c)).trans (by rw [f10_arg12 m ρ c]; rfl)
theorem f12_arg1 : W12 m ρ c (Proc.devRef .tc main_arg1) = A1 m c :=
  (W12_of_ne m ρ c main_arg1 (by decide)).trans (f11_arg1 m ρ c)
theorem f12_arg13 : W12 m ρ c (Proc.devRef .tc main_arg13) = A13 m c :=
  (W12_of_ne m ρ c main_arg13 (by decide)).trans (f11_arg13 m ρ c)
theorem f12_arg14 : W12 m ρ c (Proc.devRef .tc main_arg14) = A14 m c :=
  (W12_of_ne m ρ c main_arg14 (by decide)).trans (f11_arg14 m ρ c)
theorem f12_arg17 : W12 m ρ c (Proc.devRef .tc main_arg17) = A17 m c :=
  (W12_of_ne m ρ c main_arg17 (by decide)).trans (f11_arg17 m ρ c)
theorem f12_arg18 : W12 m ρ c (Proc.devRef .tc main_arg18) = A18 m c :=
  (W12_of_ne m ρ c main_arg18 (by decide)).trans (f11_arg18 m ρ c)
theorem f12_arg2 : W12 m ρ c (Proc.devRef .tc main_arg2) = A2 m c :=
  (W12_of_ne m ρ c main_arg2 (by decide)).trans (f11_arg2 m ρ c)
theorem f12_v57 : W12 m ρ c (Proc.devRef .tc main_v57) = T_v57 m c :=
  (W12_of_ne m ρ c main_v57 (by decide)).trans (f11_v57 m ρ c)
theorem f12_v69 : W12 m ρ c (Proc.devRef .tc main_v69) = T_v69 m c :=
  (W12_arr m ρ c 4).trans ((Cert.RegionEq.region5_eq (V11 m ρ) c (A12 m c) (f11_v68 m ρ c)).trans (by rw [show V11 m ρ c (Pipeline.arrRef spec5 0) = T_v39 m c from f11_v39 m ρ c, show V11 m ρ c (Pipeline.arrRef spec5 1) = T_v67 m c from f11_v67 m ρ c, show V11 m ρ c (Pipeline.arrRef spec5 2) = A11 m c from f11_arg11 m ρ c]; rfl))
theorem f13_arg13 : W13 m ρ c (Proc.devRef .tc main_arg13) = A13 m c :=
  (Cert.HostK.hk_keep6 (W12 m ρ c) main_arg13 (by decide)).trans (f12_arg13 m ρ c)
theorem f13_arg17 : W13 m ρ c (Proc.devRef .tc main_arg17) = A17 m c :=
  (Cert.HostK.hk_keep6 (W12 m ρ c) main_arg17 (by decide)).trans (f12_arg17 m ρ c)
theorem f13_arg18 : W13 m ρ c (Proc.devRef .tc main_arg18) = A18 m c :=
  (Cert.HostK.hk_keep6 (W12 m ρ c) main_arg18 (by decide)).trans (f12_arg18 m ρ c)
theorem f13_v57 : W13 m ρ c (Proc.devRef .tc main_v57) = T_v57 m c :=
  (Cert.HostK.hk_keep6 (W12 m ρ c) main_v57 (by decide)).trans (f12_v57 m ρ c)
theorem f13_v76 : W13 m ρ c (Proc.devRef .tc main_v76) = T_v76 m c :=
  (Cert.HostK.hk_v76 (W12 m ρ c)).trans (by rw [f12_v69 m ρ c, f12_arg1 m ρ c]; rfl)
theorem f13_v83 : W13 m ρ c (Proc.devRef .tc main_v83) = T_v83 m c :=
  (Cert.HostK.hk_v83 (W12 m ρ c)).trans (by rw [f12_v69 m ρ c, f12_arg2 m ρ c]; rfl)
theorem f13_v84 : W13 m ρ c (Proc.devRef .tc main_v84) = T_v84 m c :=
  (Cert.HostK.hk_v84 (W12 m ρ c)).trans (by rw [f12_arg14 m ρ c]; rfl)
theorem f14_arg17 : W14 m ρ c (Proc.devRef .tc main_arg17) = A17 m c :=
  (W14_of_ne m ρ c main_arg17 (by decide)).trans (f13_arg17 m ρ c)
theorem f14_arg18 : W14 m ρ c (Proc.devRef .tc main_arg18) = A18 m c :=
  (W14_of_ne m ρ c main_arg18 (by decide)).trans (f13_arg18 m ρ c)
theorem f14_v57 : W14 m ρ c (Proc.devRef .tc main_v57) = T_v57 m c :=
  (W14_of_ne m ρ c main_v57 (by decide)).trans (f13_v57 m ρ c)
theorem f14_v85 : W14 m ρ c (Proc.devRef .tc main_v85) = T_v85 m c :=
  (W14_arr m ρ c 4).trans ((Cert.RegionEq.region6_eq (V13 m ρ) c (A14 m c) (f13_v84 m ρ c)).trans (by rw [show V13 m ρ c (Pipeline.arrRef spec6 0) = T_v76 m c from f13_v76 m ρ c, show V13 m ρ c (Pipeline.arrRef spec6 1) = T_v83 m c from f13_v83 m ρ c, show V13 m ρ c (Pipeline.arrRef spec6 2) = A13 m c from f13_arg13 m ρ c]; rfl))
theorem f15_arg17 : W15 m ρ c (Proc.devRef .tc main_arg17) = A17 m c :=
  (Cert.HostK.hk_keep7 (W14 m ρ c) main_arg17 (by decide)).trans (f14_arg17 m ρ c)
theorem f15_v57 : W15 m ρ c (Proc.devRef .tc main_v57) = T_v57 m c :=
  (Cert.HostK.hk_keep7 (W14 m ρ c) main_v57 (by decide)).trans (f14_v57 m ρ c)
theorem f15_v85 : W15 m ρ c (Proc.devRef .tc main_v85) = T_v85 m c :=
  (Cert.HostK.hk_keep7 (W14 m ρ c) main_v85 (by decide)).trans (f14_v85 m ρ c)
theorem f15_v86 : W15 m ρ c (Proc.devRef .tc main_v86) = T_v86 m c :=
  (Cert.HostK.hk_v86 (W14 m ρ c)).trans (by rw [f14_arg18 m ρ c]; rfl)
theorem f16_v87 : W16 m ρ c (Proc.devRef .tc main_v87) = T_v87 m c :=
  (W16_arr m ρ c 4).trans ((Cert.RegionEq.region7_eq (V15 m ρ) c (A18 m c) (f15_v86 m ρ c)).trans (by rw [show V15 m ρ c (Pipeline.arrRef spec7 0) = T_v57 m c from f15_v57 m ρ c, show V15 m ρ c (Pipeline.arrRef spec7 1) = A17 m c from f15_arg17 m ρ c, show V15 m ρ c (Pipeline.arrRef spec7 3) = T_v85 m c from f15_v85 m ρ c]; rfl))

/-- The last boundary holds the whole network of the launch arguments at the result buffer. -/
theorem result_eq : W16 m ρ c (Proc.devRef .tc main_v87) = Cert.Net.net (A0 m c) (A1 m c) (A2 m c) (A3 m c) (A4 m c) (A5 m c) (A6 m c) (A7 m c) (A8 m c) (A9 m c) (A10 m c) (A11 m c) (A12 m c) (A13 m c) (A14 m c) (A15 m c) (A16 m c) (A17 m c) (A18 m c) :=
  (f16_v87 m ρ c).trans rfl

end Cert.KernelIdeal.Chain

end
-- ==== Proof.RefRun.lean ====
/-
  The reference program's run, read as the network of Net.lean.

  The program's run ends with the result buffer at the last logistic, 1 / (1 + exp (-z)), of a pre-activation z
  written over the three arrays the program reads more than once: the node layers' outputs h1, h2, h3. Each of
  those is one node layer applied to the previous array and to its neighbour sum,

      h1 = lay1 x (agg64 x) ,   h2 = lay3 h1 (agg128 h1) ,   h3 = lay6 h2 (agg64 h2) ,

  and z is the last residual edge layer's pre-activation over the rows of h1, h2, h3 at the two endpoint lists:
  c1 = lay2 h1[src] h1[dst], c2 = lay4 h2[src] h2[dst], g1 = lay5 c1 c2, c3 = lay7 h3[src] h3[dst], out = lay8 g1 c3.
  Every equation below is an unfolding: the two sides are the same composition of the same host operations over the
  same dimension records, the network's definitions naming the stretches that the run's terms spell in full. They are
  stated over an arbitrary valuation of the buffers, for any float instance.
-/
import proofs.«157600_j9852654977700_1_alg».proof.Proof.Net
import proofs.«157600_j9852654977700_1_alg».proof.Proof.Gen.ReferenceIdeal.Run

set_option maxRecDepth 8192

noncomputable section

namespace Cert.RefRun

open Cert.ReferenceIdeal Cert.ReferenceIdeal.Gen Cert.ReferenceIdeal.Value
open Idealize.ShloMosaic Idealize.ShloMosaic.TcCoe Idealize.SL.Sem Idealize.ShloMosaic.StableHlo

variable {F : FTy → Type} [FloatOps F]

/-- The first node layer's output: the 64 → 128 layer on the node features and their neighbour sums. -/
theorem ra_h1 (V0 : Valuation τ sig (Elt F)) :
    res_main_v20 V0 = Cert.Net.lay1 (V0 (Proc.devRef .tc main_arg0)) (Cert.Net.agg64 (V0 (Proc.devRef .tc main_arg0)) (V0 (Proc.devRef .tc main_arg1)) (V0 (Proc.devRef .tc main_arg2))) (V0 (Proc.devRef .tc main_arg3)) (V0 (Proc.devRef .tc main_arg4)) := rfl

/-- The second node layer's output: the 128 → 64 layer on h1 and its neighbour sums. -/
theorem ra_h2 (V0 : Valuation τ sig (Elt F)) :
    res_main_v66 V0 = Cert.Net.lay3 (res_main_v20 V0) (Cert.Net.agg128 (res_main_v20 V0) (V0 (Proc.devRef .tc main_arg1)) (V0 (Proc.devRef .tc main_arg2))) (V0 (Proc.devRef .tc main_arg7)) (V0 (Proc.devRef .tc main_arg8)) := rfl

/-- The third node layer's output: the 64 → 32 layer on h2 and its neighbour sums. -/
theorem ra_h3 (V0 : Valuation τ sig (Elt F)) :
    res_main_v123 V0 = Cert.Net.lay6 (res_main_v66 V0) (Cert.Net.agg64 (res_main_v66 V0) (V0 (Proc.devRef .tc main_arg1)) (V0 (Proc.devRef .tc main_arg2))) (V0 (Proc.devRef .tc main_arg11)) (V0 (Proc.devRef .tc main_arg12)) := rfl

/-- The edge scores over h1, h2, h3: the three edge layers on the endpoint rows, the residual layer joining the first
    two, and the last residual layer, whose closing logistic is the one the run states around its pre-activation. -/
theorem ra_tail (V0 : Valuation τ sig (Elt F)) :
    Host.divf (broadcastInDim S800000x1 ![] bcast_S_S800000x1 (constant S_ .f32 0x3F800000#32)) (addf (broadcastInDim S800000x1 ![] bcast_S_S800000x1 (constant S_ .f32 0x3F800000#32)) (Host.exp (Host.negf (res_main_v153 V0))))
      = Cert.Net.lay8 (Cert.Net.lay5 (Cert.Net.lay2 (Cert.Net.gat128 (res_main_v20 V0) (V0 (Proc.devRef .tc main_arg1))) (Cert.Net.gat128 (res_main_v20 V0) (V0 (Proc.devRef .tc main_arg2))) (V0 (Proc.devRef .tc main_arg5)) (V0 (Proc.devRef .tc main_arg6))) (V0 (Proc.devRef .tc main_arg15)) (V0 (Proc.devRef .tc main_arg16)) (Cert.Net.lay4 (Cert.Net.gat64 (res_main_v66 V0) (V0 (Proc.devRef .tc main_arg1))) (Cert.Net.gat64 (res_main_v66 V0) (V0 (Proc.devRef .tc main_arg2))) (V0 (Proc.devRef .tc main_arg9)) (V0 (Proc.devRef .tc main_arg10)))) (V0 (Proc.devRef .tc main_arg17)) (V0 (Proc.devRef .tc main_arg18)) (Cert.Net.lay7 (Cert.Net.gat32 (res_main_v123 V0) (V0 (Proc.devRef .tc main_arg1))) (Cert.Net.gat32 (res_main_v123 V0) (V0 (Proc.devRef .tc main_arg2))) (V0 (Proc.devRef .tc main_arg13)) (V0 (Proc.devRef .tc main_arg14))) := rfl

/-- The network is the composition of its seventeen stretches (its definition with the names substituted). -/
theorem ra_net_unfold (a0 : (⟨S50000x64, .f32⟩ : BufTy).Contents (Elt F)) (a1 : (⟨S800000, .i32⟩ : BufTy).Contents (Elt F)) (a2 : (⟨S800000, .i32⟩ : BufTy).Contents (Elt F)) (a3 : (⟨S64x128, .f32⟩ : BufTy).Contents (Elt F)) (a4 : (⟨S128, .f32⟩ : BufTy).Contents (Elt F)) (a5 : (⟨S128x64, .f32⟩ : BufTy).Contents (Elt F)) (a6 : (⟨S64, .f32⟩ : BufTy).Contents (Elt F)) (a7 : (⟨S128x64, .f32⟩ : BufTy).Contents (Elt F)) (a8 : (⟨S64, .f32⟩ : BufTy).Contents (Elt F)) (a9 : (⟨S64x32, .f32⟩ : BufTy).Contents (Elt F)) (a10 : (⟨S32, .f32⟩ : BufTy).Contents (Elt F)) (a11 : (⟨S64x32, .f32⟩ : BufTy).Contents (Elt F)) (a12 : (⟨S32, .f32⟩ : BufTy).Contents (Elt F)) (a13 : (⟨S32x1, .f32⟩ : BufTy).Contents (Elt F)) (a14 : (⟨S1, .f32⟩ : BufTy).Contents (Elt F)) (a15 : (⟨S64x32, .f32⟩ : BufTy).Contents (Elt F)) (a16 : (⟨S32, .f32⟩ : BufTy).Contents (Elt F)) (a17 : (⟨S32x1, .f32⟩ : BufTy).Contents (Elt F)) (a18 : (⟨S1, .f32⟩ : BufTy).Contents (Elt F)) :
    Cert.Net.net a0 a1 a2 a3 a4 a5 a6 a7 a8 a9 a10 a11 a12 a13 a14 a15 a16 a17 a18
      = Cert.Net.lay8 (Cert.Net.lay5 (Cert.Net.lay2 (Cert.Net.gat128 (Cert.Net.lay1 a0 (Cert.Net.agg64 a0 a1 a2) a3 a4) a1) (Cert.Net.gat128 (Cert.Net.lay1 a0 (Cert.Net.agg64 a0 a1 a2) a3 a4) a2) a5 a6) a15 a16
          (Cert.Net.lay4 (Cert.Net.gat64 (Cert.Net.lay3 (Cert.Net.lay1 a0 (Cert.Net.agg64 a0 a1 a2) a3 a4) (Cert.Net.agg128 (Cert.Net.lay1 a0 (Cert.Net.agg64 a0 a1 a2) a3 a4) a1 a2) a7 a8) a1) (Cert.Net.gat64 (Cert.Net.lay3 (Cert.Net.lay1 a0 (Cert.Net.agg64 a0 a1 a2) a3 a4) (Cert.Net.agg128 (Cert.Net.lay1 a0 (Cert.Net.agg64 a0 a1 a2) a3 a4) a1 a2) a7 a8) a2) a9 a10)) a17 a18
          (Cert.Net.lay7 (Cert.Net.gat32 (Cert.Net.lay6 (Cert.Net.lay3 (Cert.Net.lay1 a0 (Cert.Net.agg64 a0 a1 a2) a3 a4) (Cert.Net.agg128 (Cert.Net.lay1 a0 (Cert.Net.agg64 a0 a1 a2) a3 a4) a1 a2) a7 a8) (Cert.Net.agg64 (Cert.Net.lay3 (Cert.Net.lay1 a0 (Cert.Net.agg64 a0 a1 a2) a3 a4) (Cert.Net.agg128 (Cert.Net.lay1 a0 (Cert.Net.agg64 a0 a1 a2) a3 a4) a1 a2) a7 a8) a1 a2) a11 a12) a1) (Cert.Net.gat32 (Cert.Net.lay6 (Cert.Net.lay3 (Cert.Net.lay1 a0 (Cert.Net.agg64 a0 a1 a2) a3 a4) (Cert.Net.agg128 (Cert.Net.lay1 a0 (Cert.Net.agg64 a0 a1 a2) a3 a4) a1 a2) a7 a8) (Cert.Net.agg64 (Cert.Net.lay3 (Cert.Net.lay1 a0 (Cert.Net.agg64 a0 a1 a2) a3 a4) (Cert.Net.agg128 (Cert.Net.lay1 a0 (Cert.Net.agg64 a0 a1 a2) a3 a4) a1 a2) a7 a8) a1 a2) a11 a12) a2) a13 a14) := rfl

/-- The run's term for the result buffer is the network of the nineteen arguments: the edge scores over h1, h2, h3,
    with h3, h2, h1 in turn replaced by the node layers that produce them. -/
theorem ra_net (V0 : Valuation τ sig (Elt F)) :
    Host.divf (broadcastInDim S800000x1 ![] bcast_S_S800000x1 (constant S_ .f32 0x3F800000#32)) (addf (broadcastInDim S800000x1 ![] bcast_S_S800000x1 (constant S_ .f32 0x3F800000#32)) (Host.exp (Host.negf (res_main_v153 V0))))
      = Cert.Net.net (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) := by
  rw [ra_net_unfold, ← ra_h1 V0, ← ra_h2 V0, ← ra_h3 V0]
  exact ra_tail V0

/-- On every device, from any memory with zero counters: every weakly fair execution of the reference program
    terminates with its result buffer at the network of the nineteen arguments' launch contents, the arguments unchanged. -/
theorem ra_run (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v159) = Cert.Net.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => ⟨(h c).1.trans (ra_net (launchContents m c)), (h c).2⟩) (Cert.ReferenceIdeal.Value.run m ρ)

end Cert.RefRun

end
-- ==== Proof.lean ====
/-
  The kernel is a three-round message-passing network on a graph of 50000 nodes and 800000 edges: node rounds
  h ↦ logistic ((h + Σ_{edges into the node} h[source]) · W + b), edge ("conduit") rounds
  c = logistic ((h[source] + h[destination]) · W + b), and two gated rounds logistic (c · W + b + c'). Its eight
  dense layers are Pallas kernels over row blocks; the gathers and the neighbour sums stay on the host. The
  reference is the same network written with jnp: the same gathers and neighbour sums, each layer a matrix
  product, a broadcast bias and the logistic spelt 1 / (1 + exp (-z)).

  At the exact instance the two programs compute one function, `Cert.Net.net` (Proof/Net.lean), of the nineteen
  arguments. A layer's matrix product — a kernel's product into a zero accumulator, or the host's — is the same
  finite sum ∑ₖ x i k · w k j (Proof/LibDense.lean); a change of float format is the identity; the kernel's
  logistic is 1 / (1 + exp (-z)) by definition; and a row block of a layer's output depends only on the same rows
  of its row-blocked inputs, so the blocks assemble into the whole layer (Proof/RegionValD.lean, RegionValE.lean).
  The kernel program's result is read off the fold of its segments (Proof/KernelRun.lean, KernelChain.lean), the
  reference's off its run (Proof/RefRun.lean). Only reindexing of finite sums is used, never distributivity, so the
  precondition (finite inputs) is not opened. The three frames are the generated ones; the idealization rewrote
  nothing, so `preserves` is trivial.
-/
import proofs.«157600_j9852654977700_1_alg».proof.Defs
import proofs.«157600_j9852654977700_1_alg».proof.Proof.Gen.Kernel
import proofs.«157600_j9852654977700_1_alg».proof.Proof.Gen.Kernel.Skeleton
import proofs.«157600_j9852654977700_1_alg».proof.Proof.Gen.Kernel.Launch
import proofs.«157600_j9852654977700_1_alg».proof.Proof.Gen.Kernel.Points
import proofs.«157600_j9852654977700_1_alg».proof.Proof.Gen.Kernel.Frame
import proofs.«157600_j9852654977700_1_alg».proof.Proof.Gen.KernelIdeal
import proofs.«157600_j9852654977700_1_alg».proof.Proof.Gen.KernelIdeal.Skeleton
import proofs.«157600_j9852654977700_1_alg».proof.Proof.Gen.KernelIdeal.Launch
import proofs.«157600_j9852654977700_1_alg».proof.Proof.Gen.KernelIdeal.Points
import proofs.«157600_j9852654977700_1_alg».proof.Proof.Gen.KernelIdeal.Frame
import proofs.«157600_j9852654977700_1_alg».proof.Proof.Gen.ReferenceIdeal
import proofs.«157600_j9852654977700_1_alg».proof.Proof.Gen.ReferenceIdeal.Run
import proofs.«157600_j9852654977700_1_alg».proof.Proof.Gen.Pre_finite_inputs
import proofs.«157600_j9852654977700_1_alg».proof.Proof.Net
import proofs.«157600_j9852654977700_1_alg».proof.Proof.KernelRun
import proofs.«157600_j9852654977700_1_alg».proof.Proof.KernelChain
import proofs.«157600_j9852654977700_1_alg».proof.Proof.RefRun
import Idealize.ShloMosaic.Adequacy
import Idealize.ShloMosaic.Init

noncomputable section

namespace Cert.Proof

open Idealize.ShloMosaic Idealize.ShloMosaic.TcCoe Idealize.SL.Sem

/-- The word-level kernel program runs, faults nowhere and leaves its arguments as launched: the generated frame. -/
theorem frame_kernel : Cert.frame_Kernel := fun m ρ _ => Cert.Kernel.Gen.frame m ρ

/-- The same for the idealized kernel program. -/
theorem frame_kernelIdeal : Cert.frame_KernelIdeal := fun m ρ _ => Cert.KernelIdeal.Gen.frame m ρ

/-- The reference program is a straight line of host operations: its generated run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation, so there is nothing to preserve. -/
theorem preserves : Cert.preserves_Kernel_KernelIdeal := trivial

/-- Both idealized programs end with their result at the one network function `Cert.Net.net` of the nineteen
    arguments: the kernel program through its eight regions (each a dense layer of its entry arrays) and the host
    stretches between them, the reference program through its straight line of host operations. From memories that
    agree on the arguments the two results are therefore equal, entry by entry; no finiteness of the inputs is used. -/
theorem algebraic : Cert.algebraic_KernelIdeal_ReferenceIdeal := by
  intro m ρ m' ρ' _ hagree
  refine ⟨fun c => Cert.Net.net (Cert.KernelIdeal.Chain.A0 m c) (Cert.KernelIdeal.Chain.A1 m c) (Cert.KernelIdeal.Chain.A2 m c) (Cert.KernelIdeal.Chain.A3 m c) (Cert.KernelIdeal.Chain.A4 m c) (Cert.KernelIdeal.Chain.A5 m c) (Cert.KernelIdeal.Chain.A6 m c) (Cert.KernelIdeal.Chain.A7 m c) (Cert.KernelIdeal.Chain.A8 m c) (Cert.KernelIdeal.Chain.A9 m c) (Cert.KernelIdeal.Chain.A10 m c) (Cert.KernelIdeal.Chain.A11 m c) (Cert.KernelIdeal.Chain.A12 m c) (Cert.KernelIdeal.Chain.A13 m c) (Cert.KernelIdeal.Chain.A14 m c) (Cert.KernelIdeal.Chain.A15 m c) (Cert.KernelIdeal.Chain.A16 m c) (Cert.KernelIdeal.Chain.A17 m c) (Cert.KernelIdeal.Chain.A18 m c), ?_, ?_⟩
  · exact (θ_run Cert.KernelIdeal.defs _ _).mono
      (fun r h c => ⟨(h c).1.trans (Cert.KernelIdeal.Chain.result_eq m ρ c), (h c).2⟩)
      (Cert.KernelIdeal.Run.run_named (F := Ideal) m ρ)
  · refine (θ_run Cert.ReferenceIdeal.defs _ _).mono (fun r h c => ⟨(h c).1.trans ?_, (h c).2⟩)
      (Cert.RefRun.ra_run (F := Ideal) m' ρ')
    obtain ⟨e0, e1, e2, e3, e4, e5, e6, e7, e8, e9, e10, e11, e12, e13, e14, e15, e16, e17, e18⟩ := hagree c
    rw [e0, e1, e2, e3, e4, e5, e6, e7, e8, e9, e10, e11, e12, e13, e14, e15, e16, e17, e18]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
